-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S16x64x1024 : Shape := ⟨3, ![16, 64, 1024]⟩
abbrev S16x64 : Shape := ⟨2, ![16, 64]⟩
abbrev S1024x1024 : Shape := ⟨2, ![1024, 1024]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S16x64x1024 : S_.BroadcastsInDim S16x64x1024 (![] : Fin 0 → Fin S16x64x1024.rank)
  reducesTo_S16x64x1024_S_d0_1_2 : S16x64x1024.ReducesTo [0, 1, 2] S_
  bcast_S_S16x64 : S_.BroadcastsInDim S16x64 (![] : Fin 0 → Fin S16x64.rank)
  reducesTo_S16x64_S_d0_1 : S16x64.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S16x64x1024 .f32) (main_arg8 : FVec F S16x64 .f32) (main_arg9 : FVec F S1024x1024 .f32) (main_arg10 : FVec F S1024 .f32) (main_v33 : IVec S_ 1) : IVec S_ 1 :=
  let main_v34 : FVec F S16x64x1024 .f32 := Host.absf main_arg7
  let main_cst_12 : FVec F S_ .f32 := constant S_ .f32 0x7F800000#32
  let main_v35 : FVec F S16x64x1024 .f32 := broadcastInDim S16x64x1024 ![] bcast_S_S16x64x1024 main_cst_12
  let main_v36 : IVec S16x64x1024 1 := cmpf .olt main_v34 main_v35
  let main_c_13 : IVec S_ 1 := constantI S_ 1 1#1
  let main_v37 : IVec S_ 1 := (fun x v => Host.reduce IntOp.andi x v reducesTo_S16x64x1024_S_d0_1_2 h_S_) main_v36 main_c_13
  let main_v38 : IVec S_ 1 := andi main_v33 main_v37
  let main_v39 : FVec F S16x64 .f32 := Host.absf main_arg8
  let main_cst_14 : FVec F S_ .f32 := constant S_ .f32 0x7F800000#32
  let main_v40 : FVec F S16x64 .f32 := broadcastInDim S16x64 ![] bcast_S_S16x64 main_cst_14
  let main_v41 : IVec S16x64 1 := cmpf .olt main_v39 main_v40
  let main_c_15 : IVec S_ 1 := constantI S_ 1 1#1
  let main_v42 : IVec S_ 1 := (fun x v => Host.reduce IntOp.andi x v reducesTo_S16x64_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S16x64 .f32) (main_arg5 : FVec F S16x64x1024 .f32) (main_arg6 : FVec F S16x64 .f32) (main_arg7 : FVec F S16x64x1024 .f32) (main_arg8 : FVec F S16x64 .f32) (main_arg9 : FVec F S1024x1024 .f32) (main_arg10 : FVec F S1024 .f32) (main_v13 : IVec S_ 1) (main_v16 : IVec S16x64x1024 1) : IVec S_ 1 :=
  let main_c_5 : IVec S_ 1 := constantI S_ 1 1#1
  let main_v17 : IVec S_ 1 := (fun x v => Host.reduce IntOp.andi x v reducesTo_S16x64x1024_S_d0_1_2 h_S_) main_v16 main_c_5
  let main_v18 : IVec S_ 1 := andi main_v13 main_v17
  let main_v19 : FVec F S16x64 .f32 := Host.absf main_arg4
  let main_cst_6 : FVec F S_ .f32 := constant S_ .f32 0x7F800000#32
  let main_v20 : FVec F S16x64 .f32 := broadcastInDim S16x64 ![] bcast_S_S16x64 main_cst_6
  let main_v21 : IVec S16x64 1 := cmpf .olt main_v19 main_v20
  let main_c_7 : IVec S_ 1 := constantI S_ 1 1#1
  let main_v22 : IVec S_ 1 := (fun x v => Host.reduce IntOp.andi x v reducesTo_S16x64_S_d0_1 h_S_) main_v21 main_c_7
  let main_v23 : IVec S_ 1 := andi main_v18 main_v22
  let main_v24 : FVec F S16x64x1024 .f32 := Host.absf main_arg5
  let main_cst_8 : FVec F S_ .f32 := constant S_ .f32 0x7F800000#32
  let main_v25 : FVec F S16x64x1024 .f32 := broadcastInDim S16x64x1024 ![] bcast_S_S16x64x1024 main_cst_8
  let main_v26 : IVec S16x64x1024 1 := cmpf .olt main_v24 main_v25
  let main_c_9 : IVec S_ 1 := constantI S_ 1 1#1
  let main_v27 : IVec S_ 1 := (fun x v => Host.reduce IntOp.andi x v reducesTo_S16x64x1024_S_d0_1_2 h_S_) main_v26 main_c_9
  let main_v28 : IVec S_ 1 := andi main_v23 main_v27
  let main_v29 : FVec F S16x64 .f32 := Host.absf main_arg6
  let main_cst_10 : FVec F S_ .f32 := constant S_ .f32 0x7F800000#32
  let main_v30 : FVec F S16x64 .f32 := broadcastInDim S16x64 ![] bcast_S_S16x64 main_cst_10
  let main_v31 : IVec S16x64 1 := cmpf .olt main_v29 main_v30
  let main_c_11 : IVec S_ 1 := constantI S_ 1 1#1
  let main_v32 : IVec S_ 1 := (fun x v => Host.reduce IntOp.andi x v reducesTo_S16x64_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S2048x1024 .f32) (main_arg1 : FVec F S2048x1024 .f32) (main_arg2 : FVec F S2048x1024 .f32) (main_arg3 : FVec F S16x64x1024 .f32) (main_arg4 : FVec F S16x64 .f32) (main_arg5 : FVec F S16x64x1024 .f32) (main_arg6 : FVec F S16x64 .f32) (main_arg7 : FVec F S16x64x1024 .f32) (main_arg8 : FVec F S16x64 .f32) (main_arg9 : FVec F S1024x1024 .f32) (main_arg10 : FVec F S1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S16x64x1024 .f32 := Host.absf main_arg3
  let main_cst_4 : FVec F S_ .f32 := constant S_ .f32 0x7F800000#32
  let main_v15 : FVec F S16x64x1024 .f32 := broadcastInDim S16x64x1024 ![] bcast_S_S16x64x1024 main_cst_4
  let main_v16 : IVec S16x64x1024 1 := cmpf .olt main_v14 main_v15
  fn_part1 (F := F) main_arg4 main_arg5 main_arg6 main_arg7 main_arg8 main_arg9 main_arg10 main_v13 main_v16
-- ==== Kernel.lean ====
abbrev S2048x1024 : Shape := ⟨2, ![2048, 1024]⟩
abbrev S16x64x1024 : Shape := ⟨3, ![16, 64, 1024]⟩
abbrev S16x64 : Shape := ⟨2, ![16, 64]⟩
abbrev S1024x1024 : Shape := ⟨2, ![1024, 1024]⟩
abbrev S1024 : Shape := ⟨1, ![1024]⟩
abbrev S256x1024 : Shape := ⟨2, ![256, 1024]⟩
abbrev S1x1024 : Shape := ⟨2, ![1, 1024]⟩
abbrev S2048x16x64 : Shape := ⟨3, ![2048, 16, 64]⟩
abbrev S16x2048x64 : Shape := ⟨3, ![16, 2048, 64]⟩
abbrev S1x2048x64 : Shape := ⟨3, ![1, 2048, 64]⟩
abbrev S1x1024x64 : Shape := ⟨3, ![1, 1024, 64]⟩
abbrev S2048x64 : Shape := ⟨2, ![2048, 64]⟩
abbrev S1024x64 : Shape := ⟨2, ![1024, 64]⟩
abbrev S1x64 : Shape := ⟨2, ![1, 64]⟩
abbrev S512x1024 : Shape := ⟨2, ![512, 1024]⟩

abbrev nBuf : Space → Nat
  | .hbm => 37
  | .vmem => 33
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S16x64x1024, .f32⟩
  | .hbm, ⟨4, _⟩ => ⟨S16x64, .f32⟩
  | .hbm, ⟨5, _⟩ => ⟨S16x64x1024, .f32⟩
  | .hbm, ⟨6, _⟩ => ⟨S16x64, .f32⟩
  | .hbm, ⟨7, _⟩ => ⟨S16x64x1024, .f32⟩
  | .hbm, ⟨8, _⟩ => ⟨S16x64, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S2048x1024, .bf16⟩
  | .hbm, ⟨21, _⟩ => ⟨S2048x1024, .bf16⟩
  | .hbm, ⟨22, _⟩ => ⟨S2048x1024, .bf16⟩
  | .hbm, ⟨23, _⟩ => ⟨S2048x1024, .bf16⟩
  | .hbm, ⟨24, _⟩ => ⟨S2048x1024, .bf16⟩
  | .hbm, ⟨25, _⟩ => ⟨S2048x1024, .bf16⟩
  | .hbm, ⟨26, _⟩ => ⟨S2048x16x64, .bf16⟩
  | .hbm, ⟨27, _⟩ => ⟨S16x2048x64, .bf16⟩
  | .hbm, ⟨28, _⟩ => ⟨S2048x16x64, .bf16⟩
  | .hbm, ⟨29, _⟩ => ⟨S16x2048x64, .bf16⟩
  | .hbm, ⟨30, _⟩ => ⟨S2048x16x64, .bf16⟩
  | .hbm, ⟨31, _⟩ => ⟨S16x2048x64, .bf16⟩
  | .hbm, ⟨32, _⟩ => ⟨S16x2048x64, .bf16⟩
  | .hbm, ⟨33, _⟩ => ⟨S2048x16x64, .bf16⟩
  | .hbm, ⟨34, _⟩ => ⟨S2048x1024, .bf16⟩
  | .hbm, ⟨35, _⟩ => ⟨S1024x1024, .bf16⟩
  | .hbm, ⟨36, _⟩ => ⟨S2048x1024, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S1024x1024, .bf16⟩
  | .local _ .vmem, ⟨9, _⟩ => ⟨S1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S1024x1024, .bf16⟩
  | .local _ .vmem, ⟨15, _⟩ => ⟨S1024, .f32⟩
  | .local _ .vmem, ⟨16, _⟩ => ⟨S256x1024, .bf16⟩
  | .local _ .vmem, ⟨17, _⟩ => ⟨S256x1024, .bf16⟩
  | .local _ .vmem, ⟨18, _⟩ => ⟨S1x2048x64, .bf16⟩
  | .local _ .vmem, ⟨19, _⟩ => ⟨S1x2048x64, .bf16⟩
  | .local _ .vmem, ⟨20, _⟩ => ⟨S1x1024x64, .bf16⟩
  | .local _ .vmem, ⟨21, _⟩ => ⟨S1x1024x64, .bf16⟩
  | .local _ .vmem, ⟨22, _⟩ => ⟨S1x1024x64, .bf16⟩
  | .local _ .vmem, ⟨23, _⟩ => ⟨S1x1024x64, .bf16⟩
  | .local _ .vmem, ⟨24, _⟩ => ⟨S1x2048x64, .bf16⟩
  | .local _ .vmem, ⟨25, _⟩ => ⟨S1x2048x64, .bf16⟩
  | .local _ .vmem, ⟨26, _⟩ => ⟨S2048x64, .f32⟩
  | .local _ .vmem, ⟨27, _⟩ => ⟨S512x1024, .bf16⟩
  | .local _ .vmem, ⟨28, _⟩ => ⟨S512x1024, .bf16⟩
  | .local _ .vmem, ⟨29, _⟩ => ⟨S1024x1024, .bf16⟩
  | .local _ .vmem, ⟨30, _⟩ => ⟨S1024, .f32⟩
  | .local _ .vmem, ⟨31, _⟩ => ⟨S512x1024, .f32⟩
  | .local _ .vmem, ⟨32, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_scratch0 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg3_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![16, 2], ![false, false]⟩

def k3_cond2 (i : grid3.Coords) : BitVec 1 :=
  let arg1 : BitVec 32 := BitVec.ofNat 32 (i 1).val
  let c1_i32 : BitVec 32 := 1#32
  let v40 : BitVec 1 := Scalar.cmpi .eq arg1 c1_i32
  let v41 : BitVec 32 := Scalar.extui v40
  let c0_i32_19 : BitVec 32 := 0#32
  let v42 : BitVec 1 := Scalar.cmpi .ne v41 c0_i32_19
  v42

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x2048x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1x1024x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x1024x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x2048x64 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S512x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  shapeCasts_S16x64x1024_S1024x1024 : S16x64x1024.ShapeCasts S1024x1024
  bitsLt_bf16_f32 : FTy.bits .bf16 < FTy.bits .f32
  shapeCasts_S16x64_S1024 : S16x64.ShapeCasts S1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1024 : S1024.ShapeCasts S1024
  shapeCasts_S1024_S1x1024 : S1024.ShapeCasts S1x1024
  broadcasts_S1x1024_S256x1024 : S1x1024.Broadcasts S256x1024
  packedbf16_S256x1024_S256x1024_0_0 : (Rect.unit (s := S256x1024) ![0, 0] S256x1024.size inb_S256x1024_S256x1024_0_0).PackedRows (EltTy.packing .bf16)
  shapeCasts_S2048x1024_S2048x16x64 : S2048x1024.ShapeCasts S2048x16x64
  transposes_S2048x16x64_S16x2048x64_1_0_2 : S2048x16x64.Transposes [1, 0, 2] S16x2048x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  iota_S2048x1024_d0_w32 : S2048x1024.Iotas .tc 32 [0]
  iota_S2048x1024_d1_w32 : S2048x1024.Iotas .tc 32 [1]
  reduces_S2048x1024_S1024 : S2048x1024.Reduces [0] S1024
  broadcasts_S1x1024_S2048x1024 : S1x1024.Broadcasts S2048x1024
  broadcasts_S1x64_S2048x64 : S1x64.Broadcasts S2048x64
  shapeCasts_S2048x64_S1x2048x64 : S2048x64.ShapeCasts S1x2048x64
  packedbf16_S1x2048x64_S1x2048x64_0_0_0 : (Rect.unit (s := S1x2048x64) ![0, 0, 0] S1x2048x64.size inb_S1x2048x64_S1x2048x64_0_0_0).PackedRows (EltTy.packing .bf16)
  transposes_S16x2048x64_S2048x16x64_1_0_2 : S16x2048x64.Transposes [1, 0, 2] S2048x16x64
  shapeCasts_S2048x16x64_S2048x1024 : S2048x16x64.ShapeCasts S2048x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  broadcasts_S1x1024_S512x1024 : S1x1024.Broadcasts S512x1024
  dot_S256x1024_S1024x1024_S256x1024_1_1_0_0_n_n_wf : DotDims.WF S256x1024 S1024x1024 S256x1024 [1] [1] [0] [0] [] []
  dot_S2048x64_S1024x64_S2048x1024_1_1_0_0_n_n_wf : DotDims.WF S2048x64 S1024x64 S2048x1024 [1] [1] [0] [0] [] []
  dot_S2048x1024_S1024x64_S2048x64_1_0_0_1_n_n_wf : DotDims.WF S2048x1024 S1024x64 S2048x64 [1] [0] [0] [1] [] []
  dot_S1x1024_S1024x64_S1x64_1_0_0_1_n_n_wf : DotDims.WF S1x1024 S1024x64 S1x64 [1] [0] [0] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S2048x1024.size a
  hwx0_0 : ∀ i : grid0.Coords, EltTy.bits .bf16 = 32 ∨ (Rect.block (s := S2048x1024) S256x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S2048x1024.size a
  hwx0_3 : ∀ i : grid0.Coords, EltTy.bits .bf16 = 32 ∨ (Rect.block (s := S2048x1024) S256x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S2048x1024.size a
  hwx1_0 : ∀ i : grid1.Coords, EltTy.bits .bf16 = 32 ∨ (Rect.block (s := S2048x1024) S256x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S2048x1024.size a
  hwx1_3 : ∀ i : grid1.Coords, EltTy.bits .bf16 = 32 ∨ (Rect.block (s := S2048x1024) S256x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x1024.size a ≤ S2048x1024.size a
  hwx2_0 : ∀ i : grid2.Coords, EltTy.bits .bf16 = 32 ∨ (Rect.block (s := S2048x1024) S256x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x1024.size a ≤ S2048x1024.size a
  hwx2_3 : ∀ i : grid2.Coords, EltTy.bits .bf16 = 32 ∨ (Rect.block (s := S2048x1024) S256x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x2048x64.size a ≤ S16x2048x64.size a
  hwx3_0 : ∀ i : grid3.Coords, EltTy.bits .bf16 = 32 ∨ (Rect.block (s := S16x2048x64) S1x2048x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x1024x64.size a ≤ S16x2048x64.size a
  hwx3_1 : ∀ i : grid3.Coords, EltTy.bits .bf16 = 32 ∨ (Rect.block (s := S16x2048x64) S1x1024x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1024x64.size a ≤ S16x2048x64.size a
  hwx3_2 : ∀ i : grid3.Coords, EltTy.bits .bf16 = 32 ∨ (Rect.block (s := S16x2048x64) S1x1024x64.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x2048x64.size a ≤ S16x2048x64.size a
  hwx3_3 : ∀ i : grid3.Coords, EltTy.bits .bf16 = 32 ∨ (Rect.block (s := S16x2048x64) S1x2048x64.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x1024.size a ≤ S2048x1024.size a
  hwx4_0 : ∀ i : grid4.Coords, EltTy.bits .bf16 = 32 ∨ (Rect.block (s := S2048x1024) S512x1024.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .bf16 = 32 ∨ (Rect.block (s := S1024x1024) S1024x1024.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1024.size a ≤ S1024.size a
  hwx4_2 : ∀ i : grid4.Coords, EltTy.bits .f32 = 32 ∨ (Rect.block (s := S1024) S1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x1024.size a ≤ S2048x1024.size a
  hwx4_3 : ∀ i : grid4.Coords, EltTy.bits .f32 = 32 ∨ (Rect.block (s := S2048x1024) S512x1024.size (cc4_transform_3 i) (hinb4_3 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S2048x64_S1024x64_S2048x1024_1_1_0_0_n_n : DotDims S2048x64 S1024x64 S2048x1024 where
  lhsContracting := [1]
  rhsContracting := [1]
  lhsNonContracting := [0]
  rhsNonContracting := [0]
  lhsBatch := []
  rhsBatch := []
  wf := dot_S2048x64_S1024x64_S2048x1024_1_1_0_0_n_n_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def dot_S1x1024_S1024x64_S1x64_1_0_0_1_n_n : DotDims S1x1024 S1024x64 S1x64 where
  lhsContracting := [1]
  rhsContracting := [0]
  lhsNonContracting := [0]
  rhsNonContracting := [1]
  lhsBatch := []
  rhsBatch := []
  wf := dot_S1x1024_S1024x64_S1x64_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v9) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v11) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S256x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v13) S256x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S256x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v16) S1x2048x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18) S1x1024x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v20) S1x1024x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v21) S1x2048x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v23) S512x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v24) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg10) S1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v25) S512x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S2048x1024 : Shape := ⟨2, ![2048, 1024]⟩
abbrev S16x64x1024 : Shape := ⟨3, ![16, 64, 1024]⟩
abbrev S16x64 : Shape := ⟨2, ![16, 64]⟩
abbrev S1024x1024 : Shape := ⟨2, ![1024, 1024]⟩
abbrev S1024 : Shape := ⟨1, ![1024]⟩
abbrev S16x64x2048 : Shape := ⟨3, ![16, 64, 2048]⟩
abbrev S16x2048x64 : Shape := ⟨3, ![16, 2048, 64]⟩
abbrev S16x1x64 : Shape := ⟨3, ![16, 1, 64]⟩
abbrev S16x2048x2048 : Shape := ⟨3, ![16, 2048, 2048]⟩
abbrev S2048x2048 : Shape := ⟨2, ![2048, 2048]⟩
abbrev S_ : Shape := ⟨0, ![]⟩
abbrev S16x2048 : Shape := ⟨2, ![16, 2048]⟩
abbrev S16x1x2048 : Shape := ⟨3, ![16, 1, 2048]⟩
abbrev S2048x16x64 : Shape := ⟨3, ![2048, 16, 64]⟩
abbrev S1x1024 : Shape := ⟨2, ![1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S16x64x1024, .f32⟩
  | .hbm, ⟨4, _⟩ => ⟨S16x64, .f32⟩
  | .hbm, ⟨5, _⟩ => ⟨S16x64x1024, .f32⟩
  | .hbm, ⟨6, _⟩ => ⟨S16x64, .f32⟩
  | .hbm, ⟨7, _⟩ => ⟨S16x64x1024, .f32⟩
  | .hbm, ⟨8, _⟩ => ⟨S16x64, .f32⟩
  | .hbm, ⟨9, _⟩ => ⟨S1024x1024, .f32⟩
  | .hbm, ⟨10, _⟩ => ⟨S1024, .f32⟩
  | .hbm, ⟨11, _⟩ => ⟨S16x64x2048, .f32⟩
  | .hbm, ⟨12, _⟩ => ⟨S16x2048x64, .f32⟩
  | .hbm, ⟨13, _⟩ => ⟨S16x1x64, .f32⟩
  | .hbm, ⟨14, _⟩ => ⟨S16x2048x64, .f32⟩
  | .hbm, ⟨15, _⟩ => ⟨S16x2048x64, .f32⟩
  | .hbm, ⟨16, _⟩ => ⟨S16x64x2048, .f32⟩
  | .hbm, ⟨17, _⟩ => ⟨S16x2048x64, .f32⟩
  | .hbm, ⟨18, _⟩ => ⟨S16x1x64, .f32⟩
  | .hbm, ⟨19, _⟩ => ⟨S16x2048x64, .f32⟩
  | .hbm, ⟨20, _⟩ => ⟨S16x2048x64, .f32⟩
  | .hbm, ⟨21, _⟩ => ⟨S16x64x2048, .f32⟩
  | .hbm, ⟨22, _⟩ => ⟨S16x2048x64, .f32⟩
  | .hbm, ⟨23, _⟩ => ⟨S16x1x64, .f32⟩
  | .hbm, ⟨24, _⟩ => ⟨S16x2048x64, .f32⟩
  | .hbm, ⟨25, _⟩ => ⟨S16x2048x64, .f32⟩
  | .hbm, ⟨26, _⟩ => ⟨S16x2048x2048, .f32⟩
  | .hbm, ⟨27, _⟩ => ⟨S2048x2048, .i32⟩
  | .hbm, ⟨28, _⟩ => ⟨S_, .i32⟩
  | .hbm, ⟨29, _⟩ => ⟨S2048x2048, .i32⟩
  | .hbm, ⟨30, _⟩ => ⟨S2048x2048, .i32⟩
  | .hbm, ⟨31, _⟩ => ⟨S2048x2048, .i32⟩
  | .hbm, ⟨32, _⟩ => ⟨S2048x2048, .i1⟩
  | .hbm, ⟨33, _⟩ => ⟨S16x2048x2048, .i1⟩
  | .hbm, ⟨34, _⟩ => ⟨S_, .f32⟩
  | .hbm, ⟨35, _⟩ => ⟨S16x2048x2048, .f32⟩
  | .hbm, ⟨36, _⟩ => ⟨S16x2048x2048, .f32⟩
  | .hbm, ⟨37, _⟩ => ⟨S_, .f32⟩
  | .hbm, ⟨38, _⟩ => ⟨S16x2048x2048, .f32⟩
  | .hbm, ⟨39, _⟩ => ⟨S16x2048x2048, .f32⟩
  | .hbm, ⟨40, _⟩ => ⟨S_, .f32⟩
  | .hbm, ⟨41, _⟩ => ⟨S16x2048, .f32⟩
  | .hbm, ⟨42, _⟩ => ⟨S_, .f32⟩
  | .hbm, ⟨43, _⟩ => ⟨S16x2048, .f32⟩
  | .hbm, ⟨44, _⟩ => ⟨S16x2048, .f32⟩
  | .hbm, ⟨45, _⟩ => ⟨S16x1x2048, .f32⟩
  | .hbm, ⟨46, _⟩ => ⟨S16x2048x2048, .f32⟩
  | .hbm, ⟨47, _⟩ => ⟨S16x2048x2048, .f32⟩
  | .hbm, ⟨48, _⟩ => ⟨S16x2048x2048, .f32⟩
  | .hbm, ⟨49, _⟩ => ⟨S_, .f32⟩
  | .hbm, ⟨50, _⟩ => ⟨S16x2048, .f32⟩
  | .hbm, ⟨51, _⟩ => ⟨S16x1x2048, .f32⟩
  | .hbm, ⟨52, _⟩ => ⟨S16x1x2048, .f32⟩
  | .hbm, ⟨53, _⟩ => ⟨S16x2048x2048, .f32⟩
  | .hbm, ⟨54, _⟩ => ⟨S16x2048x2048, .f32⟩
  | .hbm, ⟨55, _⟩ => ⟨S16x2048x64, .f32⟩
  | .hbm, ⟨56, _⟩ => ⟨S2048x16x64, .f32⟩
  | .hbm, ⟨57, _⟩ => ⟨S2048x1024, .f32⟩
  | .hbm, ⟨58, _⟩ => ⟨S1024x1024, .f32⟩
  | .hbm, ⟨59, _⟩ => ⟨S2048x1024, .f32⟩
  | .hbm, ⟨60, _⟩ => ⟨S1x1024, .f32⟩
  | .hbm, ⟨61, _⟩ => ⟨S2048x1024, .f32⟩
  | .hbm, ⟨62, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call0_v0 : Ref sig .tc := ⟨.hbm, 27, rfl⟩
abbrev main_call0_c : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_cst : Ref sig .tc := ⟨.hbm, 34, rfl⟩
abbrev main_call0_v6 : Ref sig .tc := ⟨.hbm, 35, rfl⟩
abbrev main_v16 : Ref sig .tc := ⟨.hbm, 36, rfl⟩
abbrev main_cst : Ref sig .tc := ⟨.hbm, 37, rfl⟩
abbrev main_v17 : Ref sig .tc := ⟨.hbm, 38, rfl⟩
abbrev main_v18 : Ref sig .tc := ⟨.hbm, 39, rfl⟩
abbrev main_call1_cst : Ref sig .tc := ⟨.hbm, 40, rfl⟩
abbrev main_call1_v0 : Ref sig .tc := ⟨.hbm, 41, rfl⟩
abbrev main_call1_cst_0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_v6 : Ref sig .tc := ⟨.hbm, 48, rfl⟩
abbrev main_call1_cst_1 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩

abbrev nD : Nat := 1
abbrev τ : Topo := Topo.v7x

variable {F : FTy → Type} [FloatOps F]

class Facts₀ : Prop where
  transposes_S16x64x2048_S16x2048x64_0_2_1 : S16x64x2048.Transposes [0, 2, 1] S16x2048x64
  bcast_S16x64_S16x1x64_0_2 : S16x64.BroadcastsInDim S16x1x64 (![0, 2] : Fin 2 → Fin S16x1x64.rank)
  bcast_S16x1x64_S16x2048x64_0_1_2 : S16x1x64.BroadcastsInDim S16x2048x64 (![0, 1, 2] : Fin 3 → Fin S16x2048x64.rank)
  bcast_S_S2048x2048 : S_.BroadcastsInDim S2048x2048 (![] : Fin 0 → Fin S2048x2048.rank)
  bcast_S2048x2048_S16x2048x2048_1_2 : S2048x2048.BroadcastsInDim S16x2048x2048 (![1, 2] : Fin 2 → Fin S16x2048x2048.rank)
  bcast_S_S16x2048x2048 : S_.BroadcastsInDim S16x2048x2048 (![] : Fin 0 → Fin S16x2048x2048.rank)
  reducesTo_S16x2048x2048_S16x2048_d1 : S16x2048x2048.ReducesTo [1] S16x2048
  h_S_ : 0 < S_.numel
  bcast_S_S16x2048 : S_.BroadcastsInDim S16x2048 (![] : Fin 0 → Fin S16x2048.rank)
  bcast_S16x2048_S16x1x2048_0_2 : S16x2048.BroadcastsInDim S16x1x2048 (![0, 2] : Fin 2 → Fin S16x1x2048.rank)
  bcast_S16x1x2048_S16x2048x2048_0_1_2 : S16x1x2048.BroadcastsInDim S16x2048x2048 (![0, 1, 2] : Fin 3 → Fin S16x2048x2048.rank)
  transposes_S16x2048x64_S2048x16x64_1_0_2 : S16x2048x64.Transposes [1, 0, 2] S2048x16x64
  shapeCasts_S2048x16x64_S2048x1024 : S2048x16x64.ShapeCasts S2048x1024
  transposes_S1024x1024_S1024x1024_1_0 : S1024x1024.Transposes [1, 0] S1024x1024
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  dot_S16x64x1024_S2048x1024_S16x64x2048_2_1_01_0_n_n_wf : DotDims.WF S16x64x1024 S2048x1024 S16x64x2048 [2] [1] [0, 1] [0] [] []
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_2_1_1_2_0_0_wf : DotDims.WF S16x2048x2048 S16x2048x64 S16x2048x64 [2] [1] [1] [2] [0] [0]
  dot_S2048x1024_S1024x1024_S2048x1024_1_0_0_1_n_n_wf : DotDims.WF S2048x1024 S1024x1024 S2048x1024 [1] [0] [0] [1] [] []

variable [Facts₀]

def dot_S16x64x1024_S2048x1024_S16x64x2048_2_1_01_0_n_n : DotDims S16x64x1024 S2048x1024 S16x64x2048 where
  lhsContracting := [2]
  rhsContracting := [1]
  lhsNonContracting := [0, 1]
  rhsNonContracting := [0]
  lhsBatch := []
  rhsBatch := []
  wf := dot_S16x64x1024_S2048x1024_S16x64x2048_2_1_01_0_n_n_wf
def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

class Facts : Prop extends Facts₀ where

variable [Facts]
-- ==== Proof.KB.R0.lean ====
/-
  Region 0 of the program: one row-block of a dense layer per grid point. The body reads a block of 256 rows of the
  activations, the whole weight matrix and the whole bias, and stores (rows · weightsᵀ + bias) into its output block; it
  keeps nothing between points. Stated at a parameter `V`, the buffer contents when the region is entered: the blocks the
  body finds, what it leaves in the output block, its triple, the pipeline's proof data and the body obligation.
-/
import proofs.«137196_j32049045963121_2_alg».proof.Proof.Gen.Kernel.Launch
import proofs.«137196_j32049045963121_2_alg».proof.Proof.Gen.Kernel.Skeleton
import proofs.«137196_j32049045963121_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it there or
    the block index has not moved since it did. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev rA0 : Rect S256x1024 := Rect.unit (s := S256x1024) ![0, 0] S256x1024.size inb_S256x1024_S256x1024_0_0
abbrev rW0 : Rect S1024x1024 := Rect.unit (s := S1024x1024) ![0, 0] S1024x1024.size inb_S1024x1024_S1024x1024_0_0
abbrev rB0 : Rect S1024 := Rect.unit (s := S1024) ![0] S1024.size inb_S1024_S1024_0

/-- What the body leaves in the output block: its one store, of the dense layer of the three loaded blocks. -/
def out0_3 (x0 : Vec F S256x1024 .bf16) (x1 : Vec F S1024x1024 .bf16) (x2 : Vec F S1024 .f32) : Vec F S256x1024 .bf16 :=
  View.canon [⟨rA0, k0_pay1 (View.ld x0 rA0) (View.ld x1 rW0) (View.ld x2 rB0)⟩]

/-- The one store covers the block. -/
theorem cover0_3 (p0 : Vec F S256x1024 .bf16) (y : S256x1024.Idx) :
    ∃ pc ∈ ([⟨rA0, p0⟩] : List (View.Piece (Elt F) S256x1024 .bf16)), y ∈ pc.1.set :=
  View.cover_of_tiled [⟨rA0, p0⟩] S256x1024.size (by rfl) y

set_option maxHeartbeats 1000000 in
/-- The body on whole staging memrefs, the inputs at read contents `x0 x1 x2` and the output at anything, runs to the
    continuation holding the inputs as they were and the output at `out0_3` of them. -/
theorem sound_kernel0 (c : Dev nD) (E : Set ℕ) (i : grid0.Coords)
    (arg1 : Memref sig .tc .vmem S256x1024 .bf16) (harg1 : arg1.IsWhole) (arg2 : Memref sig .tc .vmem S1024x1024 .bf16) (harg2 : arg2.IsWhole)
    (arg3 : Memref sig .tc .vmem S1024 .f32) (harg3 : arg3.IsWhole) (arg4 : Memref sig .tc .vmem S256x1024 .bf16) (harg4 : arg4.IsWhole)
    (x0 : Vec F S256x1024 .bf16) (x1 : Vec F S1024x1024 .bf16) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the region finds them; after the body at point `t` each input's
    buffer at its block and the output's at the dense layer of the input blocks; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.R1.lean ====
/-
  Region 1 of the program: one row-block of a dense layer per grid point. The body reads a block of 256 rows of the
  activations, the whole weight matrix and the whole bias, and stores (rows · weightsᵀ + bias) into its output block; it
  keeps nothing between points. Stated at a parameter `V`, the buffer contents when the region is entered: the blocks the
  body finds, what it leaves in the output block, its triple, the pipeline's proof data and the body obligation.
-/
import proofs.«137196_j32049045963121_2_alg».proof.Proof.Gen.Kernel.Launch
import proofs.«137196_j32049045963121_2_alg».proof.Proof.Gen.Kernel.Skeleton
import proofs.«137196_j32049045963121_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the pipeline fetched it there or
    the block index has not moved since it did. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev rA1 : Rect S256x1024 := Rect.unit (s := S256x1024) ![0, 0] S256x1024.size inb_S256x1024_S256x1024_0_0
abbrev rW1 : Rect S1024x1024 := Rect.unit (s := S1024x1024) ![0, 0] S1024x1024.size inb_S1024x1024_S1024x1024_0_0
abbrev rB1 : Rect S1024 := Rect.unit (s := S1024) ![0] S1024.size inb_S1024_S1024_0

/-- What the body leaves in the output block: its one store, of the dense layer of the three loaded blocks. -/
def out1_3 (x0 : Vec F S256x1024 .bf16) (x1 : Vec F S1024x1024 .bf16) (x2 : Vec F S1024 .f32) : Vec F S256x1024 .bf16 :=
  View.canon [⟨rA1, k1_pay1 (View.ld x0 rA1) (View.ld x1 rW1) (View.ld x2 rB1)⟩]

/-- The one store covers the block. -/
theorem cover1_3 (p0 : Vec F S256x1024 .bf16) (y : S256x1024.Idx) :
    ∃ pc ∈ ([⟨rA1, p0⟩] : List (View.Piece (Elt F) S256x1024 .bf16)), y ∈ pc.1.set :=
  View.cover_of_tiled [⟨rA1, p0⟩] S256x1024.size (by rfl) y

set_option maxHeartbeats 1000000 in
/-- The body on whole staging memrefs, the inputs at read contents `x0 x1 x2` and the output at anything, runs to the
    continuation holding the inputs as they were and the output at `out1_3` of them. -/
theorem sound_kernel1 (c : Dev nD) (E : Set ℕ) (i : grid1.Coords)
    (arg1 : Memref sig .tc .vmem S256x1024 .bf16) (harg1 : arg1.IsWhole) (arg2 : Memref sig .tc .vmem S1024x1024 .bf16) (harg2 : arg2.IsWhole)
    (arg3 : Memref sig .tc .vmem S1024 .f32) (harg3 : arg3.IsWhole) (arg4 : Memref sig .tc .vmem S256x1024 .bf16) (harg4 : arg4.IsWhole)
    (x0 : Vec F S256x1024 .bf16) (x1 : Vec F S1024x1024 .bf16) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the region finds them; after the body at point `t` each input's
    buffer at its block and the output's at the dense layer of the input blocks; the invariant is the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.R2.lean ====
/-
  Region 2 of the program: one row-block of a dense layer per grid point. The body reads a block of 256 rows of the
  activations, the whole weight matrix and the whole bias, and stores (rows · weightsᵀ + bias) into its output block; it
  keeps nothing between points. Stated at a parameter `V`, the buffer contents when the region is entered: the blocks the
  body finds, what it leaves in the output block, its triple, the pipeline's proof data and the body obligation.
-/
import proofs.«137196_j32049045963121_2_alg».proof.Proof.Gen.Kernel.Launch
import proofs.«137196_j32049045963121_2_alg».proof.Proof.Gen.Kernel.Skeleton
import proofs.«137196_j32049045963121_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether the pipeline fetched it there or
    the block index has not moved since it did. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body loads and stores through. -/
abbrev rA2 : Rect S256x1024 := Rect.unit (s := S256x1024) ![0, 0] S256x1024.size inb_S256x1024_S256x1024_0_0
abbrev rW2 : Rect S1024x1024 := Rect.unit (s := S1024x1024) ![0, 0] S1024x1024.size inb_S1024x1024_S1024x1024_0_0
abbrev rB2 : Rect S1024 := Rect.unit (s := S1024) ![0] S1024.size inb_S1024_S1024_0

/-- What the body leaves in the output block: its one store, of the dense layer of the three loaded blocks. -/
def out2_3 (x0 : Vec F S256x1024 .bf16) (x1 : Vec F S1024x1024 .bf16) (x2 : Vec F S1024 .f32) : Vec F S256x1024 .bf16 :=
  View.canon [⟨rA2, k2_pay1 (View.ld x0 rA2) (View.ld x1 rW2) (View.ld x2 rB2)⟩]

/-- The one store covers the block. -/
theorem cover2_3 (p0 : Vec F S256x1024 .bf16) (y : S256x1024.Idx) :
    ∃ pc ∈ ([⟨rA2, p0⟩] : List (View.Piece (Elt F) S256x1024 .bf16)), y ∈ pc.1.set :=
  View.cover_of_tiled [⟨rA2, p0⟩] S256x1024.size (by rfl) y

set_option maxHeartbeats 1000000 in
/-- The body on whole staging memrefs, the inputs at read contents `x0 x1 x2` and the output at anything, runs to the
    continuation holding the inputs as they were and the output at `out2_3` of them. -/
theorem sound_kernel2 (c : Dev nD) (E : Set ℕ) (i : grid2.Coords)
    (arg1 : Memref sig .tc .vmem S256x1024 .bf16) (harg1 : arg1.IsWhole) (arg2 : Memref sig .tc .vmem S1024x1024 .bf16) (harg2 : arg2.IsWhole)
    (arg3 : Memref sig .tc .vmem S1024 .f32) (harg3 : arg3.IsWhole) (arg4 : Memref sig .tc .vmem S256x1024 .bf16) (harg4 : arg4.IsWhole)
    (x0 : Vec F S256x1024 .bf16) (x1 : Vec F S1024x1024 .bf16) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The pipeline's proof data on core `c`: the arrays as the region finds them; after the body at point `t` each input's
    buffer at its block and the output's at the dense layer of the input blocks; the invariant is the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.R3.lean ====
/-
  Region 3 of the program: causal attention scores with a column-wise log-softmax, one head per pair of grid points.
  A head's two points visit the two halves of the key axis; a scratch accumulator is zeroed at the first half, receives
  each half's contribution, and at the second half is rounded into the head's output block. Stated at a parameter `V`,
  the buffer contents when the region is entered: the two control cases of the body as runs, what the output block and
  the accumulator hold after each point (by recursion on the point), the pipeline's proof data, the body obligation.
-/
import proofs.«137196_j32049045963121_2_alg».proof.Proof.Gen.Kernel.Launch
import proofs.«137196_j32049045963121_2_alg».proof.Proof.Gen.Kernel.Skeleton
import proofs.«137196_j32049045963121_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, decided over the grid -/

/-- "This is the head's first half of the key axis": the accumulator is zeroed. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 2 = 0 :=
  (by decide +kernel : ∀ t : Fin grid3.N, cond3_0 (grid3.coords t) ↔ t.val % 2 = 0)
/-- "This is the head's last half": the accumulator is rounded into the output block. -/
abbrev cond3_1 (i : grid3.Coords) : Prop := k3_cond2 i = 1#1
theorem hcond3_1 : ∀ t : Fin cfg3.N, cond3_1 (grid3.coords t) ↔ t.val % 2 = 1 :=
  (by decide +kernel : ∀ t : Fin grid3.N, cond3_1 (grid3.coords t) ↔ t.val % 2 = 1)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- At a first half the output block is idle: nothing is stored into it and it is not written back. -/
theorem idleAt3_3_A : ∀ t : Fin cfg3.N, cond3_0 (grid3.coords t) → ¬cond3_1 (grid3.coords t) → cfg3.idle 3 (grid3.coords t) = true := by decide +kernel
theorem noFlush3_3_A : ∀ t : Fin cfg3.N, cond3_0 (grid3.coords t) → ¬cond3_1 (grid3.coords t) → (cfg3.win 3).flush t = false := by decide +kernel
theorem liveAt3_3_B : ∀ t : Fin cfg3.N, ¬cond3_0 (grid3.coords t) → cond3_1 (grid3.coords t) → cfg3.idle 3 (grid3.coords t) = false := by decide +kernel

/-! ## The memrefs the body is called on -/

abbrev VO3_3 : View sig .tc .vmem S1x2048x64 .bf16 := (Memref.whole cc3_stg3_0 : Memref sig .tc .vmem S1x2048x64 .bf16).view
abbrev ms3_0 (t : Fin cfg3.N) : Memref sig .tc .vmem S1x2048x64 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x1024x64 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1024x64 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x2048x64 .bf16 := win3_3.stage (cfg3.slots t 3)
abbrev hs3_3 (t : Fin cfg3.N) : (ms3_3 t).IsWhole := hstage3_3 ((cfg3.slots t 3).cast nbuf3_3)
/-- The accumulator: a whole scoped buffer of the kernel's own. -/
abbrev scM3_0 : Memref sig .tc .vmem S2048x64 .f32 := Memref.whole cc3_scratch0
abbrev VS3_0 : View sig .tc .vmem S2048x64 .f32 := scM3_0.view

/-- The region's invariant with the accumulator as a memref owned at some contents. -/
theorem PhiA3_eq (c : Dev nD) :
    (Pipeline.ΦA spec3 c : sProp 𝕄)
      = iprop(iprop(iprop((∃ d, owns (c : Thread nD τ) scM3_0 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

/-! ## The body's two cases as runs -/

set_option maxHeartbeats 4000000 in
/-- FIRST HALF. The accumulator, found at anything, is zeroed and then receives this half's contribution; the output
    block is handed back as found. The pieces the accumulator ends with are found by the run. -/
noncomputable def kernelRun3_A (c : Dev nD) (i : grid3.Coords)
    (arg2 : Memref sig .tc .vmem S1x2048x64 .bf16) (harg2 : arg2.IsWhole) (arg3 : Memref sig .tc .vmem S1x1024x64 .bf16) (harg3 : arg3.IsWhole)
    (arg4 : Memref sig .tc .vmem S1x1024x64 .bf16) (harg4 : arg4.IsWhole) (arg5 : Memref sig .tc .vmem S1x2048x64 .bf16) (harg5 : arg5.IsWhole)
    (arg6 : Memref sig .tc .vmem S2048x64 .f32) (harg6 : arg6.IsWhole) (hc0 : cond3_0 i) (hc1 : ¬cond3_1 i)
    (x0 : Vec F S1x2048x64 .bf16) (x1 : Vec F S1x1024x64 .bf16) (x2 : Vec F S1x1024x64 .bf16) :
    Σ' (L3 : List (View.Piece (Elt F) S1x2048x64 .bf16)), { LS0 : List (View.Piece (Elt F) S2048x64 .f32) //
      ∀ (xi3 : Vec F S1x2048x64 .bf16) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS0)) -∗ K ⟨⟩))
          ⊢ wp frame (wpE (defs₀ (F := F)) Variants.none c none) E (cc3__attn_kernel i arg2 harg2 arg3 harg3 arg4 harg4 arg5 harg5 arg6 harg6) K } := by
  refine ⟨[], ?_, fun xi3 E K => ?run⟩
  case run =>
    simp only [cc3__attn_kernel_eq_skeleton]; unfold cc3__attn_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- LAST HALF. The accumulator, found at what the head's first half left, receives this half's contribution and is
    rounded into the output block. The pieces the two buffers end with are found by the run. -/
noncomputable def kernelRun3_B (c : Dev nD) (i : grid3.Coords)
    (arg2 : Memref sig .tc .vmem S1x2048x64 .bf16) (harg2 : arg2.IsWhole) (arg3 : Memref sig .tc .vmem S1x1024x64 .bf16) (harg3 : arg3.IsWhole)
    (arg4 : Memref sig .tc .vmem S1x1024x64 .bf16) (harg4 : arg4.IsWhole) (arg5 : Memref sig .tc .vmem S1x2048x64 .bf16) (harg5 : arg5.IsWhole)
    (arg6 : Memref sig .tc .vmem S2048x64 .f32) (harg6 : arg6.IsWhole) (hc0 : ¬cond3_0 i) (hc1 : cond3_1 i)
    (x0 : Vec F S1x2048x64 .bf16) (x1 : Vec F S1x1024x64 .bf16) (x2 : Vec F S1x1024x64 .bf16) (xs0 : Vec F S2048x64 .f32) :
    Σ' (L3 : List (View.Piece (Elt F) S1x2048x64 .bf16)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc3__attn_kernel i arg2 harg2 arg3 harg3 arg4 harg4 arg5 harg5 arg6 harg6) K } := by
  refine ⟨?_, ?_, fun E K => ?run⟩
  case run =>
    simp only [cc3__attn_kernel_eq_skeleton]; unfold cc3__attn_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

/-! ## What each case leaves -/

/-- A first half stores nothing into the output block: a placeholder nothing consults. -/
def out3_A_3 (c : Dev nD) (i : grid3.Coords) (arg2 : Memref sig .tc .vmem S1x2048x64 .bf16) (harg2 : arg2.IsWhole) (arg3 : Memref sig .tc .vmem S1x1024x64 .bf16) (harg3 : arg3.IsWhole)
    (arg4 : Memref sig .tc .vmem S1x1024x64 .bf16) (harg4 : arg4.IsWhole) (arg5 : Memref sig .tc .vmem S1x2048x64 .bf16) (harg5 : arg5.IsWhole)
    (arg6 : Memref sig .tc .vmem S2048x64 .f32) (harg6 : arg6.IsWhole) (hc0 : cond3_0 i) (hc1 : ¬cond3_1 i)
    (x0 : Vec F S1x2048x64 .bf16) (x1 : Vec F S1x1024x64 .bf16) (x2 : Vec F S1x1024x64 .bf16) : Vec F S1x2048x64 .bf16 :=
  VO3_3.read (Elt F) (VO3_3.writes (Elt F) VO3_3.junk (kernelRun3_A c i arg2 harg2 arg3 harg3 arg4 harg4 arg5 harg5 arg6 harg6 hc0 hc1 x0 x1 x2).1)

theorem scover3_A_0 (c : Dev nD) (i : grid3.Coords) (arg2 : Memref sig .tc .vmem S1x2048x64 .bf16) (harg2 : arg2.IsWhole) (arg3 : Memref sig .tc .vmem S1x1024x64 .bf16) (harg3 : arg3.IsWhole)
    (arg4 : Memref sig .tc .vmem S1x1024x64 .bf16) (harg4 : arg4.IsWhole) (arg5 : Memref sig .tc .vmem S1x2048x64 .bf16) (harg5 : arg5.IsWhole)
    (arg6 : Memref sig .tc .vmem S2048x64 .f32) (harg6 : arg6.IsWhole) (hc0 : cond3_0 i) (hc1 : ¬cond3_1 i)
    (x0 : Vec F S1x2048x64 .bf16) (x1 : Vec F S1x1024x64 .bf16) (x2 : Vec F S1x1024x64 .bf16) (y : S2048x64.Idx) :
    ∃ pc ∈ (kernelRun3_A c i arg2 harg2 arg3 harg3 arg4 harg4 arg5 harg5 arg6 harg6 hc0 hc1 x0 x1 x2).2.1, y ∈ pc.1.set :=
  View.cover_of_tiledL (kernelRun3_A c i arg2 harg2 arg3 harg3 arg4 harg4 arg5 harg5 arg6 harg6 hc0 hc1 x0 x1 x2).2.1 S2048x64.size (by sl_kernel_rfl) y

/-- What a first half leaves in the accumulator. -/
def sout3_A_0 (c : Dev nD) (i : grid3.Coords) (arg2 : Memref sig .tc .vmem S1x2048x64 .bf16) (harg2 : arg2.IsWhole) (arg3 : Memref sig .tc .vmem S1x1024x64 .bf16) (harg3 : arg3.IsWhole)
    (arg4 : Memref sig .tc .vmem S1x1024x64 .bf16) (harg4 : arg4.IsWhole) (arg5 : Memref sig .tc .vmem S1x2048x64 .bf16) (harg5 : arg5.IsWhole)
    (arg6 : Memref sig .tc .vmem S2048x64 .f32) (harg6 : arg6.IsWhole) (hc0 : cond3_0 i) (hc1 : ¬cond3_1 i)
    (x0 : Vec F S1x2048x64 .bf16) (x1 : Vec F S1x1024x64 .bf16) (x2 : Vec F S1x1024x64 .bf16) : Vec F S2048x64 .f32 :=
  VS3_0.read (Elt F) (VS3_0.writes (Elt F) VS3_0.junk (kernelRun3_A c i arg2 harg2 arg3 harg3 arg4 harg4 arg5 harg5 arg6 harg6 hc0 hc1 x0 x1 x2).2.1)

theorem cover3_B_3 (c : Dev nD) (i : grid3.Coords) (arg2 : Memref sig .tc .vmem S1x2048x64 .bf16) (harg2 : arg2.IsWhole) (arg3 : Memref sig .tc .vmem S1x1024x64 .bf16) (harg3 : arg3.IsWhole)
    (arg4 : Memref sig .tc .vmem S1x1024x64 .bf16) (harg4 : arg4.IsWhole) (arg5 : Memref sig .tc .vmem S1x2048x64 .bf16) (harg5 : arg5.IsWhole)
    (arg6 : Memref sig .tc .vmem S2048x64 .f32) (harg6 : arg6.IsWhole) (hc0 : ¬cond3_0 i) (hc1 : cond3_1 i)
    (x0 : Vec F S1x2048x64 .bf16) (x1 : Vec F S1x1024x64 .bf16) (x2 : Vec F S1x1024x64 .bf16) (xs0 : Vec F S2048x64 .f32) (y : S1x2048x64.Idx) :
    ∃ pc ∈ (kernelRun3_B c i arg2 harg2 arg3 harg3 arg4 harg4 arg5 harg5 arg6 harg6 hc0 hc1 x0 x1 x2 xs0).1, y ∈ pc.1.set :=
  View.cover_of_tiledL (kernelRun3_B c i arg2 harg2 arg3 harg3 arg4 harg4 arg5 harg5 arg6 harg6 hc0 hc1 x0 x1 x2 xs0).1 S1x2048x64.size (by sl_kernel_rfl) y

/-- What a last half leaves in the output block. -/
def out3_B_3 (c : Dev nD) (i : grid3.Coords) (arg2 : Memref sig .tc .vmem S1x2048x64 .bf16) (harg2 : arg2.IsWhole) (arg3 : Memref sig .tc .vmem S1x1024x64 .bf16) (harg3 : arg3.IsWhole)
    (arg4 : Memref sig .tc .vmem S1x1024x64 .bf16) (harg4 : arg4.IsWhole) (arg5 : Memref sig .tc .vmem S1x2048x64 .bf16) (harg5 : arg5.IsWhole)
    (arg6 : Memref sig .tc .vmem S2048x64 .f32) (harg6 : arg6.IsWhole) (hc0 : ¬cond3_0 i) (hc1 : cond3_1 i)
    (x0 : Vec F S1x2048x64 .bf16) (x1 : Vec F S1x1024x64 .bf16) (x2 : Vec F S1x1024x64 .bf16) (xs0 : Vec F S2048x64 .f32) : Vec F S1x2048x64 .bf16 :=
  VO3_3.read (Elt F) (VO3_3.writes (Elt F) VO3_3.junk (kernelRun3_B c i arg2 harg2 arg3 harg3 arg4 harg4 arg5 harg5 arg6 harg6 hc0 hc1 x0 x1 x2 xs0).1)

theorem scover3_B_0 (c : Dev nD) (i : grid3.Coords) (arg2 : Memref sig .tc .vmem S1x2048x64 .bf16) (harg2 : arg2.IsWhole) (arg3 : Memref sig .tc .vmem S1x1024x64 .bf16) (harg3 : arg3.IsWhole)
    (arg4 : Memref sig .tc .vmem S1x1024x64 .bf16) (harg4 : arg4.IsWhole) (arg5 : Memref sig .tc .vmem S1x2048x64 .bf16) (harg5 : arg5.IsWhole)
    (arg6 : Memref sig .tc .vmem S2048x64 .f32) (harg6 : arg6.IsWhole) (hc0 : ¬cond3_0 i) (hc1 : cond3_1 i)
    (x0 : Vec F S1x2048x64 .bf16) (x1 : Vec F S1x1024x64 .bf16) (x2 : Vec F S1x1024x64 .bf16) (xs0 : Vec F S2048x64 .f32) (y : S2048x64.Idx) :
    ∃ pc ∈ (kernelRun3_B c i arg2 harg2 arg3 harg3 arg4 harg4 arg5 harg5 arg6 harg6 hc0 hc1 x0 x1 x2 xs0).2.1, y ∈ pc.1.set :=
  View.cover_of_tiledL (kernelRun3_B c i arg2 harg2 arg3 harg3 arg4 harg4 arg5 harg5 arg6 harg6 hc0 hc1 x0 x1 x2 xs0).2.1 S2048x64.size (by sl_kernel_rfl) y

/-- What a last half leaves in the accumulator. -/
def sout3_B_0 (c : Dev nD) (i : grid3.Coords) (arg2 : Memref sig .tc .vmem S1x2048x64 .bf16) (harg2 : arg2.IsWhole) (arg3 : Memref sig .tc .vmem S1x1024x64 .bf16) (harg3 : arg3.IsWhole)
    (arg4 : Memref sig .tc .vmem S1x1024x64 .bf16) (harg4 : arg4.IsWhole) (arg5 : Memref sig .tc .vmem S1x2048x64 .bf16) (harg5 : arg5.IsWhole)
    (arg6 : Memref sig .tc .vmem S2048x64 .f32) (harg6 : arg6.IsWhole) (hc0 : ¬cond3_0 i) (hc1 : cond3_1 i)
    (x0 : Vec F S1x2048x64 .bf16) (x1 : Vec F S1x1024x64 .bf16) (x2 : Vec F S1x1024x64 .bf16) (xs0 : Vec F S2048x64 .f32) : Vec F S2048x64 .f32 :=
  VS3_0.read (Elt F) (VS3_0.writes (Elt F) VS3_0.junk (kernelRun3_B c i arg2 harg2 arg3 harg3 arg4 harg4 arg5 harg5 arg6 harg6 hc0 hc1 x0 x1 x2 xs0).2.1)

/-! ## The windows' blocks, and the buffers after each point -/

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- THE ACCUMULATION: what the output block and the accumulator hold after the body at position `n`: the case the
    position's parity selects, run on the point's input blocks, a last half over what the first half left. -/
def outsAt3 (c : Dev nD) : (n : ℕ) → n < cfg3.N → Vec F S1x2048x64 .bf16 × Vec F S2048x64 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩),
      sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 2 = 0 then
      if h1 : (n + 1) % 2 = 1 then
        False.elim (by omega)
      else
        (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩),
          sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 2 = 1 then
        (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2,
          sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        False.elim (by omega)

theorem outsAt3_A (c : Dev nD) (t : Fin cfg3.N) (h0 : t.val % 2 = 0) (h1 : ¬t.val % 2 = 1) :
    outsAt3 V c t.val t.isLt = (out3_A_3 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t),
      sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

theorem outsAt3_B (c : Dev nD) (t : Fin cfg3.N) (h0 : ¬t.val % 2 = 0) (h1 : t.val % 2 = 1) :
    outsAt3 V c t.val t.isLt = (out3_B_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2,
      sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scoped buffer at anything; afterwards the
    accumulator at what the point before left, the other scoped buffers at anything, the generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2))
      ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare ((outsAt3 V c n hn).2))
      ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2))
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The pipeline's proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' memrefs hold their blocks; the point's parity says which case it is in; the
    invariant hands the body the accumulator (at anything before a first half, at what the first half left before a
    last half) and takes it back at this point's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 32 := lt_of_lt_of_eq t.isLt (show cfg3.N = 32 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  by_cases h0 : t.val % 2 = 0
  · have h1 : ¬ t.val % 2 = 1 := by omega
    rw [Dat.leavesExact_idle (dat3 V c) 3 t (idleAt3_3_A t ((hcond3_0 t).mpr h0) (fun h => h1 ((hcond3_1 t).mp h))) (noFlush3_3_A t ((hcond3_0 t).mpr h0) (fun h => h1 ((hcond3_1 t).mp h)))]
    rw [outsAt3_A V c t h0 h1]
    unfold sout3_A_0; (try dsimp only)
    by_cases hz : t.val = 0
    · rw [PhiS3_castSucc V c t, PhiS3_zero V c _ _ hz, PhiA3_eq]
      iintro ⟨⟨⟨HS0, Hsr⟩, Hg⟩, Ho, ⟨%d0, H0⟩, ⟨%d1, H1⟩, ⟨%d2, H2⟩, ⟨%d3, H3⟩⟩
      iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hsr Hg]
      · isplitl [HS0 Hsr]
        · isplitl [HS0]
          · unfold owns; iexists _; isplitr
            swap; · iexact HS0
            ipureintro; exact View.read_writes_of_cover _ _ _ _ _ (scover3_A_0 c _ _ _ _ _ _ _ _ _ _ _ _ _ _ _ _)
          iexact Hsr
        iexact Hg
      isplitl [Ho]; · iexact Ho
      isplitl [H0]; · iexact H0
      isplitl [H1]; · iexact H1
      isplitl [H2]; · iexact H2
      iexists _; iexact H3
    · rw [PhiS3_castSucc V c t, PhiS3_pos V c _ _ hz]
      iintro ⟨⟨⟨HS0, Hsr⟩, Hg⟩, Ho, ⟨%d0, H0⟩, ⟨%d1, H1⟩, ⟨%d2, H2⟩, ⟨%d3, H3⟩⟩
      iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hsr Hg]
      · isplitl [HS0 Hsr]
        · isplitl [HS0]
          · unfold owns; iexists _; isplitr
            swap; · iexact HS0
            ipureintro; exact View.read_writes_of_cover _ _ _ _ _ (scover3_A_0 c _ _ _ _ _ _ _ _ _ _ _ _ _ _ _ _)
          iexact Hsr
        iexact Hg
      isplitl [Ho]; · iexact Ho
      isplitl [H0]; · iexact H0
      isplitl [H1]; · iexact H1
      isplitl [H2]; · iexact H2
      iexists _; iexact H3
  · have h1 : t.val % 2 = 1 := by omega
    rw [show (dat3 V c).leavesExact 3 t = owns (c : Thread nD τ) (ms3_3 t) fullShare ((dat3 V c).after 3 t) from by
      unfold Dat.leavesExact; rw [liveAt3_3_B t (fun h => h0 ((hcond3_0 t).mp h)) ((hcond3_1 t).mpr h1)], after3_3]
    rw [outsAt3_B V c t h0 h1]
    unfold out3_B_3 sout3_B_0; (try dsimp only)
    have hz : t.val ≠ 0 := by omega
    rw [PhiS3_castSucc V c t, PhiS3_pos V c _ _ hz]
    iintro ⟨⟨⟨HS0, Hsr⟩, Hg⟩, Ho, ⟨%d0, H0⟩, ⟨%d1, H1⟩, ⟨%d2, H2⟩, ⟨%d3, H3⟩⟩
    iapply ((kernelRun3_B c (grid3.coords t) _ _ _ _ _ _ _ _ _ _ (fun h => h0 ((hcond3_0 t).mp h)) ((hcond3_1 t).mpr h1) (iblk3 V c 0 t) (iblk3 V c 1 t) (iblk3 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hsr Hg]
    · isplitl [HS0 Hsr]
      · isplitl [HS0]
        · unfold owns; iexists _; isplitr
          swap; · iexact HS0
          ipureintro; exact View.read_writes_of_cover _ _ _ _ _ (scover3_B_0 c _ _ _ _ _ _ _ _ _ _ _ _ _ _ _ _ _)
        iexact Hsr
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover3_B_3 c _ _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the launch's back: the accumulator's contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, Hsr⟩, Hg⟩
  isplitl [HS0 Hsr]
  · isplitl [HS0]
    · iexists _; iexact HS0
    iexact Hsr
  iexact Hg

theorem hout3 (c : Dev nD) : (dat3 V c).Φ (Fin.last cfg3.N) ⊢ Pipeline.ΦA spec3 c :=
  Phi_out3 V c _ (by rw [Fin.val_last]; have : cfg3.N = 32 := N_3; omega)

end Cert.Kernel.Hand

end
-- ==== Proof.KB.R4.lean ====
/-
  Region 4 of the program: one row-block of a dense layer per grid point. The body reads a block of 512 rows of the
  activations, the whole weight matrix and the whole bias, and stores (rows · weightsᵀ + bias) into its output block; it
  keeps nothing between points. Stated at a parameter `V`, the buffer contents when the region is entered: the blocks the
  body finds, what it leaves in the output block, its triple, the pipeline's proof data and the body obligation.
-/
import proofs.«137196_j32049045963121_2_alg».proof.Proof.Gen.Kernel.Launch
import proofs.«137196_j32049045963121_2_alg».proof.Proof.Gen.Kernel.Skeleton
import proofs.«137196_j32049045963121_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, whether the pipeline fetched it there or
    the block index has not moved since it did. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The whole-block rectangles the body loads and stores through. -/
abbrev rA4 : Rect S512x1024 := Rect.unit (s := S512x1024) ![0, 0] S512x1024.size inb_S512x1024_S512x1024_0_0
abbrev rW4 : Rect S1024x1024 := Rect.unit (s := S1024x1024) ![0, 0] S1024x1024.size inb_S1024x1024_S1024x1024_0_0
abbrev rB4 : Rect S1024 := Rect.unit (s := S1024) ![0] S1024.size inb_S1024_S1024_0

/-- What the body leaves in the output block: its one store, of the dense layer of the three loaded blocks. -/
def out4_3 (x0 : Vec F S512x1024 .bf16) (x1 : Vec F S1024x1024 .bf16) (x2 : Vec F S1024 .f32) : Vec F S512x1024 .f32 :=
  View.canon [⟨rA4, k4_pay1 (View.ld x0 rA4) (View.ld x1 rW4) (View.ld x2 rB4)⟩]

/-- The one store covers the block. -/
theorem cover4_3 (p0 : Vec F S512x1024 .f32) (y : S512x1024.Idx) :
    ∃ pc ∈ ([⟨rA4, p0⟩] : List (View.Piece (Elt F) S512x1024 .f32)), y ∈ pc.1.set :=
  View.cover_of_tiled [⟨rA4, p0⟩] S512x1024.size (by rfl) y

set_option maxHeartbeats 1000000 in
/-- The body on whole staging memrefs, the inputs at read contents `x0 x1 x2` and the output at anything, runs to the
    continuation holding the inputs as they were and the output at `out4_3` of them. -/
theorem sound_kernel4 (c : Dev nD) (E : Set ℕ) (i : grid4.Coords)
    (arg1 : Memref sig .tc .vmem S512x1024 .bf16) (harg1 : arg1.IsWhole) (arg2 : Memref sig .tc .vmem S1024x1024 .bf16) (harg2 : arg2.IsWhole)
    (arg3 : Memref sig .tc .vmem S1024 .f32) (harg3 : arg3.IsWhole) (arg4 : Memref sig .tc .vmem S512x1024 .f32) (harg4 : arg4.IsWhole)
    (x0 : Vec F S512x1024 .bf16) (x1 : Vec F S1024x1024 .bf16) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__linear_kernel i arg1 harg1 arg2 harg2 arg3 harg3 arg4 harg4) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The pipeline's proof data on core `c`: the arrays as the region finds them; after the body at point `t` each input's
    buffer at its block and the output's at the dense layer of the input blocks; the invariant is the scoped rest and the
    generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KB.Run.lean ====
/-
  The whole program as a run: five kernel regions among stretches of host operations. The buffer contents at every
  boundary are a fold from the launch memory — a host stretch applies its operations, a region leaves its arrays at what
  its write-backs produce —; each region is a segment over "every unscoped buffer at the boundary's contents"; and every
  weakly fair execution terminates with each buffer at the last boundary's contents: the arguments as launched, the
  result at what region 4 leaves.
-/
import proofs.«137196_j32049045963121_2_alg».proof.Proof.KB.R0
import proofs.«137196_j32049045963121_2_alg».proof.Proof.KB.R1
import proofs.«137196_j32049045963121_2_alg».proof.Proof.KB.R2
import proofs.«137196_j32049045963121_2_alg».proof.Proof.KB.R3
import proofs.«137196_j32049045963121_2_alg».proof.Proof.KB.R4
import proofs.«137196_j32049045963121_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch of host operations (region 0's entry). -/
abbrev W1 : Dev nD → Valuation τ sig (Elt F) := fun c => StableHlo.after hostOps0 (W0 m ρ c)
abbrev T1 : (c : Dev nD) → (b : Ref sig .tc) → Buf (Elt F) ((c : Thread nD τ).loc b) := fun c b => W1 m ρ c b
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

/-- At region 0's exit: its arrays at what the pipeline leaves, every other buffer as entered. -/
def W2 (c : Dev nD) : Valuation τ sig (Elt F) :=
  Pipeline.withArrays spec0 c (W1 m ρ c) fun w => (dat0 (T1 m ρ) c).arrAt w cfg0.N
theorem W2_arr (c : Dev nD) (w : Fin cfg0.W) :
    W2 m ρ c (Proc.devRef .tc (Pipeline.arrRef spec0 w)) = (dat0 (T1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev T2 : (c : Dev nD) → (b : Ref sig .tc) → Buf (Elt F) ((c : Thread nD τ).loc b) := fun c b => W2 m ρ c b
theorem hF0 (c : Dev nD) (w : Fin cfg0.W) : (dat0 (T1 m ρ) c).arrAt w cfg0.N = T2 m ρ c (Pipeline.arrRef spec0 w) :=
  (W2_arr m ρ c w).symm
theorem hrest0 (c : Dev nD) : ∀ b, b ∉ Finset.univ.image (Pipeline.arrRef spec0) → T2 m ρ c b = T1 m ρ c b :=
  fun b hb => W2_of_ne m ρ c b fun w e => hb (Finset.mem_image.mpr ⟨w, Finset.mem_univ _, e⟩)

/-- After the host operations that follow (region 1's entry). -/
abbrev W3 : Dev nD → Valuation τ sig (Elt F) := fun c => StableHlo.after hostOps1 (W2 m ρ c)
abbrev T3 : (c : Dev nD) → (b : Ref sig .tc) → Buf (Elt F) ((c : Thread nD τ).loc b) := fun c b => W3 m ρ c b
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

/-- At region 1's exit: its arrays at what the pipeline leaves, every other buffer as entered. -/
def W4 (c : Dev nD) : Valuation τ sig (Elt F) :=
  Pipeline.withArrays spec1 c (W3 m ρ c) fun w => (dat1 (T3 m ρ) c).arrAt w cfg1.N
theorem W4_arr (c : Dev nD) (w : Fin cfg1.W) :
    W4 m ρ c (Proc.devRef .tc (Pipeline.arrRef spec1 w)) = (dat1 (T3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev T4 : (c : Dev nD) → (b : Ref sig .tc) → Buf (Elt F) ((c : Thread nD τ).loc b) := fun c b => W4 m ρ c b
theorem hF1 (c : Dev nD) (w : Fin cfg1.W) : (dat1 (T3 m ρ) c).arrAt w cfg1.N = T4 m ρ c (Pipeline.arrRef spec1 w) :=
  (W4_arr m ρ c w).symm
theorem hrest1 (c : Dev nD) : ∀ b, b ∉ Finset.univ.image (Pipeline.arrRef spec1) → T4 m ρ c b = T3 m ρ c b :=
  fun b hb => W4_of_ne m ρ c b fun w e => hb (Finset.mem_image.mpr ⟨w, Finset.mem_univ _, e⟩)

/-- After the host operations that follow (region 2's entry). -/
abbrev W5 : Dev nD → Valuation τ sig (Elt F) := fun c => StableHlo.after hostOps2 (W4 m ρ c)
abbrev T5 : (c : Dev nD) → (b : Ref sig .tc) → Buf (Elt F) ((c : Thread nD τ).loc b) := fun c b => W5 m ρ c b
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h

/-- At region 2's exit: its arrays at what the pipeline leaves, every other buffer as entered. -/
def W6 (c : Dev nD) : Valuation τ sig (Elt F) :=
  Pipeline.withArrays spec2 c (W5 m ρ c) fun w => (dat2 (T5 m ρ) c).arrAt w cfg2.N
theorem W6_arr (c : Dev nD) (w : Fin cfg2.W) :
    W6 m ρ c (Proc.devRef .tc (Pipeline.arrRef spec2 w)) = (dat2 (T5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev T6 : (c : Dev nD) → (b : Ref sig .tc) → Buf (Elt F) ((c : Thread nD τ).loc b) := fun c b => W6 m ρ c b
theorem hF2 (c : Dev nD) (w : Fin cfg2.W) : (dat2 (T5 m ρ) c).arrAt w cfg2.N = T6 m ρ c (Pipeline.arrRef spec2 w) :=
  (W6_arr m ρ c w).symm
theorem hrest2 (c : Dev nD) : ∀ b, b ∉ Finset.univ.image (Pipeline.arrRef spec2) → T6 m ρ c b = T5 m ρ c b :=
  fun b hb => W6_of_ne m ρ c b fun w e => hb (Finset.mem_image.mpr ⟨w, Finset.mem_univ _, e⟩)

/-- After the host operations that follow (region 3's entry). -/
abbrev W7 : Dev nD → Valuation τ sig (Elt F) := fun c => StableHlo.after hostOps3 (W6 m ρ c)
abbrev T7 : (c : Dev nD) → (b : Ref sig .tc) → Buf (Elt F) ((c : Thread nD τ).loc b) := fun c b => W7 m ρ c b
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h

/-- At region 3's exit: its arrays at what the pipeline leaves, every other buffer as entered. -/
def W8 (c : Dev nD) : Valuation τ sig (Elt F) :=
  Pipeline.withArrays spec3 c (W7 m ρ c) fun w => (dat3 (T7 m ρ) c).arrAt w cfg3.N
theorem W8_arr (c : Dev nD) (w : Fin cfg3.W) :
    W8 m ρ c (Proc.devRef .tc (Pipeline.arrRef spec3 w)) = (dat3 (T7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev T8 : (c : Dev nD) → (b : Ref sig .tc) → Buf (Elt F) ((c : Thread nD τ).loc b) := fun c b => W8 m ρ c b
theorem hF3 (c : Dev nD) (w : Fin cfg3.W) : (dat3 (T7 m ρ) c).arrAt w cfg3.N = T8 m ρ c (Pipeline.arrRef spec3 w) :=
  (W8_arr m ρ c w).symm
theorem hrest3 (c : Dev nD) : ∀ b, b ∉ Finset.univ.image (Pipeline.arrRef spec3) → T8 m ρ c b = T7 m ρ c b :=
  fun b hb => W8_of_ne m ρ c b fun w e => hb (Finset.mem_image.mpr ⟨w, Finset.mem_univ _, e⟩)

/-- After the host operations that follow (region 4's entry). -/
abbrev W9 : Dev nD → Valuation τ sig (Elt F) := fun c => StableHlo.after hostOps4 (W8 m ρ c)
abbrev T9 : (c : Dev nD) → (b : Ref sig .tc) → Buf (Elt F) ((c : Thread nD τ).loc b) := fun c b => W9 m ρ c b
theorem W9_of (c : Dev nD) (r : Ref sig .tc) (h : r ∉ hostOps4_W) :
    W9 m ρ c (Proc.devRef .tc r) = W8 m ρ c (Proc.devRef .tc r) :=
  StableHlo.after_of_writes_sub hostOps4 _ hostOps4_writes h

/-- At region 4's exit: its arrays at what the pipeline leaves, every other buffer as entered. -/
def W10 (c : Dev nD) : Valuation τ sig (Elt F) :=
  Pipeline.withArrays spec4 c (W9 m ρ c) fun w => (dat4 (T9 m ρ) c).arrAt w cfg4.N
theorem W10_arr (c : Dev nD) (w : Fin cfg4.W) :
    W10 m ρ c (Proc.devRef .tc (Pipeline.arrRef spec4 w)) = (dat4 (T9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev T10 : (c : Dev nD) → (b : Ref sig .tc) → Buf (Elt F) ((c : Thread nD τ).loc b) := fun c b => W10 m ρ c b
theorem hF4 (c : Dev nD) (w : Fin cfg4.W) : (dat4 (T9 m ρ) c).arrAt w cfg4.N = T10 m ρ c (Pipeline.arrRef spec4 w) :=
  (W10_arr m ρ c w).symm
theorem hrest4 (c : Dev nD) : ∀ b, b ∉ Finset.univ.image (Pipeline.arrRef spec4) → T10 m ρ c b = T9 m ρ c b :=
  fun b hb => W10_of_ne m ρ c b fun w e => hb (Finset.mem_image.mpr ⟨w, Finset.mem_univ _, e⟩)

/-! ## The arguments end as launched -/

/-- A buffer no host operation writes and no region stages reaches the end as launched. -/
theorem W10_keep (c : Dev nD) (r : Ref sig .tc)
    (hh0 : r ∉ hostOps0_W) (hr0 : ∀ w, Pipeline.arrRef spec0 w ≠ r) (hh1 : r ∉ hostOps1_W) (hr1 : ∀ w, Pipeline.arrRef spec1 w ≠ r)
    (hh2 : r ∉ hostOps2_W) (hr2 : ∀ w, Pipeline.arrRef spec2 w ≠ r) (hh3 : r ∉ hostOps3_W) (hr3 : ∀ w, Pipeline.arrRef spec3 w ≠ r)
    (hh4 : r ∉ hostOps4_W) (hr4 : ∀ w, Pipeline.arrRef spec4 w ≠ r) :
    W10 m ρ c (Proc.devRef .tc r) = m ((c : Thread nD τ).loc r) :=
  (W10_of_ne m ρ c r hr4).trans <| (W9_of m ρ c r hh4).trans <| (W8_of_ne m ρ c r hr3).trans <| (W7_of m ρ c r hh3).trans <| (W6_of_ne m ρ c r hr2).trans <| (W5_of m ρ c r hh2).trans <| (W4_of_ne m ρ c r hr1).trans <| (W3_of m ρ c r hh1).trans <| (W2_of_ne m ρ c r hr0).trans <| (W1_of m ρ c r hh0).trans <| rfl

theorem W10_main_arg0 (c : Dev nD) : W10 m ρ c (Proc.devRef .tc main_arg0) = m ((c : Thread nD τ).loc main_arg0) :=
  W10_keep m ρ c main_arg0 (by decide) (by decide) (by decide) (by decide) (by decide) (by decide) (by decide) (by decide) (by decide) (by decide)
theorem W10_main_arg1 (c : Dev nD) : W10 m ρ c (Proc.devRef .tc main_arg1) = m ((c : Thread nD τ).loc main_arg1) :=
  W10_keep m ρ c main_arg1 (by decide) (by decide) (by decide) (by decide) (by decide) (by decide) (by decide) (by decide) (by decide) (by decide)
theorem W10_main_arg2 (c : Dev nD) : W10 m ρ c (Proc.devRef .tc main_arg2) = m ((c : Thread nD τ).loc main_arg2) :=
  W10_keep m ρ c main_arg2 (by decide) (by decide) (by decide) (by decide) (by decide) (by decide) (by decide) (by decide) (by decide) (by decide)
theorem W10_main_arg3 (c : Dev nD) : W10 m ρ c (Proc.devRef .tc main_arg3) = m ((c : Thread nD τ).loc main_arg3) :=
  W10_keep m ρ c main_arg3 (by decide) (by decide) (by decide) (by decide) (by decide) (by decide) (by decide) (by decide) (by decide) (by decide)
theorem W10_main_arg4 (c : Dev nD) : W10 m ρ c (Proc.devRef .tc main_arg4) = m ((c : Thread nD τ).loc main_arg4) :=
  W10_keep m ρ c main_arg4 (by decide) (by decide) (by decide) (by decide) (by decide) (by decide) (by decide) (by decide) (by decide) (by decide)
theorem W10_main_arg5 (c : Dev nD) : W10 m ρ c (Proc.devRef .tc main_arg5) = m ((c : Thread nD τ).loc main_arg5) :=
  W10_keep m ρ c main_arg5 (by decide) (by decide) (by decide) (by decide) (by decide) (by decide) (by decide) (by decide) (by decide) (by decide)
theorem W10_main_arg6 (c : Dev nD) : W10 m ρ c (Proc.devRef .tc main_arg6) = m ((c : Thread nD τ).loc main_arg6) :=
  W10_keep m ρ c main_arg6 (by decide) (by decide) (by decide) (by decide) (by decide) (by decide) (by decide) (by decide) (by decide) (by decide)
theorem W10_main_arg7 (c : Dev nD) : W10 m ρ c (Proc.devRef .tc main_arg7) = m ((c : Thread nD τ).loc main_arg7) :=
  W10_keep m ρ c main_arg7 (by decide) (by decide) (by decide) (by decide) (by decide) (by decide) (by decide) (by decide) (by decide) (by decide)
theorem W10_main_arg8 (c : Dev nD) : W10 m ρ c (Proc.devRef .tc main_arg8) = m ((c : Thread nD τ).loc main_arg8) :=
  W10_keep m ρ c main_arg8 (by decide) (by decide) (by decide) (by decide) (by decide) (by decide) (by decide) (by decide) (by decide) (by decide)
theorem W10_main_arg9 (c : Dev nD) : W10 m ρ c (Proc.devRef .tc main_arg9) = m ((c : Thread nD τ).loc main_arg9) :=
  W10_keep m ρ c main_arg9 (by decide) (by decide) (by decide) (by decide) (by decide) (by decide) (by decide) (by decide) (by decide) (by decide)
/-- The last region reads the output bias through an input window: its array is left as entered. -/
theorem W10_main_arg10 (c : Dev nD) : W10 m ρ c (Proc.devRef .tc main_arg10) = m ((c : Thread nD τ).loc main_arg10) :=
  ((W10_arr m ρ c 2).trans (((dat4 (T9 m ρ) c).arrAt_in 2 rfl _).trans (A_eq4 (T9 m ρ) c 2))).trans <|
  (W9_of m ρ c main_arg10 (by decide)).trans <| (W8_of_ne m ρ c main_arg10 (by decide)).trans <|
  (W7_of m ρ c main_arg10 (by decide)).trans <| (W6_of_ne m ρ c main_arg10 (by decide)).trans <|
  (W5_of m ρ c main_arg10 (by decide)).trans <| (W4_of_ne m ρ c main_arg10 (by decide)).trans <|
  (W3_of m ρ c main_arg10 (by decide)).trans <| (W2_of_ne m ρ c main_arg10 (by decide)).trans <|
  (W1_of m ρ c main_arg10 (by decide)).trans rfl

/-! ## The proof data family and the thread state -/

abbrev admH : (p : Fin 5) → (pcfgs (F := F) p).Adm := fun p => (cfgs p).toPCfg_adm
/-- Every pipeline's proof data, each at its region's entry contents. -/
def pdatsH : (p : Fin 5) → (c : Dev nD) → Dat τ (Elt F) Unit ℕ (UR sig nD τ) ℕ (Pipeline.pin (pcfgs (F := F)) admH p) c
  | ⟨0, _⟩ => fun c => dat0 (T1 m ρ) c
  | ⟨1, _⟩ => fun c => dat1 (T3 m ρ) c
  | ⟨2, _⟩ => fun c => dat2 (T5 m ρ) c
  | ⟨3, _⟩ => fun c => dat3 (T7 m ρ) c
  | ⟨4, _⟩ => fun c => dat4 (T9 m ρ) c
abbrev 𝒱H : Variants := Variants.none
abbrev LH : GSem nD τ sig → Finset Unit := fun _ => ∅
abbrev lvH : GSem nD τ sig → Unit → ℕ := fun _ _ => 0
/-- What rides beside the buffers through every segment: the generator register at some state, and nothing owed. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TH (c : Dev nD) : sProp 𝕄 := iprop(StableHlo.held (c : Thread nD τ) (Pipeline.ucRefs τ sig) (W10 m ρ c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register goes into the region's
    invariant and comes back; nothing is owed; the kernel has no semaphore of its own. -/
def reg0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (T1 m ρ) c).loose
  hwaits := Pipeline.hwaits_of_owed_zero _ _ _ _ LH lvH 0 fun _ _ => rfl
  pre c := iprop(StableHlo.held (c : Thread nD τ) (Pipeline.ucRefs τ sig) (W1 m ρ c) ∗ RH c)
  post c := iprop(StableHlo.held (c : Thread nD τ) (Pipeline.ucRefs τ sig) (W2 m ρ c) ∗ RH c)
  X c := iprop(∃ r, prngReg c r)
  Y c := iprop(∃ r, prngReg c r)
  Z c := Pipeline.unscopedRest (Ix := Unit) (Name := ℕ) (U := UR sig nD τ) (Lvl := ℕ) spec0 c (T1 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (T1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdatsH m ρ 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (T1 m ρ c) (T2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at the exit contents; the generator register goes into the region's
    invariant and comes back; nothing is owed; the kernel has no semaphore of its own. -/
def reg1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (T3 m ρ) c).loose
  hwaits := Pipeline.hwaits_of_owed_zero _ _ _ _ LH lvH 1 fun _ _ => rfl
  pre c := iprop(StableHlo.held (c : Thread nD τ) (Pipeline.ucRefs τ sig) (W3 m ρ c) ∗ RH c)
  post c := iprop(StableHlo.held (c : Thread nD τ) (Pipeline.ucRefs τ sig) (W4 m ρ c) ∗ RH c)
  X c := iprop(∃ r, prngReg c r)
  Y c := iprop(∃ r, prngReg c r)
  Z c := Pipeline.unscopedRest (Ix := Unit) (Name := ℕ) (U := UR sig nD τ) (Lvl := ℕ) spec1 c (T3 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (T3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdatsH m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (T3 m ρ c) (T4 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are
    split out of the unscoped buffers and put back at the exit contents; the generator register goes into the region's
    invariant and comes back; nothing is owed; the kernel has no semaphore of its own. -/
def reg2 : Pipeline.RegionSeg (pcfgs (F := F)) admH (pdatsH m ρ) () defs₀ 𝒱H LH lvH 2 where
  win := launch2.win.to₀
  block_pos := launch2.block_pos
  stage_whole := launch2.stage_whole
  K := PEmpty
  osem k := k.elim
  ho := Pipeline.OwnSemFacts.none _
  hbody c := (body_obligation2 (T5 m ρ) c).loose
  hwaits := Pipeline.hwaits_of_owed_zero _ _ _ _ LH lvH 2 fun _ _ => rfl
  pre c := iprop(StableHlo.held (c : Thread nD τ) (Pipeline.ucRefs τ sig) (W5 m ρ c) ∗ RH c)
  post c := iprop(StableHlo.held (c : Thread nD τ) (Pipeline.ucRefs τ sig) (W6 m ρ c) ∗ RH c)
  X c := iprop(∃ r, prngReg c r)
  Y c := iprop(∃ r, prngReg c r)
  Z c := Pipeline.unscopedRest (Ix := Unit) (Name := ℕ) (U := UR sig nD τ) (Lvl := ℕ) spec2 c (T5 m ρ c)
  hentry c := by
    rw [Pipeline.ownSems0_none]
    have hsplit := Pipeline.arrays_of_unscopedBufs (p := 2) (pcfgs (F := F)) admH (pdatsH m ρ) launch2.win launch2.arr_whole c
      ((pdatsH m ρ 2 c).share_full fun _ => rfl) (T5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdatsH m ρ 2 c).Φ (Fin.last _) = Pipeline.ΦA spec2 c from rfl]
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m ρ) ((pdatsH m ρ 2 c).share_full fun _ => rfl)
      (T5 m ρ c) (T6 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its arrays are
    split out of the unscoped buffers and put back at the exit contents; the generator register goes into the region's
    invariant and comes back; nothing is owed; the kernel has no semaphore of its own. -/
def reg3 : Pipeline.RegionSeg (pcfgs (F := F)) admH (pdatsH m ρ) () defs₀ 𝒱H LH lvH 3 where
  win := launch3.win.to₀
  block_pos := launch3.block_pos
  stage_whole := launch3.stage_whole
  K := PEmpty
  osem k := k.elim
  ho := Pipeline.OwnSemFacts.none _
  hbody c := (body_obligation3 (T7 m ρ) c).loose
  hwaits := Pipeline.hwaits_of_owed_zero _ _ _ _ LH lvH 3 fun _ _ => rfl
  pre c := iprop(StableHlo.held (c : Thread nD τ) (Pipeline.ucRefs τ sig) (W7 m ρ c) ∗ RH c)
  post c := iprop(StableHlo.held (c : Thread nD τ) (Pipeline.ucRefs τ sig) (W8 m ρ c) ∗ RH c)
  X c := iprop(∃ r, prngReg c r)
  Y c := iprop(∃ r, prngReg c r)
  Z c := Pipeline.unscopedRest (Ix := Unit) (Name := ℕ) (U := UR sig nD τ) (Lvl := ℕ) spec3 c (T7 m ρ c)
  hentry c := by
    rw [Pipeline.ownSems0_none]
    have hsplit := Pipeline.arrays_of_unscopedBufs (p := 3) (pcfgs (F := F)) admH (pdatsH m ρ) launch3.win launch3.arr_whole c
      ((pdatsH m ρ 3 c).share_full fun _ => rfl) (T7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 3 c).Φ 0 = Pipeline.ΦA spec3 c from rfl]; unfold Pipeline.ΦA
    iintro ⟨Hp, -, Hr⟩
    isplitl [Hr]; · iexact Hr
    iexact Hp
  hout c := by
    rw [Pipeline.ownSems0_none]
    refine (show (pdatsH m ρ 3 c).Φ (Fin.last _) ⊢ Pipeline.ΦA spec3 c from hout3 (T7 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH m ρ) ((pdatsH m ρ 3 c).share_full fun _ => rfl)
      (T7 m ρ c) (T8 m ρ c) ((pdatsH m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. Its arrays are
    split out of the unscoped buffers and put back at the exit contents; the generator register goes into the region's
    invariant and comes back; nothing is owed; the kernel has no semaphore of its own. -/
def reg4 : Pipeline.RegionSeg (pcfgs (F := F)) admH (pdatsH m ρ) () defs₀ 𝒱H LH lvH 4 where
  win := launch4.win.to₀
  block_pos := launch4.block_pos
  stage_whole := launch4.stage_whole
  K := PEmpty
  osem k := k.elim
  ho := Pipeline.OwnSemFacts.none _
  hbody c := (body_obligation4 (T9 m ρ) c).loose
  hwaits := Pipeline.hwaits_of_owed_zero _ _ _ _ LH lvH 4 fun _ _ => rfl
  pre c := iprop(StableHlo.held (c : Thread nD τ) (Pipeline.ucRefs τ sig) (W9 m ρ c) ∗ RH c)
  post c := iprop(TH m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (T9 m ρ c)
  hentry c := by
    rw [Pipeline.ownSems0_none]
    have hsplit := Pipeline.arrays_of_unscopedBufs (p := 4) (pcfgs (F := F)) admH (pdatsH m ρ) launch4.win launch4.arr_whole c
      ((pdatsH m ρ 4 c).share_full fun _ => rfl) (T9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 4 c).Φ 0 = Pipeline.ΦA spec4 c from rfl]; unfold Pipeline.ΦA
    iintro ⟨Hp, -, Hr⟩
    isplitl [Hr]; · iexact Hr
    iexact Hp
  hout c := by
    rw [Pipeline.ownSems0_none]
    rw [show (pdatsH m ρ 4 c).Φ (Fin.last _) = Pipeline.ΦA spec4 c from rfl]
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdatsH m ρ) ((pdatsH m ρ 4 c).share_full fun _ => rfl)
      (T9 m ρ c) (T10 m ρ c) ((pdatsH m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segsH : List (Pipeline.Seg (pcfgs (F := F)) admH (pdatsH m ρ) () defs₀ 𝒱H LH lvH) :=
  [ .host (hsegH hostOps0 hostOps0_sub hostOps0_fresh (W0 m ρ)),
    .region (reg0 m ρ),
    .host (hsegH hostOps1 hostOps1_sub hostOps1_fresh (W2 m ρ)),
    .region (reg1 m ρ),
    .host (hsegH hostOps2 hostOps2_sub hostOps2_fresh (W4 m ρ)),
    .region (reg2 m ρ),
    .host (hsegH hostOps3 hostOps3_sub hostOps3_fresh (W6 m ρ)),
    .region (reg3 m ρ),
    .host (hsegH hostOps4 hostOps4_sub hostOps4_fresh (W8 m ρ)),
    .region (reg4 m ρ) ]
theorem main_runH (c : Dev nD) : main (F := F) c = Pipeline.Seg.run (segsH m ρ) := (main_chain c).trans (by chain_rfl)

set_option backward.isDefEq.respectTransparency.types false in
/-- THE RUN: from any memory with zero counters every weakly fair execution terminates, nothing faulting, and every
    final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) admH (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c)) (Tₙ := TH m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

/-- The run read at the result and the arguments: the result at what region 4 leaves in its output array, every
    argument as launched. -/
theorem run_main : θ_run defs (onTc (τ := τ) (main (F := F))) ⟨m, fun _ => 0, ρ⟩ (fun r => ∀ c : Dev nD,
      r.2.mem ((c.tc : Thread nD τ).loc main_v25) = (dat4 (T9 m ρ) c).arrAt 3 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun s h c =>
    ⟨(h c _ (mem_ucH main_v25 (by decide))).trans (W10_arr m ρ c 3),
     (h c _ (mem_ucH main_arg0 (by decide))).trans (W10_main_arg0 m ρ c),
     (h c _ (mem_ucH main_arg1 (by decide))).trans (W10_main_arg1 m ρ c),
     (h c _ (mem_ucH main_arg2 (by decide))).trans (W10_main_arg2 m ρ c),
     (h c _ (mem_ucH main_arg3 (by decide))).trans (W10_main_arg3 m ρ c),
     (h c _ (mem_ucH main_arg4 (by decide))).trans (W10_main_arg4 m ρ c),
     (h c _ (mem_ucH main_arg5 (by decide))).trans (W10_main_arg5 m ρ c),
     (h c _ (mem_ucH main_arg6 (by decide))).trans (W10_main_arg6 m ρ c),
     (h c _ (mem_ucH main_arg7 (by decide))).trans (W10_main_arg7 m ρ c),
     (h c _ (mem_ucH main_arg8 (by decide))).trans (W10_main_arg8 m ρ c),
     (h c _ (mem_ucH main_arg9 (by decide))).trans (W10_main_arg9 m ρ c),
     (h c _ (mem_ucH main_arg10 (by decide))).trans (W10_main_arg10 m ρ c)⟩) (run_all m ρ)

/-- The frame: every argument array ends as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun s h c => (h c).2) (run_main m ρ)

end Cert.Kernel.Hand

end
-- ==== Proof.KI.R0.lean ====
/-
  Region 0 of the program: one row-block of a dense layer per grid point. The body reads a block of 256 rows of the
  activations, the whole weight matrix and the whole bias, and stores (rows · weightsᵀ + bias) into its output block; it
  keeps nothing between points. Stated at a parameter `V`, the buffer contents when the region is entered: the blocks the
  body finds, what it leaves in the output block, its triple, the pipeline's proof data and the body obligation.
-/
import proofs.«137196_j32049045963121_2_alg».proof.Proof.Gen.KernelIdeal.Launch
import proofs.«137196_j32049045963121_2_alg».proof.Proof.Gen.KernelIdeal.Skeleton
import proofs.«137196_j32049045963121_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it there or
    the block index has not moved since it did. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev rA0 : Rect S256x1024 := Rect.unit (s := S256x1024) ![0, 0] S256x1024.size inb_S256x1024_S256x1024_0_0
abbrev rW0 : Rect S1024x1024 := Rect.unit (s := S1024x1024) ![0, 0] S1024x1024.size inb_S1024x1024_S1024x1024_0_0
abbrev rB0 : Rect S1024 := Rect.unit (s := S1024) ![0] S1024.size inb_S1024_S1024_0

/-- What the body leaves in the output block: its one store, of the dense layer of the three loaded blocks. -/
def out0_3 (x0 : Vec F S256x1024 .bf16) (x1 : Vec F S1024x1024 .bf16) (x2 : Vec F S1024 .f32) : Vec F S256x1024 .bf16 :=
  View.canon [⟨rA0, k0_pay1 (View.ld x0 rA0) (View.ld x1 rW0) (View.ld x2 rB0)⟩]

/-- The one store covers the block. -/
theorem cover0_3 (p0 : Vec F S256x1024 .bf16) (y : S256x1024.Idx) :
    ∃ pc ∈ ([⟨rA0, p0⟩] : List (View.Piece (Elt F) S256x1024 .bf16)), y ∈ pc.1.set :=
  View.cover_of_tiled [⟨rA0, p0⟩] S256x1024.size (by rfl) y

set_option maxHeartbeats 1000000 in
/-- The body on whole staging memrefs, the inputs at read contents `x0 x1 x2` and the output at anything, runs to the
    continuation holding the inputs as they were and the output at `out0_3` of them. -/
theorem sound_kernel0 (c : Dev nD) (E : Set ℕ) (i : grid0.Coords)
    (arg1 : Memref sig .tc .vmem S256x1024 .bf16) (harg1 : arg1.IsWhole) (arg2 : Memref sig .tc .vmem S1024x1024 .bf16) (harg2 : arg2.IsWhole)
    (arg3 : Memref sig .tc .vmem S1024 .f32) (harg3 : arg3.IsWhole) (arg4 : Memref sig .tc .vmem S256x1024 .bf16) (harg4 : arg4.IsWhole)
    (x0 : Vec F S256x1024 .bf16) (x1 : Vec F S1024x1024 .bf16) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the region finds them; after the body at point `t` each input's
    buffer at its block and the output's at the dense layer of the input blocks; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/-
  Region 1 of the program: one row-block of a dense layer per grid point. The body reads a block of 256 rows of the
  activations, the whole weight matrix and the whole bias, and stores (rows · weightsᵀ + bias) into its output block; it
  keeps nothing between points. Stated at a parameter `V`, the buffer contents when the region is entered: the blocks the
  body finds, what it leaves in the output block, its triple, the pipeline's proof data and the body obligation.
-/
import proofs.«137196_j32049045963121_2_alg».proof.Proof.Gen.KernelIdeal.Launch
import proofs.«137196_j32049045963121_2_alg».proof.Proof.Gen.KernelIdeal.Skeleton
import proofs.«137196_j32049045963121_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the pipeline fetched it there or
    the block index has not moved since it did. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev rA1 : Rect S256x1024 := Rect.unit (s := S256x1024) ![0, 0] S256x1024.size inb_S256x1024_S256x1024_0_0
abbrev rW1 : Rect S1024x1024 := Rect.unit (s := S1024x1024) ![0, 0] S1024x1024.size inb_S1024x1024_S1024x1024_0_0
abbrev rB1 : Rect S1024 := Rect.unit (s := S1024) ![0] S1024.size inb_S1024_S1024_0

/-- What the body leaves in the output block: its one store, of the dense layer of the three loaded blocks. -/
def out1_3 (x0 : Vec F S256x1024 .bf16) (x1 : Vec F S1024x1024 .bf16) (x2 : Vec F S1024 .f32) : Vec F S256x1024 .bf16 :=
  View.canon [⟨rA1, k1_pay1 (View.ld x0 rA1) (View.ld x1 rW1) (View.ld x2 rB1)⟩]

/-- The one store covers the block. -/
theorem cover1_3 (p0 : Vec F S256x1024 .bf16) (y : S256x1024.Idx) :
    ∃ pc ∈ ([⟨rA1, p0⟩] : List (View.Piece (Elt F) S256x1024 .bf16)), y ∈ pc.1.set :=
  View.cover_of_tiled [⟨rA1, p0⟩] S256x1024.size (by rfl) y

set_option maxHeartbeats 1000000 in
/-- The body on whole staging memrefs, the inputs at read contents `x0 x1 x2` and the output at anything, runs to the
    continuation holding the inputs as they were and the output at `out1_3` of them. -/
theorem sound_kernel1 (c : Dev nD) (E : Set ℕ) (i : grid1.Coords)
    (arg1 : Memref sig .tc .vmem S256x1024 .bf16) (harg1 : arg1.IsWhole) (arg2 : Memref sig .tc .vmem S1024x1024 .bf16) (harg2 : arg2.IsWhole)
    (arg3 : Memref sig .tc .vmem S1024 .f32) (harg3 : arg3.IsWhole) (arg4 : Memref sig .tc .vmem S256x1024 .bf16) (harg4 : arg4.IsWhole)
    (x0 : Vec F S256x1024 .bf16) (x1 : Vec F S1024x1024 .bf16) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the region finds them; after the body at point `t` each input's
    buffer at its block and the output's at the dense layer of the input blocks; the invariant is the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
/-
  Region 2 of the program: one row-block of a dense layer per grid point. The body reads a block of 256 rows of the
  activations, the whole weight matrix and the whole bias, and stores (rows · weightsᵀ + bias) into its output block; it
  keeps nothing between points. Stated at a parameter `V`, the buffer contents when the region is entered: the blocks the
  body finds, what it leaves in the output block, its triple, the pipeline's proof data and the body obligation.
-/
import proofs.«137196_j32049045963121_2_alg».proof.Proof.Gen.KernelIdeal.Launch
import proofs.«137196_j32049045963121_2_alg».proof.Proof.Gen.KernelIdeal.Skeleton
import proofs.«137196_j32049045963121_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether the pipeline fetched it there or
    the block index has not moved since it did. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body loads and stores through. -/
abbrev rA2 : Rect S256x1024 := Rect.unit (s := S256x1024) ![0, 0] S256x1024.size inb_S256x1024_S256x1024_0_0
abbrev rW2 : Rect S1024x1024 := Rect.unit (s := S1024x1024) ![0, 0] S1024x1024.size inb_S1024x1024_S1024x1024_0_0
abbrev rB2 : Rect S1024 := Rect.unit (s := S1024) ![0] S1024.size inb_S1024_S1024_0

/-- What the body leaves in the output block: its one store, of the dense layer of the three loaded blocks. -/
def out2_3 (x0 : Vec F S256x1024 .bf16) (x1 : Vec F S1024x1024 .bf16) (x2 : Vec F S1024 .f32) : Vec F S256x1024 .bf16 :=
  View.canon [⟨rA2, k2_pay1 (View.ld x0 rA2) (View.ld x1 rW2) (View.ld x2 rB2)⟩]

/-- The one store covers the block. -/
theorem cover2_3 (p0 : Vec F S256x1024 .bf16) (y : S256x1024.Idx) :
    ∃ pc ∈ ([⟨rA2, p0⟩] : List (View.Piece (Elt F) S256x1024 .bf16)), y ∈ pc.1.set :=
  View.cover_of_tiled [⟨rA2, p0⟩] S256x1024.size (by rfl) y

set_option maxHeartbeats 1000000 in
/-- The body on whole staging memrefs, the inputs at read contents `x0 x1 x2` and the output at anything, runs to the
    continuation holding the inputs as they were and the output at `out2_3` of them. -/
theorem sound_kernel2 (c : Dev nD) (E : Set ℕ) (i : grid2.Coords)
    (arg1 : Memref sig .tc .vmem S256x1024 .bf16) (harg1 : arg1.IsWhole) (arg2 : Memref sig .tc .vmem S1024x1024 .bf16) (harg2 : arg2.IsWhole)
    (arg3 : Memref sig .tc .vmem S1024 .f32) (harg3 : arg3.IsWhole) (arg4 : Memref sig .tc .vmem S256x1024 .bf16) (harg4 : arg4.IsWhole)
    (x0 : Vec F S256x1024 .bf16) (x1 : Vec F S1024x1024 .bf16) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The pipeline's proof data on core `c`: the arrays as the region finds them; after the body at point `t` each input's
    buffer at its block and the output's at the dense layer of the input blocks; the invariant is the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3.lean ====
/-
  Region 3 of the program: causal attention scores with a column-wise log-softmax, one head per pair of grid points.
  A head's two points visit the two halves of the key axis; a scratch accumulator is zeroed at the first half, receives
  each half's contribution, and at the second half is rounded into the head's output block. Stated at a parameter `V`,
  the buffer contents when the region is entered: the two control cases of the body as runs, what the output block and
  the accumulator hold after each point (by recursion on the point), the pipeline's proof data, the body obligation.
-/
import proofs.«137196_j32049045963121_2_alg».proof.Proof.Gen.KernelIdeal.Launch
import proofs.«137196_j32049045963121_2_alg».proof.Proof.Gen.KernelIdeal.Skeleton
import proofs.«137196_j32049045963121_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, decided over the grid -/

/-- "This is the head's first half of the key axis": the accumulator is zeroed. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 2 = 0 :=
  (by decide +kernel : ∀ t : Fin grid3.N, cond3_0 (grid3.coords t) ↔ t.val % 2 = 0)
/-- "This is the head's last half": the accumulator is rounded into the output block. -/
abbrev cond3_1 (i : grid3.Coords) : Prop := k3_cond2 i = 1#1
theorem hcond3_1 : ∀ t : Fin cfg3.N, cond3_1 (grid3.coords t) ↔ t.val % 2 = 1 :=
  (by decide +kernel : ∀ t : Fin grid3.N, cond3_1 (grid3.coords t) ↔ t.val % 2 = 1)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- At a first half the output block is idle: nothing is stored into it and it is not written back. -/
theorem idleAt3_3_A : ∀ t : Fin cfg3.N, cond3_0 (grid3.coords t) → ¬cond3_1 (grid3.coords t) → cfg3.idle 3 (grid3.coords t) = true := by decide +kernel
theorem noFlush3_3_A : ∀ t : Fin cfg3.N, cond3_0 (grid3.coords t) → ¬cond3_1 (grid3.coords t) → (cfg3.win 3).flush t = false := by decide +kernel
theorem liveAt3_3_B : ∀ t : Fin cfg3.N, ¬cond3_0 (grid3.coords t) → cond3_1 (grid3.coords t) → cfg3.idle 3 (grid3.coords t) = false := by decide +kernel

/-! ## The memrefs the body is called on -/

abbrev VO3_3 : View sig .tc .vmem S1x2048x64 .bf16 := (Memref.whole cc3_stg3_0 : Memref sig .tc .vmem S1x2048x64 .bf16).view
abbrev ms3_0 (t : Fin cfg3.N) : Memref sig .tc .vmem S1x2048x64 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x1024x64 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1024x64 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x2048x64 .bf16 := win3_3.stage (cfg3.slots t 3)
abbrev hs3_3 (t : Fin cfg3.N) : (ms3_3 t).IsWhole := hstage3_3 ((cfg3.slots t 3).cast nbuf3_3)
/-- The accumulator: a whole scoped buffer of the kernel's own. -/
abbrev scM3_0 : Memref sig .tc .vmem S2048x64 .f32 := Memref.whole cc3_scratch0
abbrev VS3_0 : View sig .tc .vmem S2048x64 .f32 := scM3_0.view

/-- The region's invariant with the accumulator as a memref owned at some contents. -/
theorem PhiA3_eq (c : Dev nD) :
    (Pipeline.ΦA spec3 c : sProp 𝕄)
      = iprop(iprop(iprop((∃ d, owns (c : Thread nD τ) scM3_0 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

/-! ## The body's two cases as runs -/

set_option maxHeartbeats 4000000 in
/-- FIRST HALF. The accumulator, found at anything, is zeroed and then receives this half's contribution; the output
    block is handed back as found. The pieces the accumulator ends with are found by the run. -/
noncomputable def kernelRun3_A (c : Dev nD) (i : grid3.Coords)
    (arg2 : Memref sig .tc .vmem S1x2048x64 .bf16) (harg2 : arg2.IsWhole) (arg3 : Memref sig .tc .vmem S1x1024x64 .bf16) (harg3 : arg3.IsWhole)
    (arg4 : Memref sig .tc .vmem S1x1024x64 .bf16) (harg4 : arg4.IsWhole) (arg5 : Memref sig .tc .vmem S1x2048x64 .bf16) (harg5 : arg5.IsWhole)
    (arg6 : Memref sig .tc .vmem S2048x64 .f32) (harg6 : arg6.IsWhole) (hc0 : cond3_0 i) (hc1 : ¬cond3_1 i)
    (x0 : Vec F S1x2048x64 .bf16) (x1 : Vec F S1x1024x64 .bf16) (x2 : Vec F S1x1024x64 .bf16) :
    Σ' (L3 : List (View.Piece (Elt F) S1x2048x64 .bf16)), { LS0 : List (View.Piece (Elt F) S2048x64 .f32) //
      ∀ (xi3 : Vec F S1x2048x64 .bf16) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS0)) -∗ K ⟨⟩))
          ⊢ wp frame (wpE (defs₀ (F := F)) Variants.none c none) E (cc3__attn_kernel i arg2 harg2 arg3 harg3 arg4 harg4 arg5 harg5 arg6 harg6) K } := by
  refine ⟨[], ?_, fun xi3 E K => ?run⟩
  case run =>
    simp only [cc3__attn_kernel_eq_skeleton]; unfold cc3__attn_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- LAST HALF. The accumulator, found at what the head's first half left, receives this half's contribution and is
    rounded into the output block. The pieces the two buffers end with are found by the run. -/
noncomputable def kernelRun3_B (c : Dev nD) (i : grid3.Coords)
    (arg2 : Memref sig .tc .vmem S1x2048x64 .bf16) (harg2 : arg2.IsWhole) (arg3 : Memref sig .tc .vmem S1x1024x64 .bf16) (harg3 : arg3.IsWhole)
    (arg4 : Memref sig .tc .vmem S1x1024x64 .bf16) (harg4 : arg4.IsWhole) (arg5 : Memref sig .tc .vmem S1x2048x64 .bf16) (harg5 : arg5.IsWhole)
    (arg6 : Memref sig .tc .vmem S2048x64 .f32) (harg6 : arg6.IsWhole) (hc0 : ¬cond3_0 i) (hc1 : cond3_1 i)
    (x0 : Vec F S1x2048x64 .bf16) (x1 : Vec F S1x1024x64 .bf16) (x2 : Vec F S1x1024x64 .bf16) (xs0 : Vec F S2048x64 .f32) :
    Σ' (L3 : List (View.Piece (Elt F) S1x2048x64 .bf16)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc3__attn_kernel i arg2 harg2 arg3 harg3 arg4 harg4 arg5 harg5 arg6 harg6) K } := by
  refine ⟨?_, ?_, fun E K => ?run⟩
  case run =>
    simp only [cc3__attn_kernel_eq_skeleton]; unfold cc3__attn_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

/-! ## What each case leaves -/

/-- A first half stores nothing into the output block: a placeholder nothing consults. -/
def out3_A_3 (c : Dev nD) (i : grid3.Coords) (arg2 : Memref sig .tc .vmem S1x2048x64 .bf16) (harg2 : arg2.IsWhole) (arg3 : Memref sig .tc .vmem S1x1024x64 .bf16) (harg3 : arg3.IsWhole)
    (arg4 : Memref sig .tc .vmem S1x1024x64 .bf16) (harg4 : arg4.IsWhole) (arg5 : Memref sig .tc .vmem S1x2048x64 .bf16) (harg5 : arg5.IsWhole)
    (arg6 : Memref sig .tc .vmem S2048x64 .f32) (harg6 : arg6.IsWhole) (hc0 : cond3_0 i) (hc1 : ¬cond3_1 i)
    (x0 : Vec F S1x2048x64 .bf16) (x1 : Vec F S1x1024x64 .bf16) (x2 : Vec F S1x1024x64 .bf16) : Vec F S1x2048x64 .bf16 :=
  VO3_3.read (Elt F) (VO3_3.writes (Elt F) VO3_3.junk (kernelRun3_A c i arg2 harg2 arg3 harg3 arg4 harg4 arg5 harg5 arg6 harg6 hc0 hc1 x0 x1 x2).1)

theorem scover3_A_0 (c : Dev nD) (i : grid3.Coords) (arg2 : Memref sig .tc .vmem S1x2048x64 .bf16) (harg2 : arg2.IsWhole) (arg3 : Memref sig .tc .vmem S1x1024x64 .bf16) (harg3 : arg3.IsWhole)
    (arg4 : Memref sig .tc .vmem S1x1024x64 .bf16) (harg4 : arg4.IsWhole) (arg5 : Memref sig .tc .vmem S1x2048x64 .bf16) (harg5 : arg5.IsWhole)
    (arg6 : Memref sig .tc .vmem S2048x64 .f32) (harg6 : arg6.IsWhole) (hc0 : cond3_0 i) (hc1 : ¬cond3_1 i)
    (x0 : Vec F S1x2048x64 .bf16) (x1 : Vec F S1x1024x64 .bf16) (x2 : Vec F S1x1024x64 .bf16) (y : S2048x64.Idx) :
    ∃ pc ∈ (kernelRun3_A c i arg2 harg2 arg3 harg3 arg4 harg4 arg5 harg5 arg6 harg6 hc0 hc1 x0 x1 x2).2.1, y ∈ pc.1.set :=
  View.cover_of_tiledL (kernelRun3_A c i arg2 harg2 arg3 harg3 arg4 harg4 arg5 harg5 arg6 harg6 hc0 hc1 x0 x1 x2).2.1 S2048x64.size (by sl_kernel_rfl) y

/-- What a first half leaves in the accumulator. -/
def sout3_A_0 (c : Dev nD) (i : grid3.Coords) (arg2 : Memref sig .tc .vmem S1x2048x64 .bf16) (harg2 : arg2.IsWhole) (arg3 : Memref sig .tc .vmem S1x1024x64 .bf16) (harg3 : arg3.IsWhole)
    (arg4 : Memref sig .tc .vmem S1x1024x64 .bf16) (harg4 : arg4.IsWhole) (arg5 : Memref sig .tc .vmem S1x2048x64 .bf16) (harg5 : arg5.IsWhole)
    (arg6 : Memref sig .tc .vmem S2048x64 .f32) (harg6 : arg6.IsWhole) (hc0 : cond3_0 i) (hc1 : ¬cond3_1 i)
    (x0 : Vec F S1x2048x64 .bf16) (x1 : Vec F S1x1024x64 .bf16) (x2 : Vec F S1x1024x64 .bf16) : Vec F S2048x64 .f32 :=
  VS3_0.read (Elt F) (VS3_0.writes (Elt F) VS3_0.junk (kernelRun3_A c i arg2 harg2 arg3 harg3 arg4 harg4 arg5 harg5 arg6 harg6 hc0 hc1 x0 x1 x2).2.1)

theorem cover3_B_3 (c : Dev nD) (i : grid3.Coords) (arg2 : Memref sig .tc .vmem S1x2048x64 .bf16) (harg2 : arg2.IsWhole) (arg3 : Memref sig .tc .vmem S1x1024x64 .bf16) (harg3 : arg3.IsWhole)
    (arg4 : Memref sig .tc .vmem S1x1024x64 .bf16) (harg4 : arg4.IsWhole) (arg5 : Memref sig .tc .vmem S1x2048x64 .bf16) (harg5 : arg5.IsWhole)
    (arg6 : Memref sig .tc .vmem S2048x64 .f32) (harg6 : arg6.IsWhole) (hc0 : ¬cond3_0 i) (hc1 : cond3_1 i)
    (x0 : Vec F S1x2048x64 .bf16) (x1 : Vec F S1x1024x64 .bf16) (x2 : Vec F S1x1024x64 .bf16) (xs0 : Vec F S2048x64 .f32) (y : S1x2048x64.Idx) :
    ∃ pc ∈ (kernelRun3_B c i arg2 harg2 arg3 harg3 arg4 harg4 arg5 harg5 arg6 harg6 hc0 hc1 x0 x1 x2 xs0).1, y ∈ pc.1.set :=
  View.cover_of_tiledL (kernelRun3_B c i arg2 harg2 arg3 harg3 arg4 harg4 arg5 harg5 arg6 harg6 hc0 hc1 x0 x1 x2 xs0).1 S1x2048x64.size (by sl_kernel_rfl) y

/-- What a last half leaves in the output block. -/
def out3_B_3 (c : Dev nD) (i : grid3.Coords) (arg2 : Memref sig .tc .vmem S1x2048x64 .bf16) (harg2 : arg2.IsWhole) (arg3 : Memref sig .tc .vmem S1x1024x64 .bf16) (harg3 : arg3.IsWhole)
    (arg4 : Memref sig .tc .vmem S1x1024x64 .bf16) (harg4 : arg4.IsWhole) (arg5 : Memref sig .tc .vmem S1x2048x64 .bf16) (harg5 : arg5.IsWhole)
    (arg6 : Memref sig .tc .vmem S2048x64 .f32) (harg6 : arg6.IsWhole) (hc0 : ¬cond3_0 i) (hc1 : cond3_1 i)
    (x0 : Vec F S1x2048x64 .bf16) (x1 : Vec F S1x1024x64 .bf16) (x2 : Vec F S1x1024x64 .bf16) (xs0 : Vec F S2048x64 .f32) : Vec F S1x2048x64 .bf16 :=
  VO3_3.read (Elt F) (VO3_3.writes (Elt F) VO3_3.junk (kernelRun3_B c i arg2 harg2 arg3 harg3 arg4 harg4 arg5 harg5 arg6 harg6 hc0 hc1 x0 x1 x2 xs0).1)

theorem scover3_B_0 (c : Dev nD) (i : grid3.Coords) (arg2 : Memref sig .tc .vmem S1x2048x64 .bf16) (harg2 : arg2.IsWhole) (arg3 : Memref sig .tc .vmem S1x1024x64 .bf16) (harg3 : arg3.IsWhole)
    (arg4 : Memref sig .tc .vmem S1x1024x64 .bf16) (harg4 : arg4.IsWhole) (arg5 : Memref sig .tc .vmem S1x2048x64 .bf16) (harg5 : arg5.IsWhole)
    (arg6 : Memref sig .tc .vmem S2048x64 .f32) (harg6 : arg6.IsWhole) (hc0 : ¬cond3_0 i) (hc1 : cond3_1 i)
    (x0 : Vec F S1x2048x64 .bf16) (x1 : Vec F S1x1024x64 .bf16) (x2 : Vec F S1x1024x64 .bf16) (xs0 : Vec F S2048x64 .f32) (y : S2048x64.Idx) :
    ∃ pc ∈ (kernelRun3_B c i arg2 harg2 arg3 harg3 arg4 harg4 arg5 harg5 arg6 harg6 hc0 hc1 x0 x1 x2 xs0).2.1, y ∈ pc.1.set :=
  View.cover_of_tiledL (kernelRun3_B c i arg2 harg2 arg3 harg3 arg4 harg4 arg5 harg5 arg6 harg6 hc0 hc1 x0 x1 x2 xs0).2.1 S2048x64.size (by sl_kernel_rfl) y

/-- What a last half leaves in the accumulator. -/
def sout3_B_0 (c : Dev nD) (i : grid3.Coords) (arg2 : Memref sig .tc .vmem S1x2048x64 .bf16) (harg2 : arg2.IsWhole) (arg3 : Memref sig .tc .vmem S1x1024x64 .bf16) (harg3 : arg3.IsWhole)
    (arg4 : Memref sig .tc .vmem S1x1024x64 .bf16) (harg4 : arg4.IsWhole) (arg5 : Memref sig .tc .vmem S1x2048x64 .bf16) (harg5 : arg5.IsWhole)
    (arg6 : Memref sig .tc .vmem S2048x64 .f32) (harg6 : arg6.IsWhole) (hc0 : ¬cond3_0 i) (hc1 : cond3_1 i)
    (x0 : Vec F S1x2048x64 .bf16) (x1 : Vec F S1x1024x64 .bf16) (x2 : Vec F S1x1024x64 .bf16) (xs0 : Vec F S2048x64 .f32) : Vec F S2048x64 .f32 :=
  VS3_0.read (Elt F) (VS3_0.writes (Elt F) VS3_0.junk (kernelRun3_B c i arg2 harg2 arg3 harg3 arg4 harg4 arg5 harg5 arg6 harg6 hc0 hc1 x0 x1 x2 xs0).2.1)

/-! ## The windows' blocks, and the buffers after each point -/

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- THE ACCUMULATION: what the output block and the accumulator hold after the body at position `n`: the case the
    position's parity selects, run on the point's input blocks, a last half over what the first half left. -/
def outsAt3 (c : Dev nD) : (n : ℕ) → n < cfg3.N → Vec F S1x2048x64 .bf16 × Vec F S2048x64 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩),
      sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 2 = 0 then
      if h1 : (n + 1) % 2 = 1 then
        False.elim (by omega)
      else
        (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩),
          sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 2 = 1 then
        (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2,
          sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        False.elim (by omega)

theorem outsAt3_A (c : Dev nD) (t : Fin cfg3.N) (h0 : t.val % 2 = 0) (h1 : ¬t.val % 2 = 1) :
    outsAt3 V c t.val t.isLt = (out3_A_3 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t),
      sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

theorem outsAt3_B (c : Dev nD) (t : Fin cfg3.N) (h0 : ¬t.val % 2 = 0) (h1 : t.val % 2 = 1) :
    outsAt3 V c t.val t.isLt = (out3_B_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2,
      sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scoped buffer at anything; afterwards the
    accumulator at what the point before left, the other scoped buffers at anything, the generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2))
      ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare ((outsAt3 V c n hn).2))
      ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2))
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The pipeline's proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' memrefs hold their blocks; the point's parity says which case it is in; the
    invariant hands the body the accumulator (at anything before a first half, at what the first half left before a
    last half) and takes it back at this point's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 32 := lt_of_lt_of_eq t.isLt (show cfg3.N = 32 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  by_cases h0 : t.val % 2 = 0
  · have h1 : ¬ t.val % 2 = 1 := by omega
    rw [Dat.leavesExact_idle (dat3 V c) 3 t (idleAt3_3_A t ((hcond3_0 t).mpr h0) (fun h => h1 ((hcond3_1 t).mp h))) (noFlush3_3_A t ((hcond3_0 t).mpr h0) (fun h => h1 ((hcond3_1 t).mp h)))]
    rw [outsAt3_A V c t h0 h1]
    unfold sout3_A_0; (try dsimp only)
    by_cases hz : t.val = 0
    · rw [PhiS3_castSucc V c t, PhiS3_zero V c _ _ hz, PhiA3_eq]
      iintro ⟨⟨⟨HS0, Hsr⟩, Hg⟩, Ho, ⟨%d0, H0⟩, ⟨%d1, H1⟩, ⟨%d2, H2⟩, ⟨%d3, H3⟩⟩
      iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hsr Hg]
      · isplitl [HS0 Hsr]
        · isplitl [HS0]
          · unfold owns; iexists _; isplitr
            swap; · iexact HS0
            ipureintro; exact View.read_writes_of_cover _ _ _ _ _ (scover3_A_0 c _ _ _ _ _ _ _ _ _ _ _ _ _ _ _ _)
          iexact Hsr
        iexact Hg
      isplitl [Ho]; · iexact Ho
      isplitl [H0]; · iexact H0
      isplitl [H1]; · iexact H1
      isplitl [H2]; · iexact H2
      iexists _; iexact H3
    · rw [PhiS3_castSucc V c t, PhiS3_pos V c _ _ hz]
      iintro ⟨⟨⟨HS0, Hsr⟩, Hg⟩, Ho, ⟨%d0, H0⟩, ⟨%d1, H1⟩, ⟨%d2, H2⟩, ⟨%d3, H3⟩⟩
      iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hsr Hg]
      · isplitl [HS0 Hsr]
        · isplitl [HS0]
          · unfold owns; iexists _; isplitr
            swap; · iexact HS0
            ipureintro; exact View.read_writes_of_cover _ _ _ _ _ (scover3_A_0 c _ _ _ _ _ _ _ _ _ _ _ _ _ _ _ _)
          iexact Hsr
        iexact Hg
      isplitl [Ho]; · iexact Ho
      isplitl [H0]; · iexact H0
      isplitl [H1]; · iexact H1
      isplitl [H2]; · iexact H2
      iexists _; iexact H3
  · have h1 : t.val % 2 = 1 := by omega
    rw [show (dat3 V c).leavesExact 3 t = owns (c : Thread nD τ) (ms3_3 t) fullShare ((dat3 V c).after 3 t) from by
      unfold Dat.leavesExact; rw [liveAt3_3_B t (fun h => h0 ((hcond3_0 t).mp h)) ((hcond3_1 t).mpr h1)], after3_3]
    rw [outsAt3_B V c t h0 h1]
    unfold out3_B_3 sout3_B_0; (try dsimp only)
    have hz : t.val ≠ 0 := by omega
    rw [PhiS3_castSucc V c t, PhiS3_pos V c _ _ hz]
    iintro ⟨⟨⟨HS0, Hsr⟩, Hg⟩, Ho, ⟨%d0, H0⟩, ⟨%d1, H1⟩, ⟨%d2, H2⟩, ⟨%d3, H3⟩⟩
    iapply ((kernelRun3_B c (grid3.coords t) _ _ _ _ _ _ _ _ _ _ (fun h => h0 ((hcond3_0 t).mp h)) ((hcond3_1 t).mpr h1) (iblk3 V c 0 t) (iblk3 V c 1 t) (iblk3 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hsr Hg]
    · isplitl [HS0 Hsr]
      · isplitl [HS0]
        · unfold owns; iexists _; isplitr
          swap; · iexact HS0
          ipureintro; exact View.read_writes_of_cover _ _ _ _ _ (scover3_B_0 c _ _ _ _ _ _ _ _ _ _ _ _ _ _ _ _ _)
        iexact Hsr
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover3_B_3 c _ _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the launch's back: the accumulator's contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, Hsr⟩, Hg⟩
  isplitl [HS0 Hsr]
  · isplitl [HS0]
    · iexists _; iexact HS0
    iexact Hsr
  iexact Hg

theorem hout3 (c : Dev nD) : (dat3 V c).Φ (Fin.last cfg3.N) ⊢ Pipeline.ΦA spec3 c :=
  Phi_out3 V c _ (by rw [Fin.val_last]; have : cfg3.N = 32 := N_3; omega)

end Cert.KernelIdeal.Hand

end
-- ==== Proof.KI.R4.lean ====
/-
  Region 4 of the program: one row-block of a dense layer per grid point. The body reads a block of 512 rows of the
  activations, the whole weight matrix and the whole bias, and stores (rows · weightsᵀ + bias) into its output block; it
  keeps nothing between points. Stated at a parameter `V`, the buffer contents when the region is entered: the blocks the
  body finds, what it leaves in the output block, its triple, the pipeline's proof data and the body obligation.
-/
import proofs.«137196_j32049045963121_2_alg».proof.Proof.Gen.KernelIdeal.Launch
import proofs.«137196_j32049045963121_2_alg».proof.Proof.Gen.KernelIdeal.Skeleton
import proofs.«137196_j32049045963121_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, whether the pipeline fetched it there or
    the block index has not moved since it did. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The whole-block rectangles the body loads and stores through. -/
abbrev rA4 : Rect S512x1024 := Rect.unit (s := S512x1024) ![0, 0] S512x1024.size inb_S512x1024_S512x1024_0_0
abbrev rW4 : Rect S1024x1024 := Rect.unit (s := S1024x1024) ![0, 0] S1024x1024.size inb_S1024x1024_S1024x1024_0_0
abbrev rB4 : Rect S1024 := Rect.unit (s := S1024) ![0] S1024.size inb_S1024_S1024_0

/-- What the body leaves in the output block: its one store, of the dense layer of the three loaded blocks. -/
def out4_3 (x0 : Vec F S512x1024 .bf16) (x1 : Vec F S1024x1024 .bf16) (x2 : Vec F S1024 .f32) : Vec F S512x1024 .f32 :=
  View.canon [⟨rA4, k4_pay1 (View.ld x0 rA4) (View.ld x1 rW4) (View.ld x2 rB4)⟩]

/-- The one store covers the block. -/
theorem cover4_3 (p0 : Vec F S512x1024 .f32) (y : S512x1024.Idx) :
    ∃ pc ∈ ([⟨rA4, p0⟩] : List (View.Piece (Elt F) S512x1024 .f32)), y ∈ pc.1.set :=
  View.cover_of_tiled [⟨rA4, p0⟩] S512x1024.size (by rfl) y

set_option maxHeartbeats 1000000 in
/-- The body on whole staging memrefs, the inputs at read contents `x0 x1 x2` and the output at anything, runs to the
    continuation holding the inputs as they were and the output at `out4_3` of them. -/
theorem sound_kernel4 (c : Dev nD) (E : Set ℕ) (i : grid4.Coords)
    (arg1 : Memref sig .tc .vmem S512x1024 .bf16) (harg1 : arg1.IsWhole) (arg2 : Memref sig .tc .vmem S1024x1024 .bf16) (harg2 : arg2.IsWhole)
    (arg3 : Memref sig .tc .vmem S1024 .f32) (harg3 : arg3.IsWhole) (arg4 : Memref sig .tc .vmem S512x1024 .f32) (harg4 : arg4.IsWhole)
    (x0 : Vec F S512x1024 .bf16) (x1 : Vec F S1024x1024 .bf16) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__linear_kernel i arg1 harg1 arg2 harg2 arg3 harg3 arg4 harg4) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The pipeline's proof data on core `c`: the arrays as the region finds them; after the body at point `t` each input's
    buffer at its block and the output's at the dense layer of the input blocks; the invariant is the scoped rest and the
    generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Run.lean ====
/-
  The whole program as a run: five kernel regions among stretches of host operations. The buffer contents at every
  boundary are a fold from the launch memory — a host stretch applies its operations, a region leaves its arrays at what
  its write-backs produce —; each region is a segment over "every unscoped buffer at the boundary's contents"; and every
  weakly fair execution terminates with each buffer at the last boundary's contents: the arguments as launched, the
  result at what region 4 leaves.
-/
import proofs.«137196_j32049045963121_2_alg».proof.Proof.KI.R0
import proofs.«137196_j32049045963121_2_alg».proof.Proof.KI.R1
import proofs.«137196_j32049045963121_2_alg».proof.Proof.KI.R2
import proofs.«137196_j32049045963121_2_alg».proof.Proof.KI.R3
import proofs.«137196_j32049045963121_2_alg».proof.Proof.KI.R4
import proofs.«137196_j32049045963121_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch of host operations (region 0's entry). -/
abbrev W1 : Dev nD → Valuation τ sig (Elt F) := fun c => StableHlo.after hostOps0 (W0 m ρ c)
abbrev T1 : (c : Dev nD) → (b : Ref sig .tc) → Buf (Elt F) ((c : Thread nD τ).loc b) := fun c b => W1 m ρ c b
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

/-- At region 0's exit: its arrays at what the pipeline leaves, every other buffer as entered. -/
def W2 (c : Dev nD) : Valuation τ sig (Elt F) :=
  Pipeline.withArrays spec0 c (W1 m ρ c) fun w => (dat0 (T1 m ρ) c).arrAt w cfg0.N
theorem W2_arr (c : Dev nD) (w : Fin cfg0.W) :
    W2 m ρ c (Proc.devRef .tc (Pipeline.arrRef spec0 w)) = (dat0 (T1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev T2 : (c : Dev nD) → (b : Ref sig .tc) → Buf (Elt F) ((c : Thread nD τ).loc b) := fun c b => W2 m ρ c b
theorem hF0 (c : Dev nD) (w : Fin cfg0.W) : (dat0 (T1 m ρ) c).arrAt w cfg0.N = T2 m ρ c (Pipeline.arrRef spec0 w) :=
  (W2_arr m ρ c w).symm
theorem hrest0 (c : Dev nD) : ∀ b, b ∉ Finset.univ.image (Pipeline.arrRef spec0) → T2 m ρ c b = T1 m ρ c b :=
  fun b hb => W2_of_ne m ρ c b fun w e => hb (Finset.mem_image.mpr ⟨w, Finset.mem_univ _, e⟩)

/-- After the host operations that follow (region 1's entry). -/
abbrev W3 : Dev nD → Valuation τ sig (Elt F) := fun c => StableHlo.after hostOps1 (W2 m ρ c)
abbrev T3 : (c : Dev nD) → (b : Ref sig .tc) → Buf (Elt F) ((c : Thread nD τ).loc b) := fun c b => W3 m ρ c b
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

/-- At region 1's exit: its arrays at what the pipeline leaves, every other buffer as entered. -/
def W4 (c : Dev nD) : Valuation τ sig (Elt F) :=
  Pipeline.withArrays spec1 c (W3 m ρ c) fun w => (dat1 (T3 m ρ) c).arrAt w cfg1.N
theorem W4_arr (c : Dev nD) (w : Fin cfg1.W) :
    W4 m ρ c (Proc.devRef .tc (Pipeline.arrRef spec1 w)) = (dat1 (T3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev T4 : (c : Dev nD) → (b : Ref sig .tc) → Buf (Elt F) ((c : Thread nD τ).loc b) := fun c b => W4 m ρ c b
theorem hF1 (c : Dev nD) (w : Fin cfg1.W) : (dat1 (T3 m ρ) c).arrAt w cfg1.N = T4 m ρ c (Pipeline.arrRef spec1 w) :=
  (W4_arr m ρ c w).symm
theorem hrest1 (c : Dev nD) : ∀ b, b ∉ Finset.univ.image (Pipeline.arrRef spec1) → T4 m ρ c b = T3 m ρ c b :=
  fun b hb => W4_of_ne m ρ c b fun w e => hb (Finset.mem_image.mpr ⟨w, Finset.mem_univ _, e⟩)

/-- After the host operations that follow (region 2's entry). -/
abbrev W5 : Dev nD → Valuation τ sig (Elt F) := fun c => StableHlo.after hostOps2 (W4 m ρ c)
abbrev T5 : (c : Dev nD) → (b : Ref sig .tc) → Buf (Elt F) ((c : Thread nD τ).loc b) := fun c b => W5 m ρ c b
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h

/-- At region 2's exit: its arrays at what the pipeline leaves, every other buffer as entered. -/
def W6 (c : Dev nD) : Valuation τ sig (Elt F) :=
  Pipeline.withArrays spec2 c (W5 m ρ c) fun w => (dat2 (T5 m ρ) c).arrAt w cfg2.N
theorem W6_arr (c : Dev nD) (w : Fin cfg2.W) :
    W6 m ρ c (Proc.devRef .tc (Pipeline.arrRef spec2 w)) = (dat2 (T5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev T6 : (c : Dev nD) → (b : Ref sig .tc) → Buf (Elt F) ((c : Thread nD τ).loc b) := fun c b => W6 m ρ c b
theorem hF2 (c : Dev nD) (w : Fin cfg2.W) : (dat2 (T5 m ρ) c).arrAt w cfg2.N = T6 m ρ c (Pipeline.arrRef spec2 w) :=
  (W6_arr m ρ c w).symm
theorem hrest2 (c : Dev nD) : ∀ b, b ∉ Finset.univ.image (Pipeline.arrRef spec2) → T6 m ρ c b = T5 m ρ c b :=
  fun b hb => W6_of_ne m ρ c b fun w e => hb (Finset.mem_image.mpr ⟨w, Finset.mem_univ _, e⟩)

/-- After the host operations that follow (region 3's entry). -/
abbrev W7 : Dev nD → Valuation τ sig (Elt F) := fun c => StableHlo.after hostOps3 (W6 m ρ c)
abbrev T7 : (c : Dev nD) → (b : Ref sig .tc) → Buf (Elt F) ((c : Thread nD τ).loc b) := fun c b => W7 m ρ c b
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h

/-- At region 3's exit: its arrays at what the pipeline leaves, every other buffer as entered. -/
def W8 (c : Dev nD) : Valuation τ sig (Elt F) :=
  Pipeline.withArrays spec3 c (W7 m ρ c) fun w => (dat3 (T7 m ρ) c).arrAt w cfg3.N
theorem W8_arr (c : Dev nD) (w : Fin cfg3.W) :
    W8 m ρ c (Proc.devRef .tc (Pipeline.arrRef spec3 w)) = (dat3 (T7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev T8 : (c : Dev nD) → (b : Ref sig .tc) → Buf (Elt F) ((c : Thread nD τ).loc b) := fun c b => W8 m ρ c b
theorem hF3 (c : Dev nD) (w : Fin cfg3.W) : (dat3 (T7 m ρ) c).arrAt w cfg3.N = T8 m ρ c (Pipeline.arrRef spec3 w) :=
  (W8_arr m ρ c w).symm
theorem hrest3 (c : Dev nD) : ∀ b, b ∉ Finset.univ.image (Pipeline.arrRef spec3) → T8 m ρ c b = T7 m ρ c b :=
  fun b hb => W8_of_ne m ρ c b fun w e => hb (Finset.mem_image.mpr ⟨w, Finset.mem_univ _, e⟩)

/-- After the host operations that follow (region 4's entry). -/
abbrev W9 : Dev nD → Valuation τ sig (Elt F) := fun c => StableHlo.after hostOps4 (W8 m ρ c)
abbrev T9 : (c : Dev nD) → (b : Ref sig .tc) → Buf (Elt F) ((c : Thread nD τ).loc b) := fun c b => W9 m ρ c b
theorem W9_of (c : Dev nD) (r : Ref sig .tc) (h : r ∉ hostOps4_W) :
    W9 m ρ c (Proc.devRef .tc r) = W8 m ρ c (Proc.devRef .tc r) :=
  StableHlo.after_of_writes_sub hostOps4 _ hostOps4_writes h

/-- At region 4's exit: its arrays at what the pipeline leaves, every other buffer as entered. -/
def W10 (c : Dev nD) : Valuation τ sig (Elt F) :=
  Pipeline.withArrays spec4 c (W9 m ρ c) fun w => (dat4 (T9 m ρ) c).arrAt w cfg4.N
theorem W10_arr (c : Dev nD) (w : Fin cfg4.W) :
    W10 m ρ c (Proc.devRef .tc (Pipeline.arrRef spec4 w)) = (dat4 (T9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev T10 : (c : Dev nD) → (b : Ref sig .tc) → Buf (Elt F) ((c : Thread nD τ).loc b) := fun c b => W10 m ρ c b
theorem hF4 (c : Dev nD) (w : Fin cfg4.W) : (dat4 (T9 m ρ) c).arrAt w cfg4.N = T10 m ρ c (Pipeline.arrRef spec4 w) :=
  (W10_arr m ρ c w).symm
theorem hrest4 (c : Dev nD) : ∀ b, b ∉ Finset.univ.image (Pipeline.arrRef spec4) → T10 m ρ c b = T9 m ρ c b :=
  fun b hb => W10_of_ne m ρ c b fun w e => hb (Finset.mem_image.mpr ⟨w, Finset.mem_univ _, e⟩)

/-! ## The arguments end as launched -/

/-- A buffer no host operation writes and no region stages reaches the end as launched. -/
theorem W10_keep (c : Dev nD) (r : Ref sig .tc)
    (hh0 : r ∉ hostOps0_W) (hr0 : ∀ w, Pipeline.arrRef spec0 w ≠ r) (hh1 : r ∉ hostOps1_W) (hr1 : ∀ w, Pipeline.arrRef spec1 w ≠ r)
    (hh2 : r ∉ hostOps2_W) (hr2 : ∀ w, Pipeline.arrRef spec2 w ≠ r) (hh3 : r ∉ hostOps3_W) (hr3 : ∀ w, Pipeline.arrRef spec3 w ≠ r)
    (hh4 : r ∉ hostOps4_W) (hr4 : ∀ w, Pipeline.arrRef spec4 w ≠ r) :
    W10 m ρ c (Proc.devRef .tc r) = m ((c : Thread nD τ).loc r) :=
  (W10_of_ne m ρ c r hr4).trans <| (W9_of m ρ c r hh4).trans <| (W8_of_ne m ρ c r hr3).trans <| (W7_of m ρ c r hh3).trans <| (W6_of_ne m ρ c r hr2).trans <| (W5_of m ρ c r hh2).trans <| (W4_of_ne m ρ c r hr1).trans <| (W3_of m ρ c r hh1).trans <| (W2_of_ne m ρ c r hr0).trans <| (W1_of m ρ c r hh0).trans <| rfl

theorem W10_main_arg0 (c : Dev nD) : W10 m ρ c (Proc.devRef .tc main_arg0) = m ((c : Thread nD τ).loc main_arg0) :=
  W10_keep m ρ c main_arg0 (by decide) (by decide) (by decide) (by decide) (by decide) (by decide) (by decide) (by decide) (by decide) (by decide)
theorem W10_main_arg1 (c : Dev nD) : W10 m ρ c (Proc.devRef .tc main_arg1) = m ((c : Thread nD τ).loc main_arg1) :=
  W10_keep m ρ c main_arg1 (by decide) (by decide) (by decide) (by decide) (by decide) (by decide) (by decide) (by decide) (by decide) (by decide)
theorem W10_main_arg2 (c : Dev nD) : W10 m ρ c (Proc.devRef .tc main_arg2) = m ((c : Thread nD τ).loc main_arg2) :=
  W10_keep m ρ c main_arg2 (by decide) (by decide) (by decide) (by decide) (by decide) (by decide) (by decide) (by decide) (by decide) (by decide)
theorem W10_main_arg3 (c : Dev nD) : W10 m ρ c (Proc.devRef .tc main_arg3) = m ((c : Thread nD τ).loc main_arg3) :=
  W10_keep m ρ c main_arg3 (by decide) (by decide) (by decide) (by decide) (by decide) (by decide) (by decide) (by decide) (by decide) (by decide)
theorem W10_main_arg4 (c : Dev nD) : W10 m ρ c (Proc.devRef .tc main_arg4) = m ((c : Thread nD τ).loc main_arg4) :=
  W10_keep m ρ c main_arg4 (by decide) (by decide) (by decide) (by decide) (by decide) (by decide) (by decide) (by decide) (by decide) (by decide)
theorem W10_main_arg5 (c : Dev nD) : W10 m ρ c (Proc.devRef .tc main_arg5) = m ((c : Thread nD τ).loc main_arg5) :=
  W10_keep m ρ c main_arg5 (by decide) (by decide) (by decide) (by decide) (by decide) (by decide) (by decide) (by decide) (by decide) (by decide)
theorem W10_main_arg6 (c : Dev nD) : W10 m ρ c (Proc.devRef .tc main_arg6) = m ((c : Thread nD τ).loc main_arg6) :=
  W10_keep m ρ c main_arg6 (by decide) (by decide) (by decide) (by decide) (by decide) (by decide) (by decide) (by decide) (by decide) (by decide)
theorem W10_main_arg7 (c : Dev nD) : W10 m ρ c (Proc.devRef .tc main_arg7) = m ((c : Thread nD τ).loc main_arg7) :=
  W10_keep m ρ c main_arg7 (by decide) (by decide) (by decide) (by decide) (by decide) (by decide) (by decide) (by decide) (by decide) (by decide)
theorem W10_main_arg8 (c : Dev nD) : W10 m ρ c (Proc.devRef .tc main_arg8) = m ((c : Thread nD τ).loc main_arg8) :=
  W10_keep m ρ c main_arg8 (by decide) (by decide) (by decide) (by decide) (by decide) (by decide) (by decide) (by decide) (by decide) (by decide)
theorem W10_main_arg9 (c : Dev nD) : W10 m ρ c (Proc.devRef .tc main_arg9) = m ((c : Thread nD τ).loc main_arg9) :=
  W10_keep m ρ c main_arg9 (by decide) (by decide) (by decide) (by decide) (by decide) (by decide) (by decide) (by decide) (by decide) (by decide)
/-- The last region reads the output bias through an input window: its array is left as entered. -/
theorem W10_main_arg10 (c : Dev nD) : W10 m ρ c (Proc.devRef .tc main_arg10) = m ((c : Thread nD τ).loc main_arg10) :=
  ((W10_arr m ρ c 2).trans (((dat4 (T9 m ρ) c).arrAt_in 2 rfl _).trans (A_eq4 (T9 m ρ) c 2))).trans <|
  (W9_of m ρ c main_arg10 (by decide)).trans <| (W8_of_ne m ρ c main_arg10 (by decide)).trans <|
  (W7_of m ρ c main_arg10 (by decide)).trans <| (W6_of_ne m ρ c main_arg10 (by decide)).trans <|
  (W5_of m ρ c main_arg10 (by decide)).trans <| (W4_of_ne m ρ c main_arg10 (by decide)).trans <|
  (W3_of m ρ c main_arg10 (by decide)).trans <| (W2_of_ne m ρ c main_arg10 (by decide)).trans <|
  (W1_of m ρ c main_arg10 (by decide)).trans rfl

/-! ## The proof data family and the thread state -/

abbrev admH : (p : Fin 5) → (pcfgs (F := F) p).Adm := fun p => (cfgs p).toPCfg_adm
/-- Every pipeline's proof data, each at its region's entry contents. -/
def pdatsH : (p : Fin 5) → (c : Dev nD) → Dat τ (Elt F) Unit ℕ (UR sig nD τ) ℕ (Pipeline.pin (pcfgs (F := F)) admH p) c
  | ⟨0, _⟩ => fun c => dat0 (T1 m ρ) c
  | ⟨1, _⟩ => fun c => dat1 (T3 m ρ) c
  | ⟨2, _⟩ => fun c => dat2 (T5 m ρ) c
  | ⟨3, _⟩ => fun c => dat3 (T7 m ρ) c
  | ⟨4, _⟩ => fun c => dat4 (T9 m ρ) c
abbrev 𝒱H : Variants := Variants.none
abbrev LH : GSem nD τ sig → Finset Unit := fun _ => ∅
abbrev lvH : GSem nD τ sig → Unit → ℕ := fun _ _ => 0
/-- What rides beside the buffers through every segment: the generator register at some state, and nothing owed. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TH (c : Dev nD) : sProp 𝕄 := iprop(StableHlo.held (c : Thread nD τ) (Pipeline.ucRefs τ sig) (W10 m ρ c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register goes into the region's
    invariant and comes back; nothing is owed; the kernel has no semaphore of its own. -/
def reg0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (T1 m ρ) c).loose
  hwaits := Pipeline.hwaits_of_owed_zero _ _ _ _ LH lvH 0 fun _ _ => rfl
  pre c := iprop(StableHlo.held (c : Thread nD τ) (Pipeline.ucRefs τ sig) (W1 m ρ c) ∗ RH c)
  post c := iprop(StableHlo.held (c : Thread nD τ) (Pipeline.ucRefs τ sig) (W2 m ρ c) ∗ RH c)
  X c := iprop(∃ r, prngReg c r)
  Y c := iprop(∃ r, prngReg c r)
  Z c := Pipeline.unscopedRest (Ix := Unit) (Name := ℕ) (U := UR sig nD τ) (Lvl := ℕ) spec0 c (T1 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (T1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdatsH m ρ 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (T1 m ρ c) (T2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at the exit contents; the generator register goes into the region's
    invariant and comes back; nothing is owed; the kernel has no semaphore of its own. -/
def reg1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (T3 m ρ) c).loose
  hwaits := Pipeline.hwaits_of_owed_zero _ _ _ _ LH lvH 1 fun _ _ => rfl
  pre c := iprop(StableHlo.held (c : Thread nD τ) (Pipeline.ucRefs τ sig) (W3 m ρ c) ∗ RH c)
  post c := iprop(StableHlo.held (c : Thread nD τ) (Pipeline.ucRefs τ sig) (W4 m ρ c) ∗ RH c)
  X c := iprop(∃ r, prngReg c r)
  Y c := iprop(∃ r, prngReg c r)
  Z c := Pipeline.unscopedRest (Ix := Unit) (Name := ℕ) (U := UR sig nD τ) (Lvl := ℕ) spec1 c (T3 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (T3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdatsH m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (T3 m ρ c) (T4 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are
    split out of the unscoped buffers and put back at the exit contents; the generator register goes into the region's
    invariant and comes back; nothing is owed; the kernel has no semaphore of its own. -/
def reg2 : Pipeline.RegionSeg (pcfgs (F := F)) admH (pdatsH m ρ) () defs₀ 𝒱H LH lvH 2 where
  win := launch2.win.to₀
  block_pos := launch2.block_pos
  stage_whole := launch2.stage_whole
  K := PEmpty
  osem k := k.elim
  ho := Pipeline.OwnSemFacts.none _
  hbody c := (body_obligation2 (T5 m ρ) c).loose
  hwaits := Pipeline.hwaits_of_owed_zero _ _ _ _ LH lvH 2 fun _ _ => rfl
  pre c := iprop(StableHlo.held (c : Thread nD τ) (Pipeline.ucRefs τ sig) (W5 m ρ c) ∗ RH c)
  post c := iprop(StableHlo.held (c : Thread nD τ) (Pipeline.ucRefs τ sig) (W6 m ρ c) ∗ RH c)
  X c := iprop(∃ r, prngReg c r)
  Y c := iprop(∃ r, prngReg c r)
  Z c := Pipeline.unscopedRest (Ix := Unit) (Name := ℕ) (U := UR sig nD τ) (Lvl := ℕ) spec2 c (T5 m ρ c)
  hentry c := by
    rw [Pipeline.ownSems0_none]
    have hsplit := Pipeline.arrays_of_unscopedBufs (p := 2) (pcfgs (F := F)) admH (pdatsH m ρ) launch2.win launch2.arr_whole c
      ((pdatsH m ρ 2 c).share_full fun _ => rfl) (T5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdatsH m ρ 2 c).Φ (Fin.last _) = Pipeline.ΦA spec2 c from rfl]
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m ρ) ((pdatsH m ρ 2 c).share_full fun _ => rfl)
      (T5 m ρ c) (T6 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its arrays are
    split out of the unscoped buffers and put back at the exit contents; the generator register goes into the region's
    invariant and comes back; nothing is owed; the kernel has no semaphore of its own. -/
def reg3 : Pipeline.RegionSeg (pcfgs (F := F)) admH (pdatsH m ρ) () defs₀ 𝒱H LH lvH 3 where
  win := launch3.win.to₀
  block_pos := launch3.block_pos
  stage_whole := launch3.stage_whole
  K := PEmpty
  osem k := k.elim
  ho := Pipeline.OwnSemFacts.none _
  hbody c := (body_obligation3 (T7 m ρ) c).loose
  hwaits := Pipeline.hwaits_of_owed_zero _ _ _ _ LH lvH 3 fun _ _ => rfl
  pre c := iprop(StableHlo.held (c : Thread nD τ) (Pipeline.ucRefs τ sig) (W7 m ρ c) ∗ RH c)
  post c := iprop(StableHlo.held (c : Thread nD τ) (Pipeline.ucRefs τ sig) (W8 m ρ c) ∗ RH c)
  X c := iprop(∃ r, prngReg c r)
  Y c := iprop(∃ r, prngReg c r)
  Z c := Pipeline.unscopedRest (Ix := Unit) (Name := ℕ) (U := UR sig nD τ) (Lvl := ℕ) spec3 c (T7 m ρ c)
  hentry c := by
    rw [Pipeline.ownSems0_none]
    have hsplit := Pipeline.arrays_of_unscopedBufs (p := 3) (pcfgs (F := F)) admH (pdatsH m ρ) launch3.win launch3.arr_whole c
      ((pdatsH m ρ 3 c).share_full fun _ => rfl) (T7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 3 c).Φ 0 = Pipeline.ΦA spec3 c from rfl]; unfold Pipeline.ΦA
    iintro ⟨Hp, -, Hr⟩
    isplitl [Hr]; · iexact Hr
    iexact Hp
  hout c := by
    rw [Pipeline.ownSems0_none]
    refine (show (pdatsH m ρ 3 c).Φ (Fin.last _) ⊢ Pipeline.ΦA spec3 c from hout3 (T7 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH m ρ) ((pdatsH m ρ 3 c).share_full fun _ => rfl)
      (T7 m ρ c) (T8 m ρ c) ((pdatsH m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. Its arrays are
    split out of the unscoped buffers and put back at the exit contents; the generator register goes into the region's
    invariant and comes back; nothing is owed; the kernel has no semaphore of its own. -/
def reg4 : Pipeline.RegionSeg (pcfgs (F := F)) admH (pdatsH m ρ) () defs₀ 𝒱H LH lvH 4 where
  win := launch4.win.to₀
  block_pos := launch4.block_pos
  stage_whole := launch4.stage_whole
  K := PEmpty
  osem k := k.elim
  ho := Pipeline.OwnSemFacts.none _
  hbody c := (body_obligation4 (T9 m ρ) c).loose
  hwaits := Pipeline.hwaits_of_owed_zero _ _ _ _ LH lvH 4 fun _ _ => rfl
  pre c := iprop(StableHlo.held (c : Thread nD τ) (Pipeline.ucRefs τ sig) (W9 m ρ c) ∗ RH c)
  post c := iprop(TH m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (T9 m ρ c)
  hentry c := by
    rw [Pipeline.ownSems0_none]
    have hsplit := Pipeline.arrays_of_unscopedBufs (p := 4) (pcfgs (F := F)) admH (pdatsH m ρ) launch4.win launch4.arr_whole c
      ((pdatsH m ρ 4 c).share_full fun _ => rfl) (T9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 4 c).Φ 0 = Pipeline.ΦA spec4 c from rfl]; unfold Pipeline.ΦA
    iintro ⟨Hp, -, Hr⟩
    isplitl [Hr]; · iexact Hr
    iexact Hp
  hout c := by
    rw [Pipeline.ownSems0_none]
    rw [show (pdatsH m ρ 4 c).Φ (Fin.last _) = Pipeline.ΦA spec4 c from rfl]
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdatsH m ρ) ((pdatsH m ρ 4 c).share_full fun _ => rfl)
      (T9 m ρ c) (T10 m ρ c) ((pdatsH m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segsH : List (Pipeline.Seg (pcfgs (F := F)) admH (pdatsH m ρ) () defs₀ 𝒱H LH lvH) :=
  [ .host (hsegH hostOps0 hostOps0_sub hostOps0_fresh (W0 m ρ)),
    .region (reg0 m ρ),
    .host (hsegH hostOps1 hostOps1_sub hostOps1_fresh (W2 m ρ)),
    .region (reg1 m ρ),
    .host (hsegH hostOps2 hostOps2_sub hostOps2_fresh (W4 m ρ)),
    .region (reg2 m ρ),
    .host (hsegH hostOps3 hostOps3_sub hostOps3_fresh (W6 m ρ)),
    .region (reg3 m ρ),
    .host (hsegH hostOps4 hostOps4_sub hostOps4_fresh (W8 m ρ)),
    .region (reg4 m ρ) ]
theorem main_runH (c : Dev nD) : main (F := F) c = Pipeline.Seg.run (segsH m ρ) := (main_chain c).trans (by chain_rfl)

set_option backward.isDefEq.respectTransparency.types false in
/-- THE RUN: from any memory with zero counters every weakly fair execution terminates, nothing faulting, and every
    final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) admH (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c)) (Tₙ := TH m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

/-- The run read at the result and the arguments: the result at what region 4 leaves in its output array, every
    argument as launched. -/
theorem run_main : θ_run defs (onTc (τ := τ) (main (F := F))) ⟨m, fun _ => 0, ρ⟩ (fun r => ∀ c : Dev nD,
      r.2.mem ((c.tc : Thread nD τ).loc main_v25) = (dat4 (T9 m ρ) c).arrAt 3 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun s h c =>
    ⟨(h c _ (mem_ucH main_v25 (by decide))).trans (W10_arr m ρ c 3),
     (h c _ (mem_ucH main_arg0 (by decide))).trans (W10_main_arg0 m ρ c),
     (h c _ (mem_ucH main_arg1 (by decide))).trans (W10_main_arg1 m ρ c),
     (h c _ (mem_ucH main_arg2 (by decide))).trans (W10_main_arg2 m ρ c),
     (h c _ (mem_ucH main_arg3 (by decide))).trans (W10_main_arg3 m ρ c),
     (h c _ (mem_ucH main_arg4 (by decide))).trans (W10_main_arg4 m ρ c),
     (h c _ (mem_ucH main_arg5 (by decide))).trans (W10_main_arg5 m ρ c),
     (h c _ (mem_ucH main_arg6 (by decide))).trans (W10_main_arg6 m ρ c),
     (h c _ (mem_ucH main_arg7 (by decide))).trans (W10_main_arg7 m ρ c),
     (h c _ (mem_ucH main_arg8 (by decide))).trans (W10_main_arg8 m ρ c),
     (h c _ (mem_ucH main_arg9 (by decide))).trans (W10_main_arg9 m ρ c),
     (h c _ (mem_ucH main_arg10 (by decide))).trans (W10_main_arg10 m ρ c)⟩) (run_all m ρ)

/-- The frame: every argument array ends as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun s h c => (h c).2) (run_main m ρ)

end Cert.KernelIdeal.Hand

end
-- ==== Proof.KI.Host.lean ====
/-
  The host operations between the regions, read at the extended reals. Each region's input arrays are reshapes and
  format changes (the identity on extended reals) of the argument arrays, or reshapes and transposes of what an earlier
  region left; the lemmas here read every such array at an index, walking the boundary contents back to the launch memory
  or to the earlier region's output array.
-/
import proofs.«137196_j32049045963121_2_alg».proof.Proof.KI.Run
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx Idealize.ShloMosaic.StableHlo

/-! ## The layout operations at an index -/

section Layout
variable {α : Type}

/-- A [16,64,1024] array read as [1024,1024]: row `j` is row `(j / 64, j % 64)` of the operand. -/
theorem cast_16x64x1024_apply (x : (⟨3, ![16, 64, 1024]⟩ : Shape).Idx → α)
    (h : (⟨3, ![16, 64, 1024]⟩ : Shape).ShapeCasts ⟨2, ![1024, 1024]⟩) (j d : Fin 1024) :
    shapeCast ⟨2, ![1024, 1024]⟩ x h (ix2 j d)
      = x (ix3 (⟨j.val / 64, by have := j.isLt; omega⟩ : Fin 16) (⟨j.val % 64, by omega⟩ : Fin 64) d) :=
  shapeCast_apply x h _ _ (by
    rw [Shape.rowMajor_val_three, Shape.rowMajor_val_two]
    show (j.val / 64 * 64 + j.val % 64) * 1024 + d.val = j.val * 1024 + d.val
    omega)

/-- A [16,64] array read as [1024]: entry `j` is entry `(j / 64, j % 64)` of the operand. -/
theorem cast_16x64_apply (x : (⟨2, ![16, 64]⟩ : Shape).Idx → α)
    (h : (⟨2, ![16, 64]⟩ : Shape).ShapeCasts ⟨1, ![1024]⟩) (j : Fin 1024) :
    shapeCast ⟨1, ![1024]⟩ x h (ix1 j)
      = x (ix2 (⟨j.val / 64, by have := j.isLt; omega⟩ : Fin 16) (⟨j.val % 64, by omega⟩ : Fin 64)) :=
  shapeCast_apply x h _ _ (by
    rw [Shape.rowMajor_val_two, Shape.rowMajor_val_one]
    show j.val / 64 * 64 + j.val % 64 = j.val
    omega)

/-- A [2048,1024] array read as [2048,16,64]: entry `(s, h, k)` is entry `(s, 64·h + k)` of the operand. -/
theorem cast_2048x1024_apply (x : (⟨2, ![2048, 1024]⟩ : Shape).Idx → α)
    (h : (⟨2, ![2048, 1024]⟩ : Shape).ShapeCasts ⟨3, ![2048, 16, 64]⟩) (s : Fin 2048) (hd : Fin 16) (k : Fin 64) :
    shapeCast ⟨3, ![2048, 16, 64]⟩ x h (ix3 s hd k)
      = x (ix2 s (⟨64 * hd.val + k.val, by have := hd.isLt; have := k.isLt; omega⟩ : Fin 1024)) :=
  shapeCast_apply x h _ _ (by
    rw [Shape.rowMajor_val_three, Shape.rowMajor_val_two]
    show s.val * 1024 + (64 * hd.val + k.val) = (s.val * 16 + hd.val) * 64 + k.val
    omega)

/-- A [2048,16,64] array read as [2048,1024]: entry `(s, x)` is entry `(s, x / 64, x % 64)` of the operand. -/
theorem cast_2048x16x64_apply (x : (⟨3, ![2048, 16, 64]⟩ : Shape).Idx → α)
    (h : (⟨3, ![2048, 16, 64]⟩ : Shape).ShapeCasts ⟨2, ![2048, 1024]⟩) (s : Fin 2048) (j : Fin 1024) :
    shapeCast ⟨2, ![2048, 1024]⟩ x h (ix2 s j)
      = x (ix3 s (⟨j.val / 64, by have := j.isLt; omega⟩ : Fin 16) (⟨j.val % 64, by omega⟩ : Fin 64)) :=
  shapeCast_apply x h _ _ (by
    rw [Shape.rowMajor_val_three, Shape.rowMajor_val_two]
    show (s.val * 16 + j.val / 64) * 64 + j.val % 64 = s.val * 1024 + j.val
    omega)

/-- The first two axes exchanged (permutation `[1, 0, 2]`): entry `(j, i, k)` is entry `(i, j, k)` of the operand. -/
theorem transpose_102_apply {a b n : ℕ} (x : (⟨3, ![a, b, n]⟩ : Shape).Idx → α)
    (h : (⟨3, ![a, b, n]⟩ : Shape).Transposes [1, 0, 2] ⟨3, ![b, a, n]⟩) (j : Fin b) (i : Fin a) (k : Fin n) :
    transpose ⟨3, ![b, a, n]⟩ [1, 0, 2] x h (ix3 j i k) = x (ix3 i j k) :=
  transpose_apply _ x h _ _ fun c => match c with | ⟨0, _⟩ => rfl | ⟨1, _⟩ => rfl | ⟨2, _⟩ => rfl

end Layout

section
variable (m : (ℓ : Loc nD τ sig) → Buf (Elt Ideal) ℓ) (ρ : Dev nD → PrngReg) (c : Dev nD)

/-! ## Buffers that reach a boundary as launched -/

theorem W1_keep (r : Ref sig .tc) (hh0 : r ∉ hostOps0_W) : W1 m ρ c (Proc.devRef .tc r) = m ((c : Thread nD τ).loc r) :=
  (W1_of m ρ c r hh0).trans rfl
theorem W2_keep (r : Ref sig .tc) (hh0 : r ∉ hostOps0_W) (hr0 : ∀ w, Pipeline.arrRef spec0 w ≠ r) :
    W2 m ρ c (Proc.devRef .tc r) = m ((c : Thread nD τ).loc r) :=
  (W2_of_ne m ρ c r hr0).trans (W1_keep m ρ c r hh0)
theorem W4_keep (r : Ref sig .tc) (hh0 : r ∉ hostOps0_W) (hr0 : ∀ w, Pipeline.arrRef spec0 w ≠ r)
    (hh1 : r ∉ hostOps1_W) (hr1 : ∀ w, Pipeline.arrRef spec1 w ≠ r) :
    W4 m ρ c (Proc.devRef .tc r) = m ((c : Thread nD τ).loc r) :=
  (W4_of_ne m ρ c r hr1).trans <| (W3_of m ρ c r hh1).trans (W2_keep m ρ c r hh0 hr0)
theorem W8_keep (r : Ref sig .tc) (hh0 : r ∉ hostOps0_W) (hr0 : ∀ w, Pipeline.arrRef spec0 w ≠ r)
    (hh1 : r ∉ hostOps1_W) (hr1 : ∀ w, Pipeline.arrRef spec1 w ≠ r) (hh2 : r ∉ hostOps2_W) (hr2 : ∀ w, Pipeline.arrRef spec2 w ≠ r)
    (hh3 : r ∉ hostOps3_W) (hr3 : ∀ w, Pipeline.arrRef spec3 w ≠ r) :
    W8 m ρ c (Proc.devRef .tc r) = m ((c : Thread nD τ).loc r) :=
  (W8_of_ne m ρ c r hr3).trans <| (W7_of m ρ c r hh3).trans <| (W6_of_ne m ρ c r hr2).trans <| (W5_of m ρ c r hh2).trans
    (W4_keep m ρ c r hh0 hr0 hh1 hr1)

/-! ## What the first stretch of host operations leaves: the weights and biases of the three projections -/

/-- Row `j` of `main_v1` is row `(j / 64, j % 64)` of `main_arg3`. -/
theorem W1_main_v1 (j d : Fin 1024) :
    W1 m ρ c (Proc.devRef .tc main_v1) (ix2 j d)
      = m ((c.tc : Thread nD τ).loc main_arg3) (ix3 (⟨j.val / 64, by have := j.isLt; omega⟩ : Fin 16) (⟨j.val % 64, by omega⟩ : Fin 64) d) := by
  show StableHlo.after hostOps0 (W0 m ρ c) (Proc.devRef .tc main_v1) (ix2 j d) = _
  after_results
  exact cast_16x64x1024_apply (α := EReal) _ _ j d

/-- Row `j` of `main_v3` is row `(j / 64, j % 64)` of `main_arg5`. -/
theorem W1_main_v3 (j d : Fin 1024) :
    W1 m ρ c (Proc.devRef .tc main_v3) (ix2 j d)
      = m ((c.tc : Thread nD τ).loc main_arg5) (ix3 (⟨j.val / 64, by have := j.isLt; omega⟩ : Fin 16) (⟨j.val % 64, by omega⟩ : Fin 64) d) := by
  show StableHlo.after hostOps0 (W0 m ρ c) (Proc.devRef .tc main_v3) (ix2 j d) = _
  after_results
  exact cast_16x64x1024_apply (α := EReal) _ _ j d

/-- Row `j` of `main_v5` is row `(j / 64, j % 64)` of `main_arg7`. -/
theorem W1_main_v5 (j d : Fin 1024) :
    W1 m ρ c (Proc.devRef .tc main_v5) (ix2 j d)
      = m ((c.tc : Thread nD τ).loc main_arg7) (ix3 (⟨j.val / 64, by have := j.isLt; omega⟩ : Fin 16) (⟨j.val % 64, by omega⟩ : Fin 64) d) := by
  show StableHlo.after hostOps0 (W0 m ρ c) (Proc.devRef .tc main_v5) (ix2 j d) = _
  after_results
  exact cast_16x64x1024_apply (α := EReal) _ _ j d

/-- Entry `j` of `main_v6` is entry `(j / 64, j % 64)` of `main_arg4`. -/
theorem W1_main_v6 (j : Fin 1024) :
    W1 m ρ c (Proc.devRef .tc main_v6) (ix1 j)
      = m ((c.tc : Thread nD τ).loc main_arg4) (ix2 (⟨j.val / 64, by have := j.isLt; omega⟩ : Fin 16) (⟨j.val % 64, by omega⟩ : Fin 64)) := by
  show StableHlo.after hostOps0 (W0 m ρ c) (Proc.devRef .tc main_v6) (ix1 j) = _
  after_results
  exact cast_16x64_apply (α := EReal) _ _ j

/-- Entry `j` of `main_v7` is entry `(j / 64, j % 64)` of `main_arg6`. -/
theorem W1_main_v7 (j : Fin 1024) :
    W1 m ρ c (Proc.devRef .tc main_v7) (ix1 j)
      = m ((c.tc : Thread nD τ).loc main_arg6) (ix2 (⟨j.val / 64, by have := j.isLt; omega⟩ : Fin 16) (⟨j.val % 64, by omega⟩ : Fin 64)) := by
  show StableHlo.after hostOps0 (W0 m ρ c) (Proc.devRef .tc main_v7) (ix1 j) = _
  after_results
  exact cast_16x64_apply (α := EReal) _ _ j

/-- Entry `j` of `main_v8` is entry `(j / 64, j % 64)` of `main_arg8`. -/
theorem W1_main_v8 (j : Fin 1024) :
    W1 m ρ c (Proc.devRef .tc main_v8) (ix1 j)
      = m ((c.tc : Thread nD τ).loc main_arg8) (ix2 (⟨j.val / 64, by have := j.isLt; omega⟩ : Fin 16) (⟨j.val % 64, by omega⟩ : Fin 64)) := by
  show StableHlo.after hostOps0 (W0 m ρ c) (Proc.devRef .tc main_v8) (ix1 j) = _
  after_results
  exact cast_16x64_apply (α := EReal) _ _ j

/-! ## Region 0's inputs -/

/-- The activations of region 0 are the first argument. -/
theorem T1_main_v9 : @Eq (S2048x1024.Idx → EReal) (T1 m ρ c main_v9) (m ((c.tc : Thread nD τ).loc main_arg0)) := by
  show StableHlo.after hostOps0 (W0 m ρ c) (Proc.devRef .tc main_v9) = _
  after_results
  rfl
theorem T1_main_v1 (j d : Fin 1024) :
    T1 m ρ c main_v1 (ix2 j d)
      = m ((c.tc : Thread nD τ).loc main_arg3) (ix3 (⟨j.val / 64, by have := j.isLt; omega⟩ : Fin 16) (⟨j.val % 64, by omega⟩ : Fin 64) d) :=
  W1_main_v1 m ρ c j d
theorem T1_main_v6 (j : Fin 1024) :
    T1 m ρ c main_v6 (ix1 j)
      = m ((c.tc : Thread nD τ).loc main_arg4) (ix2 (⟨j.val / 64, by have := j.isLt; omega⟩ : Fin 16) (⟨j.val % 64, by omega⟩ : Fin 64)) :=
  W1_main_v6 m ρ c j

/-! ## Region 1's inputs -/

/-- The activations of region 1 are the second argument. -/
theorem T3_main_v11 : @Eq (S2048x1024.Idx → EReal) (T3 m ρ c main_v11) (m ((c.tc : Thread nD τ).loc main_arg1)) := by
  show StableHlo.after hostOps1 (W2 m ρ c) (Proc.devRef .tc main_v11) = _
  after_results
  rw [W2_keep m ρ c main_arg1 (by decide) (by decide)]
  rfl
theorem T3_main_v3 (j d : Fin 1024) :
    T3 m ρ c main_v3 (ix2 j d)
      = m ((c.tc : Thread nD τ).loc main_arg5) (ix3 (⟨j.val / 64, by have := j.isLt; omega⟩ : Fin 16) (⟨j.val % 64, by omega⟩ : Fin 64) d) :=
  (congrFun ((W3_of m ρ c main_v3 (by decide)).trans (W2_of_ne m ρ c main_v3 (by decide))) (ix2 j d)).trans (W1_main_v3 m ρ c j d)
theorem T3_main_v7 (j : Fin 1024) :
    T3 m ρ c main_v7 (ix1 j)
      = m ((c.tc : Thread nD τ).loc main_arg6) (ix2 (⟨j.val / 64, by have := j.isLt; omega⟩ : Fin 16) (⟨j.val % 64, by omega⟩ : Fin 64)) :=
  (congrFun ((W3_of m ρ c main_v7 (by decide)).trans (W2_of_ne m ρ c main_v7 (by decide))) (ix1 j)).trans (W1_main_v7 m ρ c j)

/-! ## Region 2's inputs -/

/-- The activations of region 2 are the third argument. -/
theorem T5_main_v13 : @Eq (S2048x1024.Idx → EReal) (T5 m ρ c main_v13) (m ((c.tc : Thread nD τ).loc main_arg2)) := by
  show StableHlo.after hostOps2 (W4 m ρ c) (Proc.devRef .tc main_v13) = _
  after_results
  rw [W4_keep m ρ c main_arg2 (by decide) (by decide) (by decide) (by decide)]
  rfl
theorem T5_main_v5 (j d : Fin 1024) :
    T5 m ρ c main_v5 (ix2 j d)
      = m ((c.tc : Thread nD τ).loc main_arg7) (ix3 (⟨j.val / 64, by have := j.isLt; omega⟩ : Fin 16) (⟨j.val % 64, by omega⟩ : Fin 64) d) :=
  (congrFun ((W5_of m ρ c main_v5 (by decide)).trans <| (W4_of_ne m ρ c main_v5 (by decide)).trans <|
    (W3_of m ρ c main_v5 (by decide)).trans (W2_of_ne m ρ c main_v5 (by decide))) (ix2 j d)).trans (W1_main_v5 m ρ c j d)
theorem T5_main_v8 (j : Fin 1024) :
    T5 m ρ c main_v8 (ix1 j)
      = m ((c.tc : Thread nD τ).loc main_arg8) (ix2 (⟨j.val / 64, by have := j.isLt; omega⟩ : Fin 16) (⟨j.val % 64, by omega⟩ : Fin 64)) :=
  (congrFun ((W5_of m ρ c main_v8 (by decide)).trans <| (W4_of_ne m ρ c main_v8 (by decide)).trans <|
    (W3_of m ρ c main_v8 (by decide)).trans (W2_of_ne m ρ c main_v8 (by decide))) (ix1 j)).trans (W1_main_v8 m ρ c j)

/-! ## Region 3's inputs -/

/-- `main_v16` is the heads of region 0's output laid out head-first: entry `(h, s, k)` is entry `(s, 64·h + k)` of what region 0 leaves. -/
theorem T7_main_v16 (h : Fin 16) (s : Fin 2048) (k : Fin 64) :
    T7 m ρ c main_v16 (ix3 h s k)
      = (dat0 (T1 m ρ) c).arrAt 3 cfg0.N (ix2 s (⟨64 * h.val + k.val, by have := h.isLt; have := k.isLt; omega⟩ : Fin 1024)) := by
  have e : W6 m ρ c (Proc.devRef .tc main_v10) = (dat0 (T1 m ρ) c).arrAt 3 cfg0.N :=
    (W6_of_ne m ρ c main_v10 (by decide)).trans <| (W5_of m ρ c main_v10 (by decide)).trans <|
      (W4_of_ne m ρ c main_v10 (by decide)).trans <| (W3_of m ρ c main_v10 (by decide)).trans (W2_arr m ρ c 3)
  show StableHlo.after hostOps3 (W6 m ρ c) (Proc.devRef .tc main_v16) (ix3 h s k) = _
  after_results
  rw [e]
  refine (transpose_102_apply (α := EReal) _ _ h s k).trans ?_
  exact cast_2048x1024_apply (α := EReal) _ _ s h k

/-- `main_v18` is the heads of region 1's output laid out head-first: entry `(h, s, k)` is entry `(s, 64·h + k)` of what region 1 leaves. -/
theorem T7_main_v18 (h : Fin 16) (s : Fin 2048) (k : Fin 64) :
    T7 m ρ c main_v18 (ix3 h s k)
      = (dat1 (T3 m ρ) c).arrAt 3 cfg1.N (ix2 s (⟨64 * h.val + k.val, by have := h.isLt; have := k.isLt; omega⟩ : Fin 1024)) := by
  have e : W6 m ρ c (Proc.devRef .tc main_v12) = (dat1 (T3 m ρ) c).arrAt 3 cfg1.N :=
    (W6_of_ne m ρ c main_v12 (by decide)).trans <| (W5_of m ρ c main_v12 (by decide)).trans (W4_arr m ρ c 3)
  show StableHlo.after hostOps3 (W6 m ρ c) (Proc.devRef .tc main_v18) (ix3 h s k) = _
  after_results
  rw [e]
  refine (transpose_102_apply (α := EReal) _ _ h s k).trans ?_
  exact cast_2048x1024_apply (α := EReal) _ _ s h k

/-- `main_v20` is the heads of region 2's output laid out head-first: entry `(h, s, k)` is entry `(s, 64·h + k)` of what region 2 leaves. -/
theorem T7_main_v20 (h : Fin 16) (s : Fin 2048) (k : Fin 64) :
    T7 m ρ c main_v20 (ix3 h s k)
      = (dat2 (T5 m ρ) c).arrAt 3 cfg2.N (ix2 s (⟨64 * h.val + k.val, by have := h.isLt; have := k.isLt; omega⟩ : Fin 1024)) := by
  have e : W6 m ρ c (Proc.devRef .tc main_v14) = (dat2 (T5 m ρ) c).arrAt 3 cfg2.N :=
    W6_arr m ρ c 3
  show StableHlo.after hostOps3 (W6 m ρ c) (Proc.devRef .tc main_v20) (ix3 h s k) = _
  after_results
  rw [e]
  refine (transpose_102_apply (α := EReal) _ _ h s k).trans ?_
  exact cast_2048x1024_apply (α := EReal) _ _ s h k

/-! ## Region 4's inputs -/

/-- The activations of region 4 are the heads of region 3's output laid side by side: entry `(s, x)` is entry
    `(x / 64, s, x % 64)` of what region 3 leaves. -/
theorem T9_main_v23 (s : Fin 2048) (x : Fin 1024) :
    T9 m ρ c main_v23 (ix2 s x)
      = (dat3 (T7 m ρ) c).arrAt 3 cfg3.N (ix3 (⟨x.val / 64, by have := x.isLt; omega⟩ : Fin 16) s (⟨x.val % 64, by omega⟩ : Fin 64)) := by
  have e : W8 m ρ c (Proc.devRef .tc main_v21) = (dat3 (T7 m ρ) c).arrAt 3 cfg3.N := W8_arr m ρ c 3
  show StableHlo.after hostOps4 (W8 m ρ c) (Proc.devRef .tc main_v23) (ix2 s x) = _
  after_results
  rw [e]
  refine (cast_2048x16x64_apply (α := EReal) _ _ s x).trans ?_
  exact transpose_102_apply (α := EReal) _ _ s _ _
/-- The output layer's weights are the tenth argument. -/
theorem T9_main_v24 : @Eq (S1024x1024.Idx → EReal) (T9 m ρ c main_v24) (m ((c.tc : Thread nD τ).loc main_arg9)) := by
  show StableHlo.after hostOps4 (W8 m ρ c) (Proc.devRef .tc main_v24) = _
  after_results
  rw [W8_keep m ρ c main_arg9 (by decide) (by decide) (by decide) (by decide) (by decide) (by decide) (by decide) (by decide)]
  rfl
/-- The output layer's bias is the last argument. -/
theorem T9_main_arg10 : @Eq (S1024.Idx → EReal) (T9 m ρ c main_arg10) (m ((c.tc : Thread nD τ).loc main_arg10)) :=
  (W9_of m ρ c main_arg10 (by decide)).trans (W8_keep m ρ c main_arg10 (by decide) (by decide) (by decide) (by decide) (by decide) (by decide) (by decide) (by decide))

end

end Cert.KernelIdeal.Hand

end
-- ==== Proof.KI.V0.lean ====
/-
  Region 0 of the program read as a value at the extended reals: the body's payload at a block index is the row of the
  activation block against the row of the weights, summed over the shared axis, plus the bias entry; each grid point writes
  back its block of rows; the blocks tile the output array, which therefore ends as one function of the three input arrays.
-/
import proofs.«137196_j32049045963121_2_alg».proof.Proof.KI.R0
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

/-- The left operand's index at output index `i` and contraction index `q`: row `i 0`, column `q`. -/
theorem lhs0_0 (i : S256x1024.Idx) (q : dot_S256x1024_S1024x1024_S256x1024_1_1_0_0_n_n.contr.Idx) :
    (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
theorem lhs0_1 (i : S256x1024.Idx) (q : dot_S256x1024_S1024x1024_S256x1024_1_1_0_0_n_n.contr.Idx) :
    (dot_S256x1024_S1024x1024_S256x1024_1_1_0_0_n_n.lhsIdx i q 1).val = (q ⟨0, by decide⟩).val :=
  dot_S256x1024_S1024x1024_S256x1024_1_1_0_0_n_n.lhsIdx_val_of_single rfl i q
/-- The right operand's: row `i 1`, column `q` (both operands are contracted on their second axis). -/
theorem rhs0_0 (i : S256x1024.Idx) (q : dot_S256x1024_S1024x1024_S256x1024_1_1_0_0_n_n.contr.Idx) :
    (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl
theorem rhs0_1 (i : S256x1024.Idx) (q : dot_S256x1024_S1024x1024_S256x1024_1_1_0_0_n_n.contr.Idx) :
    (dot_S256x1024_S1024x1024_S256x1024_1_1_0_0_n_n.rhsIdx i q 1).val = (q ⟨0, by decide⟩).val :=
  dot_S256x1024_S1024x1024_S256x1024_1_1_0_0_n_n.rhsIdx_val_of_single rfl i q

/-- The product into the zero accumulator, at row `p`, column `j`: the sum over the shared axis. -/
theorem matmul0_apply (x0 : FVec Ideal S256x1024 .bf16) (x1 : FVec Ideal S1024x1024 .bf16) (p : Fin 256) (j : Fin 1024) :
    matmul (F := Ideal) (φ₁ := .bf16) (φ₂ := .bf16) dot_S256x1024_S1024x1024_S256x1024_1_1_0_0_n_n none x0 x1 (constant (F := Ideal) S256x1024 .f32 0x00000000#32) (ix2 p j)
      = ∑ d : Fin 1024, x0 (ix2 p d) * x1 (ix2 j d) := by
  refine (Ideal.matmul_constant_zero_apply dot_S256x1024_S1024x1024_S256x1024_1_1_0_0_n_n none x0 x1 (ix2 p j)).trans ?_
  rw [← Equiv.sum_comp (contrEquiv1 dot_S256x1024_S1024x1024_S256x1024_1_1_0_0_n_n 1024 rfl rfl).symm]
  refine Finset.sum_congr rfl fun k _ => ?_
  have hk := contrEquiv1_symm_val dot_S256x1024_S1024x1024_S256x1024_1_1_0_0_n_n 1024 rfl rfl k
  have el : dot_S256x1024_S1024x1024_S256x1024_1_1_0_0_n_n.lhsIdx (ix2 p j) ((contrEquiv1 dot_S256x1024_S1024x1024_S256x1024_1_1_0_0_n_n 1024 rfl rfl).symm k) = ix2 p k := funext fun a => Fin.ext (by
    match a with
    | ⟨0, _⟩ => exact lhs0_0 _ _
    | ⟨1, _⟩ => exact (lhs0_1 _ _).trans hk)
  have er : dot_S256x1024_S1024x1024_S256x1024_1_1_0_0_n_n.rhsIdx (ix2 p j) ((contrEquiv1 dot_S256x1024_S1024x1024_S256x1024_1_1_0_0_n_n 1024 rfl rfl).symm k) = ix2 j k := funext fun a => Fin.ext (by
    match a with
    | ⟨0, _⟩ => exact rhs0_0 _ _
    | ⟨1, _⟩ => exact (rhs0_1 _ _).trans hk)
  rw [el, er]

/-- The body's payload at row `p`, column `j` of the block: the dot product of row `p` of the activations with row `j`
    of the weights, plus entry `j` of the bias. -/
theorem pay0_apply (x0 : Vec Ideal S256x1024 .bf16) (x1 : Vec Ideal S1024x1024 .bf16) (x2 : Vec Ideal S1024 .f32)
    (p : Fin 256) (j : Fin 1024) :
    k0_pay1 (F := Ideal) x0 x1 x2 (ix2 p j) = (∑ d : Fin 1024, x0 (ix2 p d) * x1 (ix2 j d)) + x2 (ix1 j) := by
  unfold k0_pay1
  simp only [shapeCast_self]
  show matmul (F := Ideal) (φ₁ := .bf16) (φ₂ := .bf16) dot_S256x1024_S1024x1024_S256x1024_1_1_0_0_n_n none x0 x1 (constant (F := Ideal) S256x1024 .f32 0x00000000#32) (ix2 p j)
      + broadcastTo S256x1024 (shapeCast S1x1024 x2 shapeCasts_S1024_S1x1024) broadcasts_S1x1024_S256x1024 (ix2 p j) = _
  rw [matmul0_apply, broadcastTo_1b_ab_apply, shapeCast_a_1a_apply]

/-- The dense layer of an activation array, a weight array and a bias, entry by entry. -/
abbrev dense0 (X : S2048x1024.Idx → EReal) (W : S1024x1024.Idx → EReal) (b : S1024.Idx → EReal) : S2048x1024.Idx → EReal :=
  fun i => (∑ d : Fin 1024, X (ix2 (i 0) d) * W (ix2 (i 1) d)) + b (ix1 (i 1))

theorem zero2_0 : (![0, 0] : Fin 2 → Nat) = fun _ => 0 := funext fun a => by fin_cases a <;> rfl
theorem zero1_0 : (![0] : Fin 1 → Nat) = fun _ => 0 := funext fun a => by fin_cases a <;> rfl

/-- The body's one store through the whole block leaves its payload of the loaded blocks. -/
theorem out0_3_eq (x0 : Vec Ideal S256x1024 .bf16) (x1 : Vec Ideal S1024x1024 .bf16) (x2 : Vec Ideal S1024 .f32) :
    out0_3 (F := Ideal) x0 x1 x2 = k0_pay1 (F := Ideal) x0 x1 x2 := by
  unfold out0_3
  rw [View.canon_unit_zero zero2_0, View.ld_unit_zero (S := S256x1024) zero2_0, View.ld_unit_zero (S := S1024x1024) zero2_0,
    View.ld_unit_zero (S := S1024) zero1_0]

/-- A block's entry is the dense layer's at the array index `k`, when the three loaded blocks are the arrays' rows there. -/
theorem block0_eq (X : S2048x1024.Idx → EReal) (W : S1024x1024.Idx → EReal) (b : S1024.Idx → EReal)
    (x0 : Vec Ideal S256x1024 .bf16) (x1 : Vec Ideal S1024x1024 .bf16) (x2 : Vec Ideal S1024 .f32)
    (y : S256x1024.Idx) (k : S2048x1024.Idx)
    (h0 : ∀ d : Fin 1024, x0 (ix2 (y 0) d) = X (ix2 (k 0) d))
    (h1 : ∀ d : Fin 1024, x1 (ix2 (y 1) d) = W (ix2 (k 1) d))
    (h2 : x2 (ix1 (y 1)) = b (ix1 (k 1))) :
    out0_3 (F := Ideal) x0 x1 x2 y = dense0 X W b k := by
  rw [out0_3_eq]
  refine (congrArg (k0_pay1 (F := Ideal) x0 x1 x2) (eq_ix2 y)).trans ?_
  refine (pay0_apply x0 x1 x2 (y 0) (y 1)).trans ?_
  show _ = (∑ d : Fin 1024, X (ix2 (k 0) d) * W (ix2 (k 1) d)) + b (ix1 (k 1))
  rw [h2]
  refine congrArg (· + b (ix1 (k 1))) (Finset.sum_congr rfl fun d _ => ?_)
  rw [h0 d, h1 d]

/-- The index maps at every grid point: the activations' and the output's block index is the point on the row
    axis and zero on the column axis; the weights and the bias stay at block zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b))

/-- The activations' block at point `t` is rows `256·t …` of the array. -/
theorem iblk0_0_apply (c : Dev nD) (t : Fin cfg0.N) (x : S256x1024.Idx) (k : S2048x1024.Idx)
    (hk0 : (k 0).val = t.val * 256 + (x 0).val) (hk1 : (k 1).val = (x 1).val) :
    (iblk0 V c 0 t : Vec Ideal S256x1024 .bf16) x = (V c main_v9 : S2048x1024.Idx → Elt Ideal .bf16) k := by
  obtain ⟨e0, e1, -, -, -, -, -⟩ := idx_facts0 t
  unfold iblk0
  rw [View.read_apply]
  show V c main_v9 _ = V c main_v9 _
  congr 1
  funext a
  apply Fin.ext
  match a with
  | ⟨0, _⟩ => show win0_0.index t (0 : Fin 2) * 256 + 1 * (x 0).val = (k 0).val; omega
  | ⟨1, _⟩ => show win0_0.index t (1 : Fin 2) * 1024 + 1 * (x 1).val = (k 1).val; omega

/-- The weights' block at every point is the whole array. -/
theorem iblk0_1_apply (c : Dev nD) (t : Fin cfg0.N) (x : S1024x1024.Idx) :
    (iblk0 V c 1 t : Vec Ideal S1024x1024 .bf16) x = (V c main_v1 : S1024x1024.Idx → Elt Ideal .bf16) x := by
  obtain ⟨-, -, e0, e1, -, -, -⟩ := idx_facts0 t
  unfold iblk0
  rw [View.read_apply]
  show V c main_v1 _ = V c main_v1 _
  congr 1
  funext a
  apply Fin.ext
  match a with
  | ⟨0, _⟩ => show win0_1.index t (0 : Fin 2) * 1024 + 1 * (x 0).val = (x 0).val; omega
  | ⟨1, _⟩ => show win0_1.index t (1 : Fin 2) * 1024 + 1 * (x 1).val = (x 1).val; omega

/-- The bias's block at every point is the whole array. -/
theorem iblk0_2_apply (c : Dev nD) (t : Fin cfg0.N) (x : S1024.Idx) :
    (iblk0 V c 2 t : Vec Ideal S1024 .f32) x = (V c main_v6 : S1024.Idx → Elt Ideal .f32) x := by
  obtain ⟨-, -, -, -, e0, -, -⟩ := idx_facts0 t
  unfold iblk0
  rw [View.read_apply]
  show V c main_v6 _ = V c main_v6 _
  congr 1
  funext a
  apply Fin.ext
  match a with
  | ⟨0, _⟩ => show win0_2.index t (0 : Fin 1) * 1024 + 1 * (x 0).val = (x 0).val; omega

/-- What point `t` writes back is block `t` of the dense layer of the three arrays as the region finds them. -/
theorem flushed0_eq (c : Dev nD) (t : Fin cfg0.N) :
    (dat0 (F := Ideal) V c).flushed 3 t
      = ((cfg0.win 3).blk t).view.read (Elt Ideal) (dense0 (V c main_v9) (V c main_v1) (V c main_v6)) := by
  show (cfg0.win 3).cut (grid0.coords t) ((dat0 V c).after 3 t) = _
  rw [after0_3]
  obtain ⟨-, -, -, -, -, e0, e1⟩ := idx_facts0 t
  funext y
  rw [View.read_apply]
  refine block0_eq (V c main_v9) (V c main_v1) (V c main_v6) (iblk0 V c 0 t) (iblk0 V c 1 t) (iblk0 V c 2 t) _ _ (fun d => ?_) (fun d => ?_) ?_
  · refine iblk0_0_apply V c t _ _ ?_ ?_
    · show win0_3.index t (0 : Fin 2) * 256 + 1 * (y 0).val = t.val * 256 + (y 0).val; omega
    · rfl
  · refine (iblk0_1_apply V c t _).trans (congrArg (V c main_v1 : S1024x1024.Idx → Elt Ideal .bf16) (funext fun a => Fin.ext ?_))
    match a with
    | ⟨0, _⟩ => show (y 1).val = win0_3.index t (1 : Fin 2) * 1024 + 1 * (y 1).val; omega
    | ⟨1, _⟩ => rfl
  · refine (iblk0_2_apply V c t _).trans (congrArg (V c main_v6 : S1024.Idx → Elt Ideal .f32) (funext fun a => Fin.ext ?_))
    match a with
    | ⟨0, _⟩ => show (y 1).val = win0_3.index t (1 : Fin 2) * 1024 + 1 * (y 1).val; omega

/-- An index of the output array is in point `t`'s block iff each coordinate is in the block's range on its axis. -/
theorem mem_blk0 (t : Fin cfg0.N) (i : S2048x1024.Idx) :
    i ∈ ((cfg0.win 3).blk t).view.set ↔ ∀ a : Fin 2, win0_3.index t a * S256x1024.size a ≤ (i a).val ∧ (i a).val < win0_3.index t a * S256x1024.size a + S256x1024.size a := by
  show i ∈ ((View.whole main_v10).slice (win0_3.rect t)).set ↔ _
  rw [View.set_slice_whole, Rect.mem_set_unit]
  exact Iff.rfl

/-- The blocks tile the output array: row `r` is in the block of point `r / 256`. -/
theorem cover0 (i : S2048x1024.Idx) :
    ∃ t : Fin cfg0.N, (cfg0.win 3).flush t = true ∧ i ∈ ((cfg0.win 3).blk t).view.set := by
  have hN : cfg0.N = 8 := N_0
  have hi0 : (i 0).val < 2048 := (i 0).isLt
  have hi1 : (i 1).val < 1024 := (i 1).isLt
  refine ⟨⟨(i 0).val / 256, by rw [hN]; omega⟩, flush0_3 _, ?_⟩
  rw [mem_blk0]
  obtain ⟨-, -, -, -, -, e0, e1⟩ := idx_facts0 ⟨(i 0).val / 256, by rw [hN]; omega⟩
  intro a
  match a with
  | ⟨0, _⟩ =>
    show win0_3.index _ (0 : Fin 2) * 256 ≤ (i 0).val ∧ (i 0).val < win0_3.index _ (0 : Fin 2) * 256 + 256
    rw [e0]; show (i 0).val / 256 * 256 ≤ (i 0).val ∧ (i 0).val < (i 0).val / 256 * 256 + 256; omega
  | ⟨1, _⟩ =>
    show win0_3.index _ (1 : Fin 2) * 1024 ≤ (i 1).val ∧ (i 1).val < win0_3.index _ (1 : Fin 2) * 1024 + 1024
    rw [e1]; omega

/-- The output array after the region: the dense layer of the three input arrays as the region finds them. -/
theorem arrAt0 (c : Dev nD) :
    (dat0 (F := Ideal) V c).arrAt 3 cfg0.N
      = dense0 (V c main_v9) (V c main_v1) (V c main_v6) :=
  (dat0 (F := Ideal) V c).arrAt_eq_of_cover 3 (dense0 (V c main_v9) (V c main_v1) (V c main_v6)) (fun t _ => flushed0_eq V c t) cover0

end

end Cert.KernelIdeal.Hand

end
-- ==== Proof.KI.V1.lean ====
/-
  Region 1 of the program read as a value at the extended reals: the body's payload at a block index is the row of the
  activation block against the row of the weights, summed over the shared axis, plus the bias entry; each grid point writes
  back its block of rows; the blocks tile the output array, which therefore ends as one function of the three input arrays.
-/
import proofs.«137196_j32049045963121_2_alg».proof.Proof.KI.R1
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

/-- The left operand's index at output index `i` and contraction index `q`: row `i 0`, column `q`. -/
theorem lhs1_0 (i : S256x1024.Idx) (q : dot_S256x1024_S1024x1024_S256x1024_1_1_0_0_n_n.contr.Idx) :
    (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
theorem lhs1_1 (i : S256x1024.Idx) (q : dot_S256x1024_S1024x1024_S256x1024_1_1_0_0_n_n.contr.Idx) :
    (dot_S256x1024_S1024x1024_S256x1024_1_1_0_0_n_n.lhsIdx i q 1).val = (q ⟨0, by decide⟩).val :=
  dot_S256x1024_S1024x1024_S256x1024_1_1_0_0_n_n.lhsIdx_val_of_single rfl i q
/-- The right operand's: row `i 1`, column `q` (both operands are contracted on their second axis). -/
theorem rhs1_0 (i : S256x1024.Idx) (q : dot_S256x1024_S1024x1024_S256x1024_1_1_0_0_n_n.contr.Idx) :
    (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl
theorem rhs1_1 (i : S256x1024.Idx) (q : dot_S256x1024_S1024x1024_S256x1024_1_1_0_0_n_n.contr.Idx) :
    (dot_S256x1024_S1024x1024_S256x1024_1_1_0_0_n_n.rhsIdx i q 1).val = (q ⟨0, by decide⟩).val :=
  dot_S256x1024_S1024x1024_S256x1024_1_1_0_0_n_n.rhsIdx_val_of_single rfl i q

/-- The product into the zero accumulator, at row `p`, column `j`: the sum over the shared axis. -/
theorem matmul1_apply (x0 : FVec Ideal S256x1024 .bf16) (x1 : FVec Ideal S1024x1024 .bf16) (p : Fin 256) (j : Fin 1024) :
    matmul (F := Ideal) (φ₁ := .bf16) (φ₂ := .bf16) dot_S256x1024_S1024x1024_S256x1024_1_1_0_0_n_n none x0 x1 (constant (F := Ideal) S256x1024 .f32 0x00000000#32) (ix2 p j)
      = ∑ d : Fin 1024, x0 (ix2 p d) * x1 (ix2 j d) := by
  refine (Ideal.matmul_constant_zero_apply dot_S256x1024_S1024x1024_S256x1024_1_1_0_0_n_n none x0 x1 (ix2 p j)).trans ?_
  rw [← Equiv.sum_comp (contrEquiv1 dot_S256x1024_S1024x1024_S256x1024_1_1_0_0_n_n 1024 rfl rfl).symm]
  refine Finset.sum_congr rfl fun k _ => ?_
  have hk := contrEquiv1_symm_val dot_S256x1024_S1024x1024_S256x1024_1_1_0_0_n_n 1024 rfl rfl k
  have el : dot_S256x1024_S1024x1024_S256x1024_1_1_0_0_n_n.lhsIdx (ix2 p j) ((contrEquiv1 dot_S256x1024_S1024x1024_S256x1024_1_1_0_0_n_n 1024 rfl rfl).symm k) = ix2 p k := funext fun a => Fin.ext (by
    match a with
    | ⟨0, _⟩ => exact lhs1_0 _ _
    | ⟨1, _⟩ => exact (lhs1_1 _ _).trans hk)
  have er : dot_S256x1024_S1024x1024_S256x1024_1_1_0_0_n_n.rhsIdx (ix2 p j) ((contrEquiv1 dot_S256x1024_S1024x1024_S256x1024_1_1_0_0_n_n 1024 rfl rfl).symm k) = ix2 j k := funext fun a => Fin.ext (by
    match a with
    | ⟨0, _⟩ => exact rhs1_0 _ _
    | ⟨1, _⟩ => exact (rhs1_1 _ _).trans hk)
  rw [el, er]

/-- The body's payload at row `p`, column `j` of the block: the dot product of row `p` of the activations with row `j`
    of the weights, plus entry `j` of the bias. -/
theorem pay1_apply (x0 : Vec Ideal S256x1024 .bf16) (x1 : Vec Ideal S1024x1024 .bf16) (x2 : Vec Ideal S1024 .f32)
    (p : Fin 256) (j : Fin 1024) :
    k1_pay1 (F := Ideal) x0 x1 x2 (ix2 p j) = (∑ d : Fin 1024, x0 (ix2 p d) * x1 (ix2 j d)) + x2 (ix1 j) := by
  unfold k1_pay1
  simp only [shapeCast_self]
  show matmul (F := Ideal) (φ₁ := .bf16) (φ₂ := .bf16) dot_S256x1024_S1024x1024_S256x1024_1_1_0_0_n_n none x0 x1 (constant (F := Ideal) S256x1024 .f32 0x00000000#32) (ix2 p j)
      + broadcastTo S256x1024 (shapeCast S1x1024 x2 shapeCasts_S1024_S1x1024) broadcasts_S1x1024_S256x1024 (ix2 p j) = _
  rw [matmul1_apply, broadcastTo_1b_ab_apply, shapeCast_a_1a_apply]

/-- The dense layer of an activation array, a weight array and a bias, entry by entry. -/
abbrev dense1 (X : S2048x1024.Idx → EReal) (W : S1024x1024.Idx → EReal) (b : S1024.Idx → EReal) : S2048x1024.Idx → EReal :=
  fun i => (∑ d : Fin 1024, X (ix2 (i 0) d) * W (ix2 (i 1) d)) + b (ix1 (i 1))

theorem zero2_1 : (![0, 0] : Fin 2 → Nat) = fun _ => 0 := funext fun a => by fin_cases a <;> rfl
theorem zero1_1 : (![0] : Fin 1 → Nat) = fun _ => 0 := funext fun a => by fin_cases a <;> rfl

/-- The body's one store through the whole block leaves its payload of the loaded blocks. -/
theorem out1_3_eq (x0 : Vec Ideal S256x1024 .bf16) (x1 : Vec Ideal S1024x1024 .bf16) (x2 : Vec Ideal S1024 .f32) :
    out1_3 (F := Ideal) x0 x1 x2 = k1_pay1 (F := Ideal) x0 x1 x2 := by
  unfold out1_3
  rw [View.canon_unit_zero zero2_1, View.ld_unit_zero (S := S256x1024) zero2_1, View.ld_unit_zero (S := S1024x1024) zero2_1,
    View.ld_unit_zero (S := S1024) zero1_1]

/-- A block's entry is the dense layer's at the array index `k`, when the three loaded blocks are the arrays' rows there. -/
theorem block1_eq (X : S2048x1024.Idx → EReal) (W : S1024x1024.Idx → EReal) (b : S1024.Idx → EReal)
    (x0 : Vec Ideal S256x1024 .bf16) (x1 : Vec Ideal S1024x1024 .bf16) (x2 : Vec Ideal S1024 .f32)
    (y : S256x1024.Idx) (k : S2048x1024.Idx)
    (h0 : ∀ d : Fin 1024, x0 (ix2 (y 0) d) = X (ix2 (k 0) d))
    (h1 : ∀ d : Fin 1024, x1 (ix2 (y 1) d) = W (ix2 (k 1) d))
    (h2 : x2 (ix1 (y 1)) = b (ix1 (k 1))) :
    out1_3 (F := Ideal) x0 x1 x2 y = dense1 X W b k := by
  rw [out1_3_eq]
  refine (congrArg (k1_pay1 (F := Ideal) x0 x1 x2) (eq_ix2 y)).trans ?_
  refine (pay1_apply x0 x1 x2 (y 0) (y 1)).trans ?_
  show _ = (∑ d : Fin 1024, X (ix2 (k 0) d) * W (ix2 (k 1) d)) + b (ix1 (k 1))
  rw [h2]
  refine congrArg (· + b (ix1 (k 1))) (Finset.sum_congr rfl fun d _ => ?_)
  rw [h0 d, h1 d]

/-- The index maps at every grid point: the activations' and the output's block index is the point on the row
    axis and zero on the column axis; the weights and the bias stay at block zero. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

section
variable (V : (c : Dev nD) → (b : Ref sig .tc) → Buf (Elt Ideal) ((c : Thread nD τ).loc b))

/-- The activations' block at point `t` is rows `256·t …` of the array. -/
theorem iblk1_0_apply (c : Dev nD) (t : Fin cfg1.N) (x : S256x1024.Idx) (k : S2048x1024.Idx)
    (hk0 : (k 0).val = t.val * 256 + (x 0).val) (hk1 : (k 1).val = (x 1).val) :
    (iblk1 V c 0 t : Vec Ideal S256x1024 .bf16) x = (V c main_v11 : S2048x1024.Idx → Elt Ideal .bf16) k := by
  obtain ⟨e0, e1, -, -, -, -, -⟩ := idx_facts1 t
  unfold iblk1
  rw [View.read_apply]
  show V c main_v11 _ = V c main_v11 _
  congr 1
  funext a
  apply Fin.ext
  match a with
  | ⟨0, _⟩ => show win1_0.index t (0 : Fin 2) * 256 + 1 * (x 0).val = (k 0).val; omega
  | ⟨1, _⟩ => show win1_0.index t (1 : Fin 2) * 1024 + 1 * (x 1).val = (k 1).val; omega

/-- The weights' block at every point is the whole array. -/
theorem iblk1_1_apply (c : Dev nD) (t : Fin cfg1.N) (x : S1024x1024.Idx) :
    (iblk1 V c 1 t : Vec Ideal S1024x1024 .bf16) x = (V c main_v3 : S1024x1024.Idx → Elt Ideal .bf16) x := by
  obtain ⟨-, -, e0, e1, -, -, -⟩ := idx_facts1 t
  unfold iblk1
  rw [View.read_apply]
  show V c main_v3 _ = V c main_v3 _
  congr 1
  funext a
  apply Fin.ext
  match a with
  | ⟨0, _⟩ => show win1_1.index t (0 : Fin 2) * 1024 + 1 * (x 0).val = (x 0).val; omega
  | ⟨1, _⟩ => show win1_1.index t (1 : Fin 2) * 1024 + 1 * (x 1).val = (x 1).val; omega

/-- The bias's block at every point is the whole array. -/
theorem iblk1_2_apply (c : Dev nD) (t : Fin cfg1.N) (x : S1024.Idx) :
    (iblk1 V c 2 t : Vec Ideal S1024 .f32) x = (V c main_v7 : S1024.Idx → Elt Ideal .f32) x := by
  obtain ⟨-, -, -, -, e0, -, -⟩ := idx_facts1 t
  unfold iblk1
  rw [View.read_apply]
  show V c main_v7 _ = V c main_v7 _
  congr 1
  funext a
  apply Fin.ext
  match a with
  | ⟨0, _⟩ => show win1_2.index t (0 : Fin 1) * 1024 + 1 * (x 0).val = (x 0).val; omega

/-- What point `t` writes back is block `t` of the dense layer of the three arrays as the region finds them. -/
theorem flushed1_eq (c : Dev nD) (t : Fin cfg1.N) :
    (dat1 (F := Ideal) V c).flushed 3 t
      = ((cfg1.win 3).blk t).view.read (Elt Ideal) (dense1 (V c main_v11) (V c main_v3) (V c main_v7)) := by
  show (cfg1.win 3).cut (grid1.coords t) ((dat1 V c).after 3 t) = _
  rw [after1_3]
  obtain ⟨-, -, -, -, -, e0, e1⟩ := idx_facts1 t
  funext y
  rw [View.read_apply]
  refine block1_eq (V c main_v11) (V c main_v3) (V c main_v7) (iblk1 V c 0 t) (iblk1 V c 1 t) (iblk1 V c 2 t) _ _ (fun d => ?_) (fun d => ?_) ?_
  · refine iblk1_0_apply V c t _ _ ?_ ?_
    · show win1_3.index t (0 : Fin 2) * 256 + 1 * (y 0).val = t.val * 256 + (y 0).val; omega
    · rfl
  · refine (iblk1_1_apply V c t _).trans (congrArg (V c main_v3 : S1024x1024.Idx → Elt Ideal .bf16) (funext fun a => Fin.ext ?_))
    match a with
    | ⟨0, _⟩ => show (y 1).val = win1_3.index t (1 : Fin 2) * 1024 + 1 * (y 1).val; omega
    | ⟨1, _⟩ => rfl
  · refine (iblk1_2_apply V c t _).trans (congrArg (V c main_v7 : S1024.Idx → Elt Ideal .f32) (funext fun a => Fin.ext ?_))
    match a with
    | ⟨0, _⟩ => show (y 1).val = win1_3.index t (1 : Fin 2) * 1024 + 1 * (y 1).val; omega

/-- An index of the output array is in point `t`'s block iff each coordinate is in the block's range on its axis. -/
theorem mem_blk1 (t : Fin cfg1.N) (i : S2048x1024.Idx) :
    i ∈ ((cfg1.win 3).blk t).view.set ↔ ∀ a : Fin 2, win1_3.index t a * S256x1024.size a ≤ (i a).val ∧ (i a).val < win1_3.index t a * S256x1024.size a + S256x1024.size a := by
  show i ∈ ((View.whole main_v12).slice (win1_3.rect t)).set ↔ _
  rw [View.set_slice_whole, Rect.mem_set_unit]
  exact Iff.rfl

/-- The blocks tile the output array: row `r` is in the block of point `r / 256`. -/
theorem cover1 (i : S2048x1024.Idx) :
    ∃ t : Fin cfg1.N, (cfg1.win 3).flush t = true ∧ i ∈ ((cfg1.win 3).blk t).view.set := by
  have hN : cfg1.N = 8 := N_1
  have hi0 : (i 0).val < 2048 := (i 0).isLt
  have hi1 : (i 1).val < 1024 := (i 1).isLt
  refine ⟨⟨(i 0).val / 256, by rw [hN]; omega⟩, flush1_3 _, ?_⟩
  rw [mem_blk1]
  obtain ⟨-, -, -, -, -, e0, e1⟩ := idx_facts1 ⟨(i 0).val / 256, by rw [hN]; omega⟩
  intro a
  match a with
  | ⟨0, _⟩ =>
    show win1_3.index _ (0 : Fin 2) * 256 ≤ (i 0).val ∧ (i 0).val < win1_3.index _ (0 : Fin 2) * 256 + 256
    rw [e0]; show (i 0).val / 256 * 256 ≤ (i 0).val ∧ (i 0).val < (i 0).val / 256 * 256 + 256; omega
  | ⟨1, _⟩ =>
    show win1_3.index _ (1 : Fin 2) * 1024 ≤ (i 1).val ∧ (i 1).val < win1_3.index _ (1 : Fin 2) * 1024 + 1024
    rw [e1]; omega

/-- The output array after the region: the dense layer of the three input arrays as the region finds them. -/
theorem arrAt1 (c : Dev nD) :
    (dat1 (F := Ideal) V c).arrAt 3 cfg1.N
      = dense1 (V c main_v11) (V c main_v3) (V c main_v7) :=
  (dat1 (F := Ideal) V c).arrAt_eq_of_cover 3 (dense1 (V c main_v11) (V c main_v3) (V c main_v7)) (fun t _ => flushed1_eq V c t) cover1

end

end Cert.KernelIdeal.Hand

end
-- ==== Proof.KI.V2.lean ====
/-
  Region 2 of the program read as a value at the extended reals: the body's payload at a block index is the row of the
  activation block against the row of the weights, summed over the shared axis, plus the bias entry; each grid point writes
  back its block of rows; the blocks tile the output array, which therefore ends as one function of the three input arrays.
-/
import proofs.«137196_j32049045963121_2_alg».proof.Proof.KI.R2
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

/-- The left operand's index at output index `i` and contraction index `q`: row `i 0`, column `q`. -/
theorem lhs2_0 (i : S256x1024.Idx) (q : dot_S256x1024_S1024x1024_S256x1024_1_1_0_0_n_n.contr.Idx) :
    (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
theorem lhs2_1 (i : S256x1024.Idx) (q : dot_S256x1024_S1024x1024_S256x1024_1_1_0_0_n_n.contr.Idx) :
    (dot_S256x1024_S1024x1024_S256x1024_1_1_0_0_n_n.lhsIdx i q 1).val = (q ⟨0, by decide⟩).val :=
  dot_S256x1024_S1024x1024_S256x1024_1_1_0_0_n_n.lhsIdx_val_of_single rfl i q
/-- The right operand's: row `i 1`, column `q` (both operands are contracted on their second axis). -/
theorem rhs2_0 (i : S256x1024.Idx) (q : dot_S256x1024_S1024x1024_S256x1024_1_1_0_0_n_n.contr.Idx) :
    (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl
theorem rhs2_1 (i : S256x1024.Idx) (q : dot_S256x1024_S1024x1024_S256x1024_1_1_0_0_n_n.contr.Idx) :
    (dot_S256x1024_S1024x1024_S256x1024_1_1_0_0_n_n.rhsIdx i q 1).val = (q ⟨0, by decide⟩).val :=
  dot_S256x1024_S1024x1024_S256x1024_1_1_0_0_n_n.rhsIdx_val_of_single rfl i q

/-- The product into the zero accumulator, at row `p`, column `j`: the sum over the shared axis. -/
theorem matmul2_apply (x0 : FVec Ideal S256x1024 .bf16) (x1 : FVec Ideal S1024x1024 .bf16) (p : Fin 256) (j : Fin 1024) :
    matmul (F := Ideal) (φ₁ := .bf16) (φ₂ := .bf16) dot_S256x1024_S1024x1024_S256x1024_1_1_0_0_n_n none x0 x1 (constant (F := Ideal) S256x1024 .f32 0x00000000#32) (ix2 p j)
      = ∑ d : Fin 1024, x0 (ix2 p d) * x1 (ix2 j d) := by
  refine (Ideal.matmul_constant_zero_apply dot_S256x1024_S1024x1024_S256x1024_1_1_0_0_n_n none x0 x1 (ix2 p j)).trans ?_
  rw [← Equiv.sum_comp (contrEquiv1 dot_S256x1024_S1024x1024_S256x1024_1_1_0_0_n_n 1024 rfl rfl).symm]
  refine Finset.sum_congr rfl fun k _ => ?_
  have hk := contrEquiv1_symm_val dot_S256x1024_S1024x1024_S256x1024_1_1_0_0_n_n 1024 rfl rfl k
  have el : dot_S256x1024_S1024x1024_S256x1024_1_1_0_0_n_n.lhsIdx (ix2 p j) ((contrEquiv1 dot_S256x1024_S1024x1024_S256x1024_1_1_0_0_n_n 1024 rfl rfl).symm k) = ix2 p k := funext fun a => Fin.ext (by
    match a with
    | ⟨0, _⟩ => exact lhs2_0 _ _
    | ⟨1, _⟩ => exact (lhs2_1 _ _).trans hk)
  have er : dot_S256x1024_S1024x1024_S256x1024_1_1_0_0_n_n.rhsIdx (ix2 p j) ((contrEquiv1 dot_S256x1024_S1024x1024_S256x1024_1_1_0_0_n_n 1024 rfl rfl).symm k) = ix2 j k := funext fun a => Fin.ext (by
    match a with
    | ⟨0, _⟩ => exact rhs2_0 _ _
    | ⟨1, _⟩ => exact (rhs2_1 _ _).trans hk)
  rw [el, er]

/-- The body's payload at row `p`, column `j` of the block: the dot product of row `p` of the activations with row `j`
    of the weights, plus entry `j` of the bias. -/
theorem pay2_apply (x0 : Vec Ideal S256x1024 .bf16) (x1 : Vec Ideal S1024x1024 .bf16) (x2 : Vec Ideal S1024 .f32)
    (p : Fin 256) (j : Fin 1024) :
    k2_pay1 (F := Ideal) x0 x1 x2 (ix2 p j) = (∑ d : Fin 1024, x0 (ix2 p d) * x1 (ix2 j d)) + x2 (ix1 j) := by
  unfold k2_pay1
  simp only [shapeCast_self]
  show matmul (F := Ideal) (φ₁ := .bf16) (φ₂ := .bf16) dot_S256x1024_S1024x1024_S256x1024_1_1_0_0_n_n none x0 x1 (constant (F := Ideal) S256x1024 .f32 0x00000000#32) (ix2 p j)
      + broadcastTo S256x1024 (shapeCast S1x1024 x2 shapeCasts_S1024_S1x1024) broadcasts_S1x1024_S256x1024 (ix2 p j) = _
  rw [matmul2_apply, broadcastTo_1b_ab_apply, shapeCast_a_1a_apply]

/-- The dense layer of an activation array, a weight array and a bias, entry by entry. -/
abbrev dense2 (X : S2048x1024.Idx → EReal) (W : S1024x1024.Idx → EReal) (b : S1024.Idx → EReal) : S2048x1024.Idx → EReal :=
  fun i => (∑ d : Fin 1024, X (ix2 (i 0) d) * W (ix2 (i 1) d)) + b (ix1 (i 1))

theorem zero2_2 : (![0, 0] : Fin 2 → Nat) = fun _ => 0 := funext fun a => by fin_cases a <;> rfl
theorem zero1_2 : (![0] : Fin 1 → Nat) = fun _ => 0 := funext fun a => by fin_cases a <;> rfl

/-- The body's one store through the whole block leaves its payload of the loaded blocks. -/
theorem out2_3_eq (x0 : Vec Ideal S256x1024 .bf16) (x1 : Vec Ideal S1024x1024 .bf16) (x2 : Vec Ideal S1024 .f32) :
    out2_3 (F := Ideal) x0 x1 x2 = k2_pay1 (F := Ideal) x0 x1 x2 := by
  unfold out2_3
  rw [View.canon_unit_zero zero2_2, View.ld_unit_zero (S := S256x1024) zero2_2, View.ld_unit_zero (S := S1024x1024) zero2_2,
    View.ld_unit_zero (S := S1024) zero1_2]

/-- A block's entry is the dense layer's at the array index `k`, when the three loaded blocks are the arrays' rows there. -/
theorem block2_eq (X : S2048x1024.Idx → EReal) (W : S1024x1024.Idx → EReal) (b : S1024.Idx → EReal)
    (x0 : Vec Ideal S256x1024 .bf16) (x1 : Vec Ideal S1024x1024 .bf16) (x2 : Vec Ideal S1024 .f32)
    (y : S256x1024.Idx) (k : S2048x1024.Idx)
    (h0 : ∀ d : Fin 1024, x0 (ix2 (y 0) d) = X (ix2 (k 0) d))
    (h1 : ∀ d : Fin 1024, x1 (ix2 (y 1) d) = W (ix2 (k 1) d))
    (h2 : x2 (ix1 (y 1)) = b (ix1 (k 1))) :
    out2_3 (F := Ideal) x0 x1 x2 y = dense2 X W b k := by
  rw [out2_3_eq]
  refine (congrArg (k2_pay1 (F := Ideal) x0 x1 x2) (eq_ix2 y)).trans ?_
  refine (pay2_apply x0 x1 x2 (y 0) (y 1)).trans ?_
  show _ = (∑ d : Fin 1024, X (ix2 (k 0) d) * W (ix2 (k 1) d)) + b (ix1 (k 1))
  rw [h2]
  refine congrArg (· + b (ix1 (k 1))) (Finset.sum_congr rfl fun d _ => ?_)
  rw [h0 d, h1 d]

/-- The index maps at every grid point: the activations' and the output's block index is the point on the row
    axis and zero on the column axis; the weights and the bias stay at block zero. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

section
variable (V : (c : Dev nD) → (b : Ref sig .tc) → Buf (Elt Ideal) ((c : Thread nD τ).loc b))

/-- The activations' block at point `t` is rows `256·t …` of the array. -/
theorem iblk2_0_apply (c : Dev nD) (t : Fin cfg2.N) (x : S256x1024.Idx) (k : S2048x1024.Idx)
    (hk0 : (k 0).val = t.val * 256 + (x 0).val) (hk1 : (k 1).val = (x 1).val) :
    (iblk2 V c 0 t : Vec Ideal S256x1024 .bf16) x = (V c main_v13 : S2048x1024.Idx → Elt Ideal .bf16) k := by
  obtain ⟨e0, e1, -, -, -, -, -⟩ := idx_facts2 t
  unfold iblk2
  rw [View.read_apply]
  show V c main_v13 _ = V c main_v13 _
  congr 1
  funext a
  apply Fin.ext
  match a with
  | ⟨0, _⟩ => show win2_0.index t (0 : Fin 2) * 256 + 1 * (x 0).val = (k 0).val; omega
  | ⟨1, _⟩ => show win2_0.index t (1 : Fin 2) * 1024 + 1 * (x 1).val = (k 1).val; omega

/-- The weights' block at every point is the whole array. -/
theorem iblk2_1_apply (c : Dev nD) (t : Fin cfg2.N) (x : S1024x1024.Idx) :
    (iblk2 V c 1 t : Vec Ideal S1024x1024 .bf16) x = (V c main_v5 : S1024x1024.Idx → Elt Ideal .bf16) x := by
  obtain ⟨-, -, e0, e1, -, -, -⟩ := idx_facts2 t
  unfold iblk2
  rw [View.read_apply]
  show V c main_v5 _ = V c main_v5 _
  congr 1
  funext a
  apply Fin.ext
  match a with
  | ⟨0, _⟩ => show win2_1.index t (0 : Fin 2) * 1024 + 1 * (x 0).val = (x 0).val; omega
  | ⟨1, _⟩ => show win2_1.index t (1 : Fin 2) * 1024 + 1 * (x 1).val = (x 1).val; omega

/-- The bias's block at every point is the whole array. -/
theorem iblk2_2_apply (c : Dev nD) (t : Fin cfg2.N) (x : S1024.Idx) :
    (iblk2 V c 2 t : Vec Ideal S1024 .f32) x = (V c main_v8 : S1024.Idx → Elt Ideal .f32) x := by
  obtain ⟨-, -, -, -, e0, -, -⟩ := idx_facts2 t
  unfold iblk2
  rw [View.read_apply]
  show V c main_v8 _ = V c main_v8 _
  congr 1
  funext a
  apply Fin.ext
  match a with
  | ⟨0, _⟩ => show win2_2.index t (0 : Fin 1) * 1024 + 1 * (x 0).val = (x 0).val; omega

/-- What point `t` writes back is block `t` of the dense layer of the three arrays as the region finds them. -/
theorem flushed2_eq (c : Dev nD) (t : Fin cfg2.N) :
    (dat2 (F := Ideal) V c).flushed 3 t
      = ((cfg2.win 3).blk t).view.read (Elt Ideal) (dense2 (V c main_v13) (V c main_v5) (V c main_v8)) := by
  show (cfg2.win 3).cut (grid2.coords t) ((dat2 V c).after 3 t) = _
  rw [after2_3]
  obtain ⟨-, -, -, -, -, e0, e1⟩ := idx_facts2 t
  funext y
  rw [View.read_apply]
  refine block2_eq (V c main_v13) (V c main_v5) (V c main_v8) (iblk2 V c 0 t) (iblk2 V c 1 t) (iblk2 V c 2 t) _ _ (fun d => ?_) (fun d => ?_) ?_
  · refine iblk2_0_apply V c t _ _ ?_ ?_
    · show win2_3.index t (0 : Fin 2) * 256 + 1 * (y 0).val = t.val * 256 + (y 0).val; omega
    · rfl
  · refine (iblk2_1_apply V c t _).trans (congrArg (V c main_v5 : S1024x1024.Idx → Elt Ideal .bf16) (funext fun a => Fin.ext ?_))
    match a with
    | ⟨0, _⟩ => show (y 1).val = win2_3.index t (1 : Fin 2) * 1024 + 1 * (y 1).val; omega
    | ⟨1, _⟩ => rfl
  · refine (iblk2_2_apply V c t _).trans (congrArg (V c main_v8 : S1024.Idx → Elt Ideal .f32) (funext fun a => Fin.ext ?_))
    match a with
    | ⟨0, _⟩ => show (y 1).val = win2_3.index t (1 : Fin 2) * 1024 + 1 * (y 1).val; omega

/-- An index of the output array is in point `t`'s block iff each coordinate is in the block's range on its axis. -/
theorem mem_blk2 (t : Fin cfg2.N) (i : S2048x1024.Idx) :
    i ∈ ((cfg2.win 3).blk t).view.set ↔ ∀ a : Fin 2, win2_3.index t a * S256x1024.size a ≤ (i a).val ∧ (i a).val < win2_3.index t a * S256x1024.size a + S256x1024.size a := by
  show i ∈ ((View.whole main_v14).slice (win2_3.rect t)).set ↔ _
  rw [View.set_slice_whole, Rect.mem_set_unit]
  exact Iff.rfl

/-- The blocks tile the output array: row `r` is in the block of point `r / 256`. -/
theorem cover2 (i : S2048x1024.Idx) :
    ∃ t : Fin cfg2.N, (cfg2.win 3).flush t = true ∧ i ∈ ((cfg2.win 3).blk t).view.set := by
  have hN : cfg2.N = 8 := N_2
  have hi0 : (i 0).val < 2048 := (i 0).isLt
  have hi1 : (i 1).val < 1024 := (i 1).isLt
  refine ⟨⟨(i 0).val / 256, by rw [hN]; omega⟩, flush2_3 _, ?_⟩
  rw [mem_blk2]
  obtain ⟨-, -, -, -, -, e0, e1⟩ := idx_facts2 ⟨(i 0).val / 256, by rw [hN]; omega⟩
  intro a
  match a with
  | ⟨0, _⟩ =>
    show win2_3.index _ (0 : Fin 2) * 256 ≤ (i 0).val ∧ (i 0).val < win2_3.index _ (0 : Fin 2) * 256 + 256
    rw [e0]; show (i 0).val / 256 * 256 ≤ (i 0).val ∧ (i 0).val < (i 0).val / 256 * 256 + 256; omega
  | ⟨1, _⟩ =>
    show win2_3.index _ (1 : Fin 2) * 1024 ≤ (i 1).val ∧ (i 1).val < win2_3.index _ (1 : Fin 2) * 1024 + 1024
    rw [e1]; omega

/-- The output array after the region: the dense layer of the three input arrays as the region finds them. -/
theorem arrAt2 (c : Dev nD) :
    (dat2 (F := Ideal) V c).arrAt 3 cfg2.N
      = dense2 (V c main_v13) (V c main_v5) (V c main_v8) :=
  (dat2 (F := Ideal) V c).arrAt_eq_of_cover 3 (dense2 (V c main_v13) (V c main_v5) (V c main_v8)) (fun t _ => flushed2_eq V c t) cover2

end

end Cert.KernelIdeal.Hand

end
-- ==== Proof.Spec.lean ====
/-
  THE SPECIFICATION. Multi-head causal attention whose softmax is a LOG-softmax taken over the QUERY axis (each key
  column normalised on its own), followed by a dense output layer, as two formulas over the extended reals:

  * `kernelOut`: what the kernel computes. Per head the key axis is cut into two tiles of 1024 columns; for a tile the
    accumulator receives  Σ_t scaled[s,t]·v[t,e]  −  Σ_t (max[t] + lse[t])·v[t,e]  (the log-softmax's shift pulled out of
    the product as a rank-one correction), the scores scaled by the word 1/8;
  * `refOut`: what the reference computes:  Σ_t ((scaled[s,t] − max[t]) − lse[t])·v[t,e]  over all 2048 columns at once,
    the scores divided by the word 8.

  Everything is stated over plain coordinates (`Fin`), never over a program's index types, so that the algebra joining
  the two formulas mentions no program.
-/
import Idealize.ShloMosaic.PureOps.Ideal
import Idealize.ShloMosaic.Lib.ValueIdx

noncomputable section

open scoped BigOperators

namespace Cert.Spec

open Idealize.ShloMosaic Idealize.ShloMosaic.ValueIdx

/-- The f32 word of 1/8 (the kernel multiplies by it) and of 8 (the reference divides by it), as extended reals. -/
def eighthW : EReal := Ideal.ofBits .f32 0x3E000000#32
def eightW : EReal := Ideal.ofBits .f32 0x41000000#32

/-- One head's projection of the tokens: `proj X W b s k = Σ_d X[s,d]·W[k,d] + b[k]`. -/
def proj (X : Fin 2048 → Fin 1024 → EReal) (W : Fin 64 → Fin 1024 → EReal) (b : Fin 64 → EReal)
    (s : Fin 2048) (k : Fin 64) : EReal :=
  (∑ d : Fin 1024, X s d * W k d) + b k

/-- One head's raw scores with the strict upper triangle zeroed (query `s`, key `t`: kept when `t ≤ s`). -/
def masked (q k : Fin 2048 → Fin 64 → EReal) (s t : Fin 2048) : EReal :=
  if t.val ≤ s.val then ∑ j : Fin 64, q s j * k t j else 0

/-- Column `u` of key tile `ti`. -/
def col (ti : Fin 2) (u : Fin 1024) : Fin 2048 := ⟨1024 * ti.val + u.val, by have := ti.isLt; have := u.isLt; omega⟩

section OneHead

variable (q k v : Fin 2048 → Fin 64 → EReal)

/-! ### The kernel's formula -/

def kScaled (s t : Fin 2048) : EReal := masked q k s t * eighthW
/-- A key column's maximum over the queries (a fold of `max` from −∞). -/
def kMax (t : Fin 2048) : EReal := (Finset.univ : Finset (Fin 2048)).fold max ⊥ (fun s => kScaled q k s t)
def kLse (t : Fin 2048) : EReal := Ideal.log (∑ s : Fin 2048, Ideal.exp (kScaled q k s t - kMax q k t))
/-- One key tile's contribution to the accumulator. -/
def kTile (ti : Fin 2) (s : Fin 2048) (e : Fin 64) : EReal :=
  (∑ u : Fin 1024, kScaled q k s (col ti u) * v (col ti u) e)
    - (∑ u : Fin 1024, (kMax q k (col ti u) + kLse q k (col ti u)) * v (col ti u) e)
/-- The accumulator after the head's two tiles: zeroed, then the two contributions added in turn. -/
def kAttn (s : Fin 2048) (e : Fin 64) : EReal := (0 + kTile q k v 0 s e) + kTile q k v 1 s e

/-! ### The reference's formula -/

def rScaled (s t : Fin 2048) : EReal := Ideal.div (masked q k s t) eightW
def rMax (t : Fin 2048) : EReal := (Finset.univ : Finset (Fin 2048)).fold max ⊥ (fun s => rScaled q k s t)
def rShift (s t : Fin 2048) : EReal := rScaled q k s t - rMax q k t
def rLse (t : Fin 2048) : EReal := Ideal.log (∑ s : Fin 2048, Ideal.exp (rShift q k s t))
def rAttn (s : Fin 2048) (e : Fin 64) : EReal := ∑ t : Fin 2048, (rShift q k s t - rLse q k t) * v t e

end OneHead

/-- The output layer over the heads' results laid side by side: feature `x` of a token is head `x / 64`'s
    coordinate `x % 64`. -/
def outOf (attn : Fin 16 → Fin 2048 → Fin 64 → EReal) (WO : Fin 1024 → Fin 1024 → EReal) (bO : Fin 1024 → EReal)
    (s : Fin 2048) (j : Fin 1024) : EReal :=
  (∑ x : Fin 1024, attn ⟨x.val / 64, by have := x.isLt; omega⟩ s ⟨x.val % 64, Nat.mod_lt _ (by decide)⟩ * WO j x) + bO j

/-- The eleven argument arrays by coordinates. -/
structure Args where
  Q : Fin 2048 → Fin 1024 → EReal
  K : Fin 2048 → Fin 1024 → EReal
  V : Fin 2048 → Fin 1024 → EReal
  WQ : Fin 16 → Fin 64 → Fin 1024 → EReal
  bQ : Fin 16 → Fin 64 → EReal
  WK : Fin 16 → Fin 64 → Fin 1024 → EReal
  bK : Fin 16 → Fin 64 → EReal
  WV : Fin 16 → Fin 64 → Fin 1024 → EReal
  bV : Fin 16 → Fin 64 → EReal
  WO : Fin 1024 → Fin 1024 → EReal
  bO : Fin 1024 → EReal

/-- The argument arrays as the programs hold them (in the programs' argument order), by coordinates. -/
def mkArgs (x0 x1 x2 : (⟨2, ![2048, 1024]⟩ : Shape).Idx → EReal)
    (w3 : (⟨3, ![16, 64, 1024]⟩ : Shape).Idx → EReal) (b4 : (⟨2, ![16, 64]⟩ : Shape).Idx → EReal)
    (w5 : (⟨3, ![16, 64, 1024]⟩ : Shape).Idx → EReal) (b6 : (⟨2, ![16, 64]⟩ : Shape).Idx → EReal)
    (w7 : (⟨3, ![16, 64, 1024]⟩ : Shape).Idx → EReal) (b8 : (⟨2, ![16, 64]⟩ : Shape).Idx → EReal)
    (w9 : (⟨2, ![1024, 1024]⟩ : Shape).Idx → EReal) (b10 : (⟨1, ![1024]⟩ : Shape).Idx → EReal) : Args where
  Q s d := x0 (ix2 s d)
  K s d := x1 (ix2 s d)
  V s d := x2 (ix2 s d)
  WQ h k d := w3 (ix3 h k d)
  bQ h k := b4 (ix2 h k)
  WK h k d := w5 (ix3 h k d)
  bK h k := b6 (ix2 h k)
  WV h k d := w7 (ix3 h k d)
  bV h k := b8 (ix2 h k)
  WO j x := w9 (ix2 j x)
  bO j := b10 (ix1 j)

namespace Args

variable (a : Args)

def qh (h : Fin 16) : Fin 2048 → Fin 64 → EReal := proj a.Q (a.WQ h) (a.bQ h)
def kh (h : Fin 16) : Fin 2048 → Fin 64 → EReal := proj a.K (a.WK h) (a.bK h)
def vh (h : Fin 16) : Fin 2048 → Fin 64 → EReal := proj a.V (a.WV h) (a.bV h)

/-- Every entry of every argument array is a real number. -/
def Finite : Prop :=
  (∀ s d, ∃ r : ℝ, a.Q s d = r) ∧ (∀ s d, ∃ r : ℝ, a.K s d = r) ∧ (∀ s d, ∃ r : ℝ, a.V s d = r)
  ∧ (∀ h k d, ∃ r : ℝ, a.WQ h k d = r) ∧ (∀ h k, ∃ r : ℝ, a.bQ h k = r)
  ∧ (∀ h k d, ∃ r : ℝ, a.WK h k d = r) ∧ (∀ h k, ∃ r : ℝ, a.bK h k = r)
  ∧ (∀ h k d, ∃ r : ℝ, a.WV h k d = r) ∧ (∀ h k, ∃ r : ℝ, a.bV h k = r)
  ∧ (∀ j x, ∃ r : ℝ, a.WO j x = r) ∧ (∀ j, ∃ r : ℝ, a.bO j = r)

end Args

/-- What the kernel computes, and what the reference computes. -/
def kernelOut (a : Args) (s : Fin 2048) (j : Fin 1024) : EReal :=
  outOf (fun h => kAttn (a.qh h) (a.kh h) (a.vh h)) a.WO a.bO s j
def refOut (a : Args) (s : Fin 2048) (j : Fin 1024) : EReal :=
  outOf (fun h => rAttn (a.qh h) (a.kh h) (a.vh h)) a.WO a.bO s j

end Cert.Spec

end
-- ==== Proof.KI.V3a.lean ====
/-
  Region 3's found pieces as values, and the small facts its arithmetic is read with: what each half of a head leaves in
  the accumulator and in the output block; a matrix product into a zero accumulator as a plain sum over the contracted
  coordinate, for the kernel's three products; and the causal mask's comparison of two small naturals as 32-bit words.
-/
import proofs.«137196_j32049045963121_2_alg».proof.Proof.KI.R3
import proofs.«137196_j32049045963121_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)
open scoped BigOperators

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A head's first half leaves in the accumulator: zero plus the half's contribution. -/
theorem sout_A (c : Dev nD) (i : grid3.Coords) (arg2 : Memref sig .tc .vmem S1x2048x64 .bf16) (harg2 : arg2.IsWhole) (arg3 : Memref sig .tc .vmem S1x1024x64 .bf16) (harg3 : arg3.IsWhole)
    (arg4 : Memref sig .tc .vmem S1x1024x64 .bf16) (harg4 : arg4.IsWhole) (arg5 : Memref sig .tc .vmem S1x2048x64 .bf16) (harg5 : arg5.IsWhole)
    (arg6 : Memref sig .tc .vmem S2048x64 .f32) (harg6 : arg6.IsWhole) (hc0 : cond3_0 i) (hc1 : ¬cond3_1 i)
    (x0 : Vec F S1x2048x64 .bf16) (x1 : Vec F S1x1024x64 .bf16) (x2 : Vec F S1x1024x64 .bf16) :
    sout3_A_0 c i arg2 harg2 arg3 harg3 arg4 harg4 arg5 harg5 arg6 harg6 hc0 hc1 x0 x1 x2 = k3_pay1 (k3_pay3 (F := F)) (k3_pay4 i x0 x1 x2) := by
  unfold sout3_A_0
  rw [View.read_writes_eq_canon _ _ _ (scover3_A_0 c i arg2 harg2 arg3 harg3 arg4 harg4 arg5 harg5 arg6 harg6 hc0 hc1 x0 x1 x2)]
  unfold kernelRun3_A
  dsimp only
  sl_unfold_words
  rw [View.canon_cons_unit_zero (S := S2048x64) hz2, View.readCov_unit_zero (S := S2048x64) _ hz2]
  simp only [View.readAt_eq_ld, harg2.read_unread, harg3.read_unread, harg4.read_unread,
    View.ld_unit_zero (S := S1x2048x64) hz3, View.ld_unit_zero (S := S1x1024x64) hz3]

/-- A head's last half leaves in the accumulator: what the first half left plus the half's contribution. -/
theorem sout_B (c : Dev nD) (i : grid3.Coords) (arg2 : Memref sig .tc .vmem S1x2048x64 .bf16) (harg2 : arg2.IsWhole) (arg3 : Memref sig .tc .vmem S1x1024x64 .bf16) (harg3 : arg3.IsWhole)
    (arg4 : Memref sig .tc .vmem S1x1024x64 .bf16) (harg4 : arg4.IsWhole) (arg5 : Memref sig .tc .vmem S1x2048x64 .bf16) (harg5 : arg5.IsWhole)
    (arg6 : Memref sig .tc .vmem S2048x64 .f32) (harg6 : arg6.IsWhole) (hc0 : ¬cond3_0 i) (hc1 : cond3_1 i)
    (x0 : Vec F S1x2048x64 .bf16) (x1 : Vec F S1x1024x64 .bf16) (x2 : Vec F S1x1024x64 .bf16) (xs0 : Vec F S2048x64 .f32) :
    sout3_B_0 c i arg2 harg2 arg3 harg3 arg4 harg4 arg5 harg5 arg6 harg6 hc0 hc1 x0 x1 x2 xs0 = k3_pay1 xs0 (k3_pay4 i x0 x1 x2) := by
  unfold sout3_B_0
  rw [View.read_writes_eq_canon _ _ _ (scover3_B_0 c i arg2 harg2 arg3 harg3 arg4 harg4 arg5 harg5 arg6 harg6 hc0 hc1 x0 x1 x2 xs0)]
  unfold kernelRun3_B
  dsimp only
  sl_unfold_words
  rw [View.canon_unit_zero hz2]
  simp only [View.readAt_eq_ld, harg2.read_unread, harg3.read_unread, harg4.read_unread, harg6.read_unread,
    View.ld_unit_zero (S := S1x2048x64) hz3, View.ld_unit_zero (S := S1x1024x64) hz3, View.ld_unit_zero (S := S2048x64) hz2]

/-- and in the output block: that accumulator, rounded. -/
theorem out_B (c : Dev nD) (i : grid3.Coords) (arg2 : Memref sig .tc .vmem S1x2048x64 .bf16) (harg2 : arg2.IsWhole) (arg3 : Memref sig .tc .vmem S1x1024x64 .bf16) (harg3 : arg3.IsWhole)
    (arg4 : Memref sig .tc .vmem S1x1024x64 .bf16) (harg4 : arg4.IsWhole) (arg5 : Memref sig .tc .vmem S1x2048x64 .bf16) (harg5 : arg5.IsWhole)
    (arg6 : Memref sig .tc .vmem S2048x64 .f32) (harg6 : arg6.IsWhole) (hc0 : ¬cond3_0 i) (hc1 : cond3_1 i)
    (x0 : Vec F S1x2048x64 .bf16) (x1 : Vec F S1x1024x64 .bf16) (x2 : Vec F S1x1024x64 .bf16) (xs0 : Vec F S2048x64 .f32) :
    out3_B_3 c i arg2 harg2 arg3 harg3 arg4 harg4 arg5 harg5 arg6 harg6 hc0 hc1 x0 x1 x2 xs0 = k3_pay2 (k3_pay1 xs0 (k3_pay4 i x0 x1 x2)) := by
  unfold out3_B_3
  rw [View.read_writes_eq_canon _ _ _ (cover3_B_3 c i arg2 harg2 arg3 harg3 arg4 harg4 arg5 harg5 arg6 harg6 hc0 hc1 x0 x1 x2 xs0)]
  unfold kernelRun3_B
  dsimp only
  sl_unfold_words
  rw [View.canon_unit_zero hz3, View.readCov_unit_zero (S := S2048x64) _ hz2]
  simp only [View.readAt_eq_ld, harg2.read_unread, harg3.read_unread, harg4.read_unread, harg6.read_unread,
    View.ld_unit_zero (S := S1x2048x64) hz3, View.ld_unit_zero (S := S1x1024x64) hz3, View.ld_unit_zero (S := S2048x64) hz2]

/-- A product into the zero accumulator read at an entry, its contraction re-indexed by the one contracted coordinate. -/
theorem matmul_zero_at {sl sr so : Shape} {φ₁ φ₂ : FTy} (D : DotDims sl sr so) (n : ℕ) (hr : D.contr.rank = 1)
    (hs : D.contr.size ⟨0, by omega⟩ = n) (L : FVec Ideal sl φ₁) (R : FVec Ideal sr φ₂) (j : so.Idx)
    (li : Fin n → sl.Idx) (ri : Fin n → sr.Idx)
    (hl : ∀ u, D.lhsIdx j ((contrEquiv1 D n hr hs).symm u) = li u) (hri : ∀ u, D.rhsIdx j ((contrEquiv1 D n hr hs).symm u) = ri u) :
    matmul D none L R (constant so .f32 0x00000000#32) j = ∑ u : Fin n, L (li u) * R (ri u) := by
  refine (Ideal.matmul_constant_zero_apply D none L R j).trans ?_
  rw [← Equiv.sum_comp (contrEquiv1 D n hr hs).symm]
  exact Finset.sum_congr rfl fun u _ => by rw [hl u, hri u]

abbrev D1 := dot_S2048x64_S1024x64_S2048x1024_1_1_0_0_n_n
theorem D1_l0 (i : S2048x1024.Idx) (q : D1.contr.Idx) : (D1.lhsIdx i q 0).val = (i 0).val := by
  unfold DotDims.lhsIdx
  rw [dif_neg (show ¬(0 : Fin S2048x64.rank) ∈ D1.lhsBatch by decide), dif_pos (show (0 : Fin S2048x64.rank) ∈ D1.lhsNonContracting by decide)]
  rfl
theorem D1_l1 (i : S2048x1024.Idx) (q : D1.contr.Idx) : (D1.lhsIdx i q 1).val = (q ⟨0, by decide⟩).val :=
  D1.lhsIdx_val_of_single rfl i q
theorem D1_r0 (i : S2048x1024.Idx) (q : D1.contr.Idx) : (D1.rhsIdx i q 0).val = (i 1).val := by
  unfold DotDims.rhsIdx
  rw [dif_neg (show ¬(0 : Fin S1024x64.rank) ∈ D1.rhsBatch by decide), dif_pos (show (0 : Fin S1024x64.rank) ∈ D1.rhsNonContracting by decide)]
  rfl
theorem D1_r1 (i : S2048x1024.Idx) (q : D1.contr.Idx) : (D1.rhsIdx i q 1).val = (q ⟨0, by decide⟩).val :=
  D1.rhsIdx_val_of_single rfl i q

abbrev D2 := dot_S2048x1024_S1024x64_S2048x64_1_0_0_1_n_n
theorem D2_l0 (i : S2048x64.Idx) (q : D2.contr.Idx) : (D2.lhsIdx i q 0).val = (i 0).val := by
  unfold DotDims.lhsIdx
  rw [dif_neg (show ¬(0 : Fin S2048x1024.rank) ∈ D2.lhsBatch by decide), dif_pos (show (0 : Fin S2048x1024.rank) ∈ D2.lhsNonContracting by decide)]
  rfl
theorem D2_l1 (i : S2048x64.Idx) (q : D2.contr.Idx) : (D2.lhsIdx i q 1).val = (q ⟨0, by decide⟩).val :=
  D2.lhsIdx_val_of_single rfl i q
theorem D2_r1 (i : S2048x64.Idx) (q : D2.contr.Idx) : (D2.rhsIdx i q 1).val = (i 1).val := by
  unfold DotDims.rhsIdx
  rw [dif_neg (show ¬(1 : Fin S1024x64.rank) ∈ D2.rhsBatch by decide), dif_pos (show (1 : Fin S1024x64.rank) ∈ D2.rhsNonContracting by decide)]
  rfl
theorem D2_r0 (i : S2048x64.Idx) (q : D2.contr.Idx) : (D2.rhsIdx i q 0).val = (q ⟨0, by decide⟩).val :=
  D2.rhsIdx_val_of_single rfl i q

abbrev D3 := dot_S1x1024_S1024x64_S1x64_1_0_0_1_n_n
theorem D3_l0 (i : S1x64.Idx) (q : D3.contr.Idx) : (D3.lhsIdx i q 0).val = (i 0).val := by
  unfold DotDims.lhsIdx
  rw [dif_neg (show ¬(0 : Fin S1x1024.rank) ∈ D3.lhsBatch by decide), dif_pos (show (0 : Fin S1x1024.rank) ∈ D3.lhsNonContracting by decide)]
  rfl
theorem D3_l1 (i : S1x64.Idx) (q : D3.contr.Idx) : (D3.lhsIdx i q 1).val = (q ⟨0, by decide⟩).val :=
  D3.lhsIdx_val_of_single rfl i q
theorem D3_r1 (i : S1x64.Idx) (q : D3.contr.Idx) : (D3.rhsIdx i q 1).val = (i 1).val := by
  unfold DotDims.rhsIdx
  rw [dif_neg (show ¬(1 : Fin S1024x64.rank) ∈ D3.rhsBatch by decide), dif_pos (show (1 : Fin S1024x64.rank) ∈ D3.rhsNonContracting by decide)]
  rfl
theorem D3_r0 (i : S1x64.Idx) (q : D3.contr.Idx) : (D3.rhsIdx i q 0).val = (q ⟨0, by decide⟩).val :=
  D3.rhsIdx_val_of_single rfl i q

theorem D1_l (s : Fin 2048) (u : Fin 1024) (j : Fin 64) :
    D1.lhsIdx (ix2 s u) ((contrEquiv1 D1 64 rfl rfl).symm j) = ix2 s j := by
  funext a; apply Fin.ext
  match a with
  | ⟨0, _⟩ => exact D1_l0 _ _
  | ⟨1, _⟩ => exact (D1_l1 _ _).trans (contrEquiv1_symm_val D1 64 rfl rfl j)
theorem D1_r (s : Fin 2048) (u : Fin 1024) (j : Fin 64) :
    D1.rhsIdx (ix2 s u) ((contrEquiv1 D1 64 rfl rfl).symm j) = ix2 u j := by
  funext a; apply Fin.ext
  match a with
  | ⟨0, _⟩ => exact D1_r0 _ _
  | ⟨1, _⟩ => exact (D1_r1 _ _).trans (contrEquiv1_symm_val D1 64 rfl rfl j)
theorem D2_l (s : Fin 2048) (e : Fin 64) (u : Fin 1024) :
    D2.lhsIdx (ix2 s e) ((contrEquiv1 D2 1024 rfl rfl).symm u) = ix2 s u := by
  funext a; apply Fin.ext
  match a with
  | ⟨0, _⟩ => exact D2_l0 _ _
  | ⟨1, _⟩ => exact (D2_l1 _ _).trans (contrEquiv1_symm_val D2 1024 rfl rfl u)
theorem D2_r (s : Fin 2048) (e : Fin 64) (u : Fin 1024) :
    D2.rhsIdx (ix2 s e) ((contrEquiv1 D2 1024 rfl rfl).symm u) = ix2 u e := by
  funext a; apply Fin.ext
  match a with
  | ⟨0, _⟩ => exact (D2_r0 _ _).trans (contrEquiv1_symm_val D2 1024 rfl rfl u)
  | ⟨1, _⟩ => exact D2_r1 _ _
theorem D3_l (z : Fin 1) (e : Fin 64) (u : Fin 1024) :
    D3.lhsIdx (ix2 z e) ((contrEquiv1 D3 1024 rfl rfl).symm u) = ix2 z u := by
  funext a; apply Fin.ext
  match a with
  | ⟨0, _⟩ => exact D3_l0 _ _
  | ⟨1, _⟩ => exact (D3_l1 _ _).trans (contrEquiv1_symm_val D3 1024 rfl rfl u)
theorem D3_r (z : Fin 1) (e : Fin 64) (u : Fin 1024) :
    D3.rhsIdx (ix2 z e) ((contrEquiv1 D3 1024 rfl rfl).symm u) = ix2 u e := by
  funext a; apply Fin.ext
  match a with
  | ⟨0, _⟩ => exact (D3_r0 _ _).trans (contrEquiv1_symm_val D3 1024 rfl rfl u)
  | ⟨1, _⟩ => exact D3_r1 _ _

/-! ## The causal mask's comparison -/

/-- A natural below 4096, as a 32-bit word read signed, is itself. -/
theorem small_toInt (n : ℕ) (h : n < 4096) : (BitVec.ofNat 32 n).toInt = (n : ℤ) := by
  rw [BitVec.toInt_eq_toNat_cond]
  simp only [BitVec.toNat_ofNat]
  have : n % 2 ^ 32 = n := Nat.mod_eq_of_lt (by omega)
  rw [this]
  split <;> omega
/-- Column `u` of key tile `ti`, computed in words, is the word of `1024·ti + u`. -/
theorem mask_word (ti u : ℕ) (hti : ti < 2) (hu : u < 1024) :
    IntOp.addi (BitVec.ofNat 32 u) (Scalar.muli (BitVec.ofNat 32 ti) 1024#32) = BitVec.ofNat 32 (1024 * ti + u) := by
  apply BitVec.eq_of_toNat_eq
  simp only [IntOp.addi, Scalar.muli, IntOp.muli, BitVec.toNat_add, BitVec.toNat_mul, BitVec.toNat_ofNat]
  omega
/-- The signed comparison "row ≥ column" of the two words is the comparison of the naturals. -/
theorem mask_bit (ti s u : ℕ) (hti : ti < 2) (hs : s < 2048) (hu : u < 1024) :
    IntOp.cmpi .sge (BitVec.ofNat 32 s) (IntOp.addi (BitVec.ofNat 32 u) (Scalar.muli (BitVec.ofNat 32 ti) 1024#32))
      = if 1024 * ti + u ≤ s then 1#1 else 0#1 := by
  rw [mask_word ti u hti hu]
  unfold IntOp.cmpi
  simp only [BitVec.sle, small_toInt s (by omega), small_toInt (1024 * ti + u) (by omega)]
  by_cases h : 1024 * ti + u ≤ s
  · have h' : ((1024 * ti + u : ℕ) : ℤ) ≤ (s : ℤ) := by exact_mod_cast h
    rw [if_pos h, decide_eq_true h']; rfl
  · have h' : ¬ ((1024 * ti + u : ℕ) : ℤ) ≤ (s : ℤ) := by exact_mod_cast h
    rw [if_neg h, decide_eq_false h']; rfl

end Cert.KernelIdeal.Hand

end
-- ==== Proof.KI.V3b.lean ====
/-
  Region 3's arithmetic at the extended reals, one grid point at a time: the scaled masked scores of the point's query
  block against its key block, each key column's maximum and log-sum-exp over the queries, and the point's contribution to
  the accumulator — the scores against the value block less the rank-one correction (max + log-sum-exp) against it —
  read entry by entry.
-/
import proofs.«137196_j32049045963121_2_alg».proof.Proof.KI.V3a

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)
open scoped BigOperators

variable {F : FTy → Type} [FloatOps F]

/-! ## One grid point's contribution from the point's blocks -/

/-- The point's scaled masked scores: query `s` against column `u` of key tile `ti`. -/
def scB (ti : ℕ) (q : Fin 2048 → Fin 64 → EReal) (kb : Fin 1024 → Fin 64 → EReal) (s : Fin 2048) (u : Fin 1024) : EReal :=
  (if 1024 * ti + u.val ≤ s.val then ∑ j : Fin 64, q s j * kb u j else 0) * Spec.eighthW
def maxB (ti : ℕ) (q : Fin 2048 → Fin 64 → EReal) (kb : Fin 1024 → Fin 64 → EReal) (u : Fin 1024) : EReal :=
  (Finset.univ : Finset (Fin 2048)).fold max ⊥ (fun s => scB ti q kb s u)
def lseB (ti : ℕ) (q : Fin 2048 → Fin 64 → EReal) (kb : Fin 1024 → Fin 64 → EReal) (u : Fin 1024) : EReal :=
  Ideal.log (∑ s : Fin 2048, Ideal.exp (scB ti q kb s u - maxB ti q kb u))
def tileB (ti : ℕ) (q : Fin 2048 → Fin 64 → EReal) (kb vb : Fin 1024 → Fin 64 → EReal) (s : Fin 2048) (e : Fin 64) : EReal :=
  (∑ u : Fin 1024, scB ti q kb s u * vb u e) - (∑ u : Fin 1024, (maxB ti q kb u + lseB ti q kb u) * vb u e)

/-- The scaled masked scores of a point, entry by entry. -/
theorem v19_apply (ti : ℕ) (hti : ti < 2) (h0 : S2048x1024.Iotas .tc 32 [0]) (h1 : S2048x1024.Iotas .tc 32 [1])
    (v4 : FVec Ideal S2048x64 .bf16) (v6 : FVec Ideal S1024x64 .bf16) (s : Fin 2048) (u : Fin 1024) :
    (mulf (select (cmpi .sge (iota .tc S2048x1024 32 [0] h0) (addi (iota .tc S2048x1024 32 [1] h1) (broadcast S2048x1024 (Scalar.muli (BitVec.ofNat 32 ti) 1024#32))))
        (matmul D1 none v4 v6 (constant S2048x1024 .f32 0x00000000#32)) (broadcast S2048x1024 (Scalar.ofBits .f32 0x00000000#32)))
      (broadcast S2048x1024 (Scalar.ofBits .f32 0x3E000000#32)) : FVec Ideal S2048x1024 .f32) (ix2 s u)
      = scB ti (fun s j => v4 (ix2 s j)) (fun u j => v6 (ix2 u j)) s u := by
  show Scalar.select (IntOp.cmpi .sge (iota .tc S2048x1024 32 [0] h0 (ix2 s u)) (IntOp.addi (iota .tc S2048x1024 32 [1] h1 (ix2 s u)) (Scalar.muli (BitVec.ofNat 32 ti) 1024#32)))
      (matmul D1 none v4 v6 (constant S2048x1024 .f32 0x00000000#32) (ix2 s u)) (Ideal.ofBits .f32 0x00000000#32) * Ideal.ofBits .f32 0x3E000000#32 = _
  rw [iota_single_apply, iota_single_apply]
  show Scalar.select (IntOp.cmpi .sge (BitVec.ofNat 32 s.val) (IntOp.addi (BitVec.ofNat 32 u.val) (Scalar.muli (BitVec.ofNat 32 ti) 1024#32))) _ _ * _ = _
  rw [mask_bit ti s.val u.val hti s.isLt u.isLt, matmul_zero_at D1 64 rfl rfl v4 v6 (ix2 s u) _ _ (D1_l s u) (D1_r s u), Ideal.ofBits_zero_f32]
  unfold scB Spec.eighthW
  by_cases h : 1024 * ti + u.val ≤ s.val
  · rw [if_pos h, if_pos h, select_one]
  · rw [if_neg h, if_neg h, select_zero]

theorem negInf_word : Ideal.ofBits .f32 0xFF800000#32 = ⊥ := by simp [Ideal.ofBits, Ideal.ieee]

theorem lift0 (h : S2048x1024.Reduces [0] S1024) (u : Fin 1024) (s : Fin 2048) : h.lift (ix1 u) s = ix2 s u :=
  funext fun a => Fin.ext (match a with | ⟨0, _⟩ => rfl | ⟨1, _⟩ => rfl)

/-- A column's maximum over the queries. -/
theorem colmax_apply (A : FVec Ideal S2048x1024 .f32) (sc : Fin 2048 → Fin 1024 → EReal) (hA : ∀ s u, A (ix2 s u) = sc s u)
    (h : S2048x1024.Reduces [0] S1024) (hφ : FKind.Formats .f32) (hacc : (0xFF800000#32 : BitVec 32) = FKind.maximumf.neutral .f32 hφ) (u : Fin 1024) :
    multiReduction .maximumf [0] S1024 A 0xFF800000#32 h hφ hacc (ix1 u) = (Finset.univ : Finset (Fin 2048)).fold max ⊥ (fun s => sc s u) := by
  refine (Ideal.multiReduction_maximumf_single A 0xFF800000#32 h hφ hacc (ix1 u)).trans ?_
  show (Finset.univ : Finset (Fin 2048)).fold max (Ideal.ofBits .f32 0xFF800000#32) (fun s => A (h.lift (ix1 u) s)) = _
  have e : (fun s => A (h.lift (ix1 u) s)) = fun s => sc s u := funext fun s => by rw [lift0 h u s]; exact hA s u
  rw [negInf_word, e]
  rfl

/-- A column's sum over the queries. -/
theorem colsum_apply (B : FVec Ideal S2048x1024 .f32) (g : Fin 2048 → Fin 1024 → EReal) (hB : ∀ s u, B (ix2 s u) = g s u)
    (h : S2048x1024.Reduces [0] S1024) (hφ : FKind.Formats .f32) (hacc : (0x00000000#32 : BitVec 32) = FKind.add.neutral .f32 hφ) (u : Fin 1024) :
    multiReduction .add [0] S1024 B 0x00000000#32 h hφ hacc (ix1 u) = ∑ s : Fin 2048, g s u := by
  refine (Ideal.multiReduction_add_single B 0x00000000#32 h hφ hacc (ix1 u)).trans ?_
  show ∑ s : Fin 2048, B (h.lift (ix1 u) s) = _
  exact Finset.sum_congr rfl fun s _ => by rw [lift0 h u s]; exact hB s u

theorem sub_at {S : Shape} (a b : FVec Ideal S .f32) (i : S.Idx) : subf a b i = a i - b i := rfl
theorem add_at {S : Shape} (a b : FVec Ideal S .f32) (i : S.Idx) : addf a b i = a i + b i := rfl
theorem exp_at {S : Shape} (a : FVec Ideal S .f32) (i : S.Idx) : exp a i = Ideal.exp (a i) := rfl
theorem log_at {S : Shape} (a : FVec Ideal S .f32) (i : S.Idx) : log a i = Ideal.log (a i) := rfl
theorem trunc_at {S : Shape} (a : FVec Ideal S .f32) (i : S.Idx) : (truncf .bf16 a bitsLt_bf16_f32 : FVec Ideal S .bf16) i = a i := rfl

/-- The scores against the value block: a point's first product. -/
theorem contrib_at (A : FVec Ideal S2048x1024 .f32) (sc : Fin 2048 → Fin 1024 → EReal) (hA : ∀ s u, A (ix2 s u) = sc s u)
    (vv : FVec Ideal S1024x64 .bf16) (s : Fin 2048) (e : Fin 64) :
    matmul D2 none (truncf .bf16 A bitsLt_bf16_f32) vv (constant S2048x64 .f32 0x00000000#32) (ix2 s e)
      = ∑ u : Fin 1024, sc s u * vv (ix2 u e) := by
  rw [matmul_zero_at D2 1024 rfl rfl _ vv (ix2 s e) _ _ (D2_l s e) (D2_r s e)]
  exact Finset.sum_congr rfl fun u _ => by rw [trunc_at, hA]

/-- A row vector against the value block: a point's second product. -/
theorem corr_at (R : FVec Ideal S1x1024 .f32) (r : Fin 1024 → EReal) (hR : ∀ u, R (ix2 (0 : Fin 1) u) = r u)
    (vv : FVec Ideal S1024x64 .bf16) (e : Fin 64) :
    matmul D3 none (truncf .bf16 R bitsLt_bf16_f32) vv (constant S1x64 .f32 0x00000000#32) (ix2 (0 : Fin 1) e)
      = ∑ u : Fin 1024, r u * vv (ix2 u e) := by
  rw [matmul_zero_at D3 1024 rfl rfl _ vv (ix2 (0 : Fin 1) e) _ _ (D3_l 0 e) (D3_r 0 e)]
  exact Finset.sum_congr rfl fun u _ => by rw [trunc_at, hR]

/-- The columns' maxima as a row vector. -/
theorem maxrow_at (A : FVec Ideal S2048x1024 .f32) (sc : Fin 2048 → Fin 1024 → EReal) (hA : ∀ s u, A (ix2 s u) = sc s u)
    (z : Fin 1) (u : Fin 1024) :
    shapeCast S1x1024 (multiReduction .maximumf [0] S1024 A 0xFF800000#32 reduces_S2048x1024_S1024 (.inl rfl) rfl) shapeCasts_S1024_S1x1024 (ix2 z u)
      = (Finset.univ : Finset (Fin 2048)).fold max ⊥ (fun s => sc s u) :=
  (shapeCast_a_1a_apply _ shapeCasts_S1024_S1x1024 z u).trans (colmax_apply A sc hA _ _ _ u)

/-- The exponentials of the shifted scores. -/
theorem expshift_at (A : FVec Ideal S2048x1024 .f32) (sc : Fin 2048 → Fin 1024 → EReal) (hA : ∀ s u, A (ix2 s u) = sc s u)
    (Mr : FVec Ideal S1x1024 .f32) (M : Fin 1024 → EReal) (hM : ∀ z u, Mr (ix2 z u) = M u) (s : Fin 2048) (u : Fin 1024) :
    (exp (subf A (broadcastTo S2048x1024 Mr broadcasts_S1x1024_S2048x1024)) : FVec Ideal S2048x1024 .f32) (ix2 s u)
      = Ideal.exp (sc s u - M u) := by
  rw [exp_at, sub_at, broadcastTo_1b_ab_apply, hM, hA]

/-- The row vector the second product takes: each column's maximum plus the logarithm of its sum of exponentials. -/
theorem rowvec_at (A : FVec Ideal S2048x1024 .f32) (sc : Fin 2048 → Fin 1024 → EReal) (hA : ∀ s u, A (ix2 s u) = sc s u)
    (Mr : FVec Ideal S1x1024 .f32) (M : Fin 1024 → EReal) (hM : ∀ z u, Mr (ix2 z u) = M u) (u : Fin 1024) :
    (addf Mr (log (shapeCast S1x1024
        (multiReduction .add [0] S1024 (exp (subf A (broadcastTo S2048x1024 Mr broadcasts_S1x1024_S2048x1024))) 0x00000000#32 reduces_S2048x1024_S1024 (.inl rfl) rfl)
        shapeCasts_S1024_S1x1024)) : FVec Ideal S1x1024 .f32) (ix2 (0 : Fin 1) u)
      = M u + Ideal.log (∑ s : Fin 2048, Ideal.exp (sc s u - M u)) := by
  rw [add_at, log_at, hM, shapeCast_a_1a_apply]
  exact congrArg (fun x => M u + Ideal.log x) (colsum_apply _ _ (expshift_at A sc hA Mr M hM) _ _ _ u)

/-- One point's contribution entry by entry, from the point's scaled scores `A` (read as `sc`) and its value block. -/
theorem tile_of (A : FVec Ideal S2048x1024 .f32) (sc : Fin 2048 → Fin 1024 → EReal) (hA : ∀ s u, A (ix2 s u) = sc s u)
    (vv : FVec Ideal S1024x64 .bf16) (s : Fin 2048) (e : Fin 64) :
    (subf (matmul D2 none (truncf .bf16 A bitsLt_bf16_f32) vv (constant S2048x64 .f32 0x00000000#32))
      (broadcastTo S2048x64
        (matmul D3 none
          (truncf .bf16
            (addf (shapeCast S1x1024 (multiReduction .maximumf [0] S1024 A 0xFF800000#32 reduces_S2048x1024_S1024 (.inl rfl) rfl) shapeCasts_S1024_S1x1024)
              (log (shapeCast S1x1024
                (multiReduction .add [0] S1024
                  (exp (subf A (broadcastTo S2048x1024 (shapeCast S1x1024 (multiReduction .maximumf [0] S1024 A 0xFF800000#32 reduces_S2048x1024_S1024 (.inl rfl) rfl) shapeCasts_S1024_S1x1024) broadcasts_S1x1024_S2048x1024)))
                  0x00000000#32 reduces_S2048x1024_S1024 (.inl rfl) rfl) shapeCasts_S1024_S1x1024)))
            bitsLt_bf16_f32)
          vv (constant S1x64 .f32 0x00000000#32))
        broadcasts_S1x64_S2048x64) : FVec Ideal S2048x64 .f32) (ix2 s e)
      = (∑ u : Fin 1024, sc s u * vv (ix2 u e))
        - ∑ u : Fin 1024, ((Finset.univ : Finset (Fin 2048)).fold max ⊥ (fun s => sc s u)
            + Ideal.log (∑ s : Fin 2048, Ideal.exp (sc s u - (Finset.univ : Finset (Fin 2048)).fold max ⊥ (fun s => sc s u)))) * vv (ix2 u e) := by
  rw [sub_at, contrib_at A sc hA vv s e, broadcastTo_1b_ab_apply,
    corr_at _ _ (rowvec_at A sc hA _ _ (maxrow_at A sc hA)) vv e]

end Cert.KernelIdeal.Hand

end
-- ==== Proof.KI.V3c.lean ====
/-
  Region 3 read as a value at the extended reals. A head occupies two consecutive grid points, one per half of the key
  axis; the first zeroes the accumulator and adds its half's contribution, the second adds its own and rounds the
  accumulator into the head's output block, which is written back then. So after the region the output array holds, head by
  head, the specification's accumulator formula of the three head-major input arrays.
-/
import proofs.«137196_j32049045963121_2_alg».proof.Proof.KI.V3b

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)
open scoped BigOperators

variable {F : FTy → Type} [FloatOps F]

/-! ## A point's contribution from its three blocks, and the accumulator's arithmetic -/

/-- One point's contribution, entry by entry, from the point's query, key and value blocks. -/
theorem tilePay_apply (i : grid3.Coords) (hti : (i 1).val < 2) (x0 : Vec Ideal S1x2048x64 .bf16) (x1 x2 : Vec Ideal S1x1024x64 .bf16)
    (s : Fin 2048) (e : Fin 64) :
    k3_pay4 (F := Ideal) i x0 x1 x2 (ix2 s e)
      = tileB (i 1).val (fun s j => x0 (ix3 (0 : Fin 1) s j)) (fun u j => x1 (ix3 (0 : Fin 1) u j)) (fun u e => x2 (ix3 (0 : Fin 1) u e)) s e := by
  unfold k3_pay4
  refine (tile_of _ (scB (i 1).val (fun s j => x0 (ix3 (0 : Fin 1) s j)) (fun u j => x1 (ix3 (0 : Fin 1) u j))) (fun s u => ?_) _ s e).trans ?_
  · refine (v19_apply (i 1).val hti _ _ _ _ s u).trans ?_
    have e0 : (fun (s : Fin 2048) (j : Fin 64) => shapeCast S2048x64 x0 shapeCasts_S1x2048x64_S2048x64 (ix2 s j)) = fun s j => x0 (ix3 (0 : Fin 1) s j) :=
      funext fun s => funext fun j => shapeCast_1ab_ab_apply x0 _ s j
    have e1 : (fun (u : Fin 1024) (j : Fin 64) => shapeCast S1024x64 x1 shapeCasts_S1x1024x64_S1024x64 (ix2 u j)) = fun u j => x1 (ix3 (0 : Fin 1) u j) :=
      funext fun u => funext fun j => shapeCast_1ab_ab_apply x1 _ u j
    rw [e0, e1]
  · simp only [tileB, lseB, maxB, shapeCast_1ab_ab_apply]

/-- A tile's contribution from blocks that are the tile's columns of whole arrays is the specification's. -/
theorem tileB_kTile (q k v : Fin 2048 → Fin 64 → EReal) (ti : Fin 2) (s : Fin 2048) (e : Fin 64) :
    tileB ti.val q (fun u j => k (Spec.col ti u) j) (fun u e => v (Spec.col ti u) e) s e = Spec.kTile q k v ti s e := rfl

theorem pay3_at (j : S2048x64.Idx) : k3_pay3 (F := Ideal) j = 0 := by
  unfold k3_pay3
  simp only [shapeCast_self]
  exact Ideal.ofBits_zero_f32
theorem pay1_at (a : Vec Ideal S2048x64 .f32) (b : FVec Ideal S2048x64 .f32) (j : S2048x64.Idx) : k3_pay1 a b j = a j + b j := by
  unfold k3_pay1
  simp only [shapeCast_self]
  rfl
theorem pay2_at (X : Vec Ideal S2048x64 .f32) (z : Fin 1) (s : Fin 2048) (e : Fin 64) :
    k3_pay2 (F := Ideal) X (ix3 z s e) = X (ix2 s e) := by
  unfold k3_pay2
  exact (shapeCast_ab_1ab_apply _ _ z s e).trans rfl

/-- A head's result over whole arrays (head-major [16, 2048, 64]): the specification's accumulator formula. -/
abbrev attn3H (Qh Kh Vh : S16x2048x64.Idx → EReal) : S16x2048x64.Idx → EReal :=
  fun i => Spec.kAttn (fun s j => Qh (ix3 (i 0) s j)) (fun t j => Kh (ix3 (i 0) t j)) (fun t e => Vh (ix3 (i 0) t e)) (i 1) (i 2)

/-- What a head's last point leaves in the output block, entry by entry: the head's result, when the two points'
    blocks are the head's rows of whole arrays (the key and value blocks the two tiles' columns). -/
theorem block3_eq (Qh Kh Vh : S16x2048x64.Idx → EReal) (h : Fin 16)
    (xq' xq : Vec Ideal S1x2048x64 .bf16) (xk0 xv0 xk1 xv1 : Vec Ideal S1x1024x64 .bf16)
    (hq' : ∀ s j, xq' (ix3 (0 : Fin 1) s j) = Qh (ix3 h s j)) (hq : ∀ s j, xq (ix3 (0 : Fin 1) s j) = Qh (ix3 h s j))
    (hk0 : ∀ u j, xk0 (ix3 (0 : Fin 1) u j) = Kh (ix3 h (Spec.col 0 u) j)) (hv0 : ∀ u e, xv0 (ix3 (0 : Fin 1) u e) = Vh (ix3 h (Spec.col 0 u) e))
    (hk1 : ∀ u j, xk1 (ix3 (0 : Fin 1) u j) = Kh (ix3 h (Spec.col 1 u) j)) (hv1 : ∀ u e, xv1 (ix3 (0 : Fin 1) u e) = Vh (ix3 h (Spec.col 1 u) e))
    (i0 i1 : grid3.Coords) (hi0 : (i0 1).val = 0) (hi1 : (i1 1).val = 1)
    (z : Fin 1) (s : Fin 2048) (e : Fin 64) :
    k3_pay2 (F := Ideal) (k3_pay1 (k3_pay1 (k3_pay3 (F := Ideal)) (k3_pay4 i0 xq' xk0 xv0)) (k3_pay4 i1 xq xk1 xv1)) (ix3 z s e)
      = attn3H Qh Kh Vh (ix3 h s e) := by
  rw [pay2_at, pay1_at, pay1_at, pay3_at, tilePay_apply i0 (by omega), tilePay_apply i1 (by omega), hi0, hi1]
  simp only [hq', hq, hk0, hv0, hk1, hv1]
  show _ = (0 + Spec.kTile _ _ _ 0 s e) + Spec.kTile _ _ _ 1 s e
  rw [← tileB_kTile, ← tileB_kTile]
  rfl

/-! ## The region's blocks and what its flushing points write back -/

/-- The index maps over the grid: point `t` is head `t / 2`, key tile `t % 2`. -/
theorem idx_facts3 : ∀ t : Fin cfg3.N,
    win3_0.index t (0 : Fin 3) = t.val / 2 ∧ win3_0.index t (1 : Fin 3) = 0 ∧ win3_0.index t (2 : Fin 3) = 0
    ∧ win3_1.index t (0 : Fin 3) = t.val / 2 ∧ win3_1.index t (1 : Fin 3) = t.val % 2 ∧ win3_1.index t (2 : Fin 3) = 0
    ∧ win3_2.index t (0 : Fin 3) = t.val / 2 ∧ win3_2.index t (1 : Fin 3) = t.val % 2 ∧ win3_2.index t (2 : Fin 3) = 0
    ∧ win3_3.index t (0 : Fin 3) = t.val / 2 ∧ win3_3.index t (1 : Fin 3) = 0 ∧ win3_3.index t (2 : Fin 3) = 0
    ∧ (grid3.coords t (1 : Fin 2)).val = t.val % 2 :=
  (by decide +kernel : ∀ t : Fin grid3.N, _)

section
variable (V : (c : Dev nD) → (b : Ref sig .tc) → Buf (Elt Ideal) ((c : Thread nD τ).loc b))

/-- The point before. -/
abbrev prev (t : Fin cfg3.N) : Fin cfg3.N := ⟨t.val - 1, Nat.lt_of_le_of_lt (Nat.sub_le _ _) t.isLt⟩

/-- The query block at point `t` is head `t / 2`'s rows of the array. -/
theorem iblk3_0_apply (c : Dev nD) (t : Fin cfg3.N) (h : Fin 16) (hh : h.val = t.val / 2) (s : Fin 2048) (j : Fin 64) :
    (iblk3 V c 0 t : Vec Ideal S1x2048x64 .bf16) (ix3 (0 : Fin 1) s j) = (V c main_v16 : S16x2048x64.Idx → Elt Ideal .bf16) (ix3 h s j) := by
  obtain ⟨e0, e1, e2, -⟩ := idx_facts3 t
  unfold iblk3
  rw [View.read_apply]
  show V c main_v16 _ = V c main_v16 _
  congr 1
  funext a
  apply Fin.ext
  match a with
  | ⟨0, _⟩ => show win3_0.index t (0 : Fin 3) * 1 + 1 * 0 = h.val; omega
  | ⟨1, _⟩ => show win3_0.index t (1 : Fin 3) * 2048 + 1 * s.val = s.val; omega
  | ⟨2, _⟩ => show win3_0.index t (2 : Fin 3) * 64 + 1 * j.val = j.val; omega

/-- The key block at point `t` is head `t / 2`'s rows `1024·(t % 2) …` of the array; -/
theorem iblk3_1_apply (c : Dev nD) (t : Fin cfg3.N) (h : Fin 16) (hh : h.val = t.val / 2) (ti : Fin 2) (hti : ti.val = t.val % 2) (u : Fin 1024) (j : Fin 64) :
    (iblk3 V c 1 t : Vec Ideal S1x1024x64 .bf16) (ix3 (0 : Fin 1) u j) = (V c main_v18 : S16x2048x64.Idx → Elt Ideal .bf16) (ix3 h (Spec.col ti u) j) := by
  obtain ⟨-, -, -, e0, e1, e2, -⟩ := idx_facts3 t
  unfold iblk3
  rw [View.read_apply]
  show V c main_v18 _ = V c main_v18 _
  congr 1
  funext a
  apply Fin.ext
  match a with
  | ⟨0, _⟩ => show win3_1.index t (0 : Fin 3) * 1 + 1 * 0 = h.val; omega
  | ⟨1, _⟩ => show win3_1.index t (1 : Fin 3) * 1024 + 1 * u.val = 1024 * ti.val + u.val; omega
  | ⟨2, _⟩ => show win3_1.index t (2 : Fin 3) * 64 + 1 * j.val = j.val; omega

/-- and the value block likewise. -/
theorem iblk3_2_apply (c : Dev nD) (t : Fin cfg3.N) (h : Fin 16) (hh : h.val = t.val / 2) (ti : Fin 2) (hti : ti.val = t.val % 2) (u : Fin 1024) (j : Fin 64) :
    (iblk3 V c 2 t : Vec Ideal S1x1024x64 .bf16) (ix3 (0 : Fin 1) u j) = (V c main_v20 : S16x2048x64.Idx → Elt Ideal .bf16) (ix3 h (Spec.col ti u) j) := by
  obtain ⟨-, -, -, -, -, -, e0, e1, e2, -⟩ := idx_facts3 t
  unfold iblk3
  rw [View.read_apply]
  show V c main_v20 _ = V c main_v20 _
  congr 1
  funext a
  apply Fin.ext
  match a with
  | ⟨0, _⟩ => show win3_2.index t (0 : Fin 3) * 1 + 1 * 0 = h.val; omega
  | ⟨1, _⟩ => show win3_2.index t (1 : Fin 3) * 1024 + 1 * u.val = 1024 * ti.val + u.val; omega
  | ⟨2, _⟩ => show win3_2.index t (2 : Fin 3) * 64 + 1 * j.val = j.val; omega

/-- After a head's last point the output block holds: the accumulator — zero, plus the first point's contribution, plus
    this point's — rounded. -/
theorem out_odd (c : Dev nD) (t : Fin cfg3.N) (h1 : t.val % 2 = 1) :
    (outsAt3 V c t.val t.isLt).1
      = k3_pay2 (k3_pay1 (k3_pay1 (k3_pay3 (F := Ideal)) (k3_pay4 (grid3.coords (prev t)) (iblk3 V c 0 (prev t)) (iblk3 V c 1 (prev t)) (iblk3 V c 2 (prev t))))
          (k3_pay4 (grid3.coords t) (iblk3 V c 0 t) (iblk3 V c 1 t) (iblk3 V c 2 t))) := by
  have h0 : ¬ t.val % 2 = 0 := by omega
  have hp0 : (prev t).val % 2 = 0 := by show (t.val - 1) % 2 = 0; omega
  have hp1 : ¬ (prev t).val % 2 = 1 := by show ¬ (t.val - 1) % 2 = 1; omega
  have hA : outsAt3 V c (t.val - 1) (Nat.lt_of_le_of_lt (Nat.sub_le _ _) t.isLt) = _ := outsAt3_A V c (prev t) hp0 hp1
  rw [outsAt3_B V c t h0 h1]
  dsimp only
  rw [out_B, hA]
  dsimp only
  rw [sout_A]

/-- What a head's last point writes back is the head's block of the whole-array result. -/
theorem flushed3_eq (c : Dev nD) (t : Fin cfg3.N) (hf : (cfg3.win 3).flush t = true) :
    (dat3 (F := Ideal) V c).flushed 3 t
      = ((cfg3.win 3).blk t).view.read (Elt Ideal) (attn3H (V c main_v16) (V c main_v18) (V c main_v20)) := by
  have h1 : t.val % 2 = 1 := (flush3_3 t).mp hf
  have hN : cfg3.N = 32 := N_3
  have hh : t.val / 2 < 16 := by have := t.isLt; omega
  show (cfg3.win 3).cut (grid3.coords t) ((dat3 V c).after 3 t) = _
  rw [after3_3, out_odd V c t h1]
  obtain ⟨-, -, -, -, -, -, -, -, -, e0, e1, e2, ec⟩ := idx_facts3 t
  obtain ⟨-, -, -, -, -, -, -, -, -, -, -, -, ec'⟩ := idx_facts3 (prev t)
  funext y
  rw [View.read_apply]
  obtain ⟨z, s, e, rfl⟩ : ∃ (z : Fin 1) (s : Fin 2048) (e : Fin 64), y = ix3 z s e := ⟨y 0, y 1, y 2, eq_ix3 y⟩
  refine (block3_eq (V c main_v16) (V c main_v18) (V c main_v20) ⟨t.val / 2, hh⟩ _ _ _ _ _ _
    (fun s j => iblk3_0_apply V c (prev t) _ (by show t.val / 2 = (t.val - 1) / 2; omega) s j)
    (fun s j => iblk3_0_apply V c t _ rfl s j)
    (fun u j => iblk3_1_apply V c (prev t) _ (by show t.val / 2 = (t.val - 1) / 2; omega) 0 (by show 0 = (t.val - 1) % 2; omega) u j)
    (fun u j => iblk3_2_apply V c (prev t) _ (by show t.val / 2 = (t.val - 1) / 2; omega) 0 (by show 0 = (t.val - 1) % 2; omega) u j)
    (fun u j => iblk3_1_apply V c t _ rfl 1 (by show 1 = t.val % 2; omega) u j)
    (fun u j => iblk3_2_apply V c t _ rfl 1 (by show 1 = t.val % 2; omega) u j)
    (grid3.coords (prev t)) (grid3.coords t) (by rw [ec']; show (t.val - 1) % 2 = 0; omega) (by rw [ec]; exact h1) z s e).trans ?_
  refine congrArg (attn3H (V c main_v16) (V c main_v18) (V c main_v20)) (funext fun a => Fin.ext ?_)
  match a with
  | ⟨0, _⟩ => show t.val / 2 = win3_3.index t (0 : Fin 3) * 1 + 1 * z.val; omega
  | ⟨1, _⟩ => show s.val = win3_3.index t (1 : Fin 3) * 2048 + 1 * s.val; omega
  | ⟨2, _⟩ => show e.val = win3_3.index t (2 : Fin 3) * 64 + 1 * e.val; omega

theorem mem_blk3 (t : Fin cfg3.N) (i : S16x2048x64.Idx) :
    i ∈ ((cfg3.win 3).blk t).view.set ↔ ∀ a : Fin 3, win3_3.index t a * S1x2048x64.size a ≤ (i a).val ∧ (i a).val < win3_3.index t a * S1x2048x64.size a + S1x2048x64.size a := by
  show i ∈ ((View.whole main_v21).slice (win3_3.rect t)).set ↔ _
  rw [View.set_slice_whole, Rect.mem_set_unit]
  exact Iff.rfl

/-- The flushed blocks tile the output array: head `h` is written back at point `2·h + 1`. -/
theorem cover3 (i : S16x2048x64.Idx) :
    ∃ t : Fin cfg3.N, (cfg3.win 3).flush t = true ∧ i ∈ ((cfg3.win 3).blk t).view.set := by
  have hN : cfg3.N = 32 := N_3
  have hi0 : (i 0).val < 16 := (i 0).isLt
  have hi1 : (i 1).val < 2048 := (i 1).isLt
  have hi2 : (i 2).val < 64 := (i 2).isLt
  refine ⟨⟨2 * (i 0).val + 1, by rw [hN]; omega⟩, (flush3_3 _).mpr (by show (2 * (i 0).val + 1) % 2 = 1; omega), ?_⟩
  rw [mem_blk3]
  obtain ⟨-, -, -, -, -, -, -, -, -, e0, e1, e2, -⟩ := idx_facts3 ⟨2 * (i 0).val + 1, by rw [hN]; omega⟩
  intro a
  match a with
  | ⟨0, _⟩ =>
    show win3_3.index _ (0 : Fin 3) * 1 ≤ (i 0).val ∧ (i 0).val < win3_3.index _ (0 : Fin 3) * 1 + 1
    rw [e0]; show (2 * (i 0).val + 1) / 2 * 1 ≤ (i 0).val ∧ (i 0).val < (2 * (i 0).val + 1) / 2 * 1 + 1; omega
  | ⟨1, _⟩ =>
    show win3_3.index _ (1 : Fin 3) * 2048 ≤ (i 1).val ∧ (i 1).val < win3_3.index _ (1 : Fin 3) * 2048 + 2048
    rw [e1]; omega
  | ⟨2, _⟩ =>
    show win3_3.index _ (2 : Fin 3) * 64 ≤ (i 2).val ∧ (i 2).val < win3_3.index _ (2 : Fin 3) * 64 + 64
    rw [e2]; omega

/-- The output array after the region: every head's result. -/
theorem arrAt3 (c : Dev nD) :
    (dat3 (F := Ideal) V c).arrAt 3 cfg3.N = attn3H (V c main_v16) (V c main_v18) (V c main_v20) :=
  (dat3 (F := Ideal) V c).arrAt_eq_of_cover 3 (attn3H (V c main_v16) (V c main_v18) (V c main_v20)) (fun t hf => flushed3_eq V c t hf) cover3

end

end Cert.KernelIdeal.Hand

end
-- ==== Proof.KI.V4.lean ====
/-
  Region 4 of the program read as a value at the extended reals: the body's payload at a block index is the row of the
  activation block against the row of the weights, summed over the shared axis, plus the bias entry; each grid point writes
  back its block of rows; the blocks tile the output array, which therefore ends as one function of the three input arrays.
-/
import proofs.«137196_j32049045963121_2_alg».proof.Proof.KI.R4
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

/-- The left operand's index at output index `i` and contraction index `q`: row `i 0`, column `q`. -/
theorem lhs4_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhs4_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
/-- The right operand's: row `i 1`, column `q` (both operands are contracted on their second axis). -/
theorem rhs4_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhs4_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The product into the zero accumulator, at row `p`, column `j`: the sum over the shared axis. -/
theorem matmul4_apply (x0 : FVec Ideal S512x1024 .bf16) (x1 : FVec Ideal S1024x1024 .bf16) (p : Fin 512) (j : Fin 1024) :
    matmul (F := Ideal) (φ₁ := .bf16) (φ₂ := .bf16) dot_S512x1024_S1024x1024_S512x1024_1_1_0_0_n_n none x0 x1 (constant (F := Ideal) S512x1024 .f32 0x00000000#32) (ix2 p j)
      = ∑ d : Fin 1024, x0 (ix2 p d) * x1 (ix2 j d) := by
  refine (Ideal.matmul_constant_zero_apply dot_S512x1024_S1024x1024_S512x1024_1_1_0_0_n_n none x0 x1 (ix2 p j)).trans ?_
  rw [← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 p j) ((contrEquiv1 dot_S512x1024_S1024x1024_S512x1024_1_1_0_0_n_n 1024 rfl rfl).symm k) = ix2 p k := funext fun a => Fin.ext (by
    match a with
    | ⟨0, _⟩ => exact lhs4_0 _ _
    | ⟨1, _⟩ => exact (lhs4_1 _ _).trans hk)
  have er : dot_S512x1024_S1024x1024_S512x1024_1_1_0_0_n_n.rhsIdx (ix2 p j) ((contrEquiv1 dot_S512x1024_S1024x1024_S512x1024_1_1_0_0_n_n 1024 rfl rfl).symm k) = ix2 j k := funext fun a => Fin.ext (by
    match a with
    | ⟨0, _⟩ => exact rhs4_0 _ _
    | ⟨1, _⟩ => exact (rhs4_1 _ _).trans hk)
  rw [el, er]

/-- The body's payload at row `p`, column `j` of the block: the dot product of row `p` of the activations with row `j`
    of the weights, plus entry `j` of the bias. -/
theorem pay4_apply (x0 : Vec Ideal S512x1024 .bf16) (x1 : Vec Ideal S1024x1024 .bf16) (x2 : Vec Ideal S1024 .f32)
    (p : Fin 512) (j : Fin 1024) :
    k4_pay1 (F := Ideal) x0 x1 x2 (ix2 p j) = (∑ d : Fin 1024, x0 (ix2 p d) * x1 (ix2 j d)) + x2 (ix1 j) := by
  unfold k4_pay1
  simp only [shapeCast_self]
  show matmul (F := Ideal) (φ₁ := .bf16) (φ₂ := .bf16) dot_S512x1024_S1024x1024_S512x1024_1_1_0_0_n_n none x0 x1 (constant (F := Ideal) S512x1024 .f32 0x00000000#32) (ix2 p j)
      + broadcastTo S512x1024 (shapeCast S1x1024 x2 shapeCasts_S1024_S1x1024) broadcasts_S1x1024_S512x1024 (ix2 p j) = _
  rw [matmul4_apply, broadcastTo_1b_ab_apply, shapeCast_a_1a_apply]

/-- The dense layer of an activation array, a weight array and a bias, entry by entry. -/
abbrev dense4 (X : S2048x1024.Idx → EReal) (W : S1024x1024.Idx → EReal) (b : S1024.Idx → EReal) : S2048x1024.Idx → EReal :=
  fun i => (∑ d : Fin 1024, X (ix2 (i 0) d) * W (ix2 (i 1) d)) + b (ix1 (i 1))

theorem zero2_4 : (![0, 0] : Fin 2 → Nat) = fun _ => 0 := funext fun a => by fin_cases a <;> rfl
theorem zero1_4 : (![0] : Fin 1 → Nat) = fun _ => 0 := funext fun a => by fin_cases a <;> rfl

/-- The body's one store through the whole block leaves its payload of the loaded blocks. -/
theorem out4_3_eq (x0 : Vec Ideal S512x1024 .bf16) (x1 : Vec Ideal S1024x1024 .bf16) (x2 : Vec Ideal S1024 .f32) :
    out4_3 (F := Ideal) x0 x1 x2 = k4_pay1 (F := Ideal) x0 x1 x2 := by
  unfold out4_3
  rw [View.canon_unit_zero zero2_4, View.ld_unit_zero (S := S512x1024) zero2_4, View.ld_unit_zero (S := S1024x1024) zero2_4,
    View.ld_unit_zero (S := S1024) zero1_4]

/-- A block's entry is the dense layer's at the array index `k`, when the three loaded blocks are the arrays' rows there. -/
theorem block4_eq (X : S2048x1024.Idx → EReal) (W : S1024x1024.Idx → EReal) (b : S1024.Idx → EReal)
    (x0 : Vec Ideal S512x1024 .bf16) (x1 : Vec Ideal S1024x1024 .bf16) (x2 : Vec Ideal S1024 .f32)
    (y : S512x1024.Idx) (k : S2048x1024.Idx)
    (h0 : ∀ d : Fin 1024, x0 (ix2 (y 0) d) = X (ix2 (k 0) d))
    (h1 : ∀ d : Fin 1024, x1 (ix2 (y 1) d) = W (ix2 (k 1) d))
    (h2 : x2 (ix1 (y 1)) = b (ix1 (k 1))) :
    out4_3 (F := Ideal) x0 x1 x2 y = dense4 X W b k := by
  rw [out4_3_eq]
  refine (congrArg (k4_pay1 (F := Ideal) x0 x1 x2) (eq_ix2 y)).trans ?_
  refine (pay4_apply x0 x1 x2 (y 0) (y 1)).trans ?_
  show _ = (∑ d : Fin 1024, X (ix2 (k 0) d) * W (ix2 (k 1) d)) + b (ix1 (k 1))
  rw [h2]
  refine congrArg (· + b (ix1 (k 1))) (Finset.sum_congr rfl fun d _ => ?_)
  rw [h0 d, h1 d]

/-- The index maps at every grid point: the activations' and the output's block index is the point on the row
    axis and zero on the column axis; the weights and the bias stay at block zero. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = t.val ∧ win4_3.index t (1 : Fin 2) = 0 :=
  (by decide +kernel : ∀ t : Fin grid4.N, _)

section
variable (V : (c : Dev nD) → (b : Ref sig .tc) → Buf (Elt Ideal) ((c : Thread nD τ).loc b))

/-- The activations' block at point `t` is rows `512·t …` of the array. -/
theorem iblk4_0_apply (c : Dev nD) (t : Fin cfg4.N) (x : S512x1024.Idx) (k : S2048x1024.Idx)
    (hk0 : (k 0).val = t.val * 512 + (x 0).val) (hk1 : (k 1).val = (x 1).val) :
    (iblk4 V c 0 t : Vec Ideal S512x1024 .bf16) x = (V c main_v23 : S2048x1024.Idx → Elt Ideal .bf16) k := by
  obtain ⟨e0, e1, -, -, -, -, -⟩ := idx_facts4 t
  unfold iblk4
  rw [View.read_apply]
  show V c main_v23 _ = V c main_v23 _
  congr 1
  funext a
  apply Fin.ext
  match a with
  | ⟨0, _⟩ => show win4_0.index t (0 : Fin 2) * 512 + 1 * (x 0).val = (k 0).val; omega
  | ⟨1, _⟩ => show win4_0.index t (1 : Fin 2) * 1024 + 1 * (x 1).val = (k 1).val; omega

/-- The weights' block at every point is the whole array. -/
theorem iblk4_1_apply (c : Dev nD) (t : Fin cfg4.N) (x : S1024x1024.Idx) :
    (iblk4 V c 1 t : Vec Ideal S1024x1024 .bf16) x = (V c main_v24 : S1024x1024.Idx → Elt Ideal .bf16) x := by
  obtain ⟨-, -, e0, e1, -, -, -⟩ := idx_facts4 t
  unfold iblk4
  rw [View.read_apply]
  show V c main_v24 _ = V c main_v24 _
  congr 1
  funext a
  apply Fin.ext
  match a with
  | ⟨0, _⟩ => show win4_1.index t (0 : Fin 2) * 1024 + 1 * (x 0).val = (x 0).val; omega
  | ⟨1, _⟩ => show win4_1.index t (1 : Fin 2) * 1024 + 1 * (x 1).val = (x 1).val; omega

/-- The bias's block at every point is the whole array. -/
theorem iblk4_2_apply (c : Dev nD) (t : Fin cfg4.N) (x : S1024.Idx) :
    (iblk4 V c 2 t : Vec Ideal S1024 .f32) x = (V c main_arg10 : S1024.Idx → Elt Ideal .f32) x := by
  obtain ⟨-, -, -, -, e0, -, -⟩ := idx_facts4 t
  unfold iblk4
  rw [View.read_apply]
  show V c main_arg10 _ = V c main_arg10 _
  congr 1
  funext a
  apply Fin.ext
  match a with
  | ⟨0, _⟩ => show win4_2.index t (0 : Fin 1) * 1024 + 1 * (x 0).val = (x 0).val; omega

/-- What point `t` writes back is block `t` of the dense layer of the three arrays as the region finds them. -/
theorem flushed4_eq (c : Dev nD) (t : Fin cfg4.N) :
    (dat4 (F := Ideal) V c).flushed 3 t
      = ((cfg4.win 3).blk t).view.read (Elt Ideal) (dense4 (V c main_v23) (V c main_v24) (V c main_arg10)) := by
  show (cfg4.win 3).cut (grid4.coords t) ((dat4 V c).after 3 t) = _
  rw [after4_3]
  obtain ⟨-, -, -, -, -, e0, e1⟩ := idx_facts4 t
  funext y
  rw [View.read_apply]
  refine block4_eq (V c main_v23) (V c main_v24) (V c main_arg10) (iblk4 V c 0 t) (iblk4 V c 1 t) (iblk4 V c 2 t) _ _ (fun d => ?_) (fun d => ?_) ?_
  · refine iblk4_0_apply V c t _ _ ?_ ?_
    · show win4_3.index t (0 : Fin 2) * 512 + 1 * (y 0).val = t.val * 512 + (y 0).val; omega
    · rfl
  · refine (iblk4_1_apply V c t _).trans (congrArg (V c main_v24 : S1024x1024.Idx → Elt Ideal .bf16) (funext fun a => Fin.ext ?_))
    match a with
    | ⟨0, _⟩ => show (y 1).val = win4_3.index t (1 : Fin 2) * 1024 + 1 * (y 1).val; omega
    | ⟨1, _⟩ => rfl
  · refine (iblk4_2_apply V c t _).trans (congrArg (V c main_arg10 : S1024.Idx → Elt Ideal .f32) (funext fun a => Fin.ext ?_))
    match a with
    | ⟨0, _⟩ => show (y 1).val = win4_3.index t (1 : Fin 2) * 1024 + 1 * (y 1).val; omega

/-- An index of the output array is in point `t`'s block iff each coordinate is in the block's range on its axis. -/
theorem mem_blk4 (t : Fin cfg4.N) (i : S2048x1024.Idx) :
    i ∈ ((cfg4.win 3).blk t).view.set ↔ ∀ a : Fin 2, win4_3.index t a * S512x1024.size a ≤ (i a).val ∧ (i a).val < win4_3.index t a * S512x1024.size a + S512x1024.size a := by
  show i ∈ ((View.whole main_v25).slice (win4_3.rect t)).set ↔ _
  rw [View.set_slice_whole, Rect.mem_set_unit]
  exact Iff.rfl

/-- The blocks tile the output array: row `r` is in the block of point `r / 512`. -/
theorem cover4 (i : S2048x1024.Idx) :
    ∃ t : Fin cfg4.N, (cfg4.win 3).flush t = true ∧ i ∈ ((cfg4.win 3).blk t).view.set := by
  have hN : cfg4.N = 4 := N_4
  have hi0 : (i 0).val < 2048 := (i 0).isLt
  have hi1 : (i 1).val < 1024 := (i 1).isLt
  refine ⟨⟨(i 0).val / 512, by rw [hN]; omega⟩, flush4_3 _, ?_⟩
  rw [mem_blk4]
  obtain ⟨-, -, -, -, -, e0, e1⟩ := idx_facts4 ⟨(i 0).val / 512, by rw [hN]; omega⟩
  intro a
  match a with
  | ⟨0, _⟩ =>
    show win4_3.index _ (0 : Fin 2) * 512 ≤ (i 0).val ∧ (i 0).val < win4_3.index _ (0 : Fin 2) * 512 + 512
    rw [e0]; show (i 0).val / 512 * 512 ≤ (i 0).val ∧ (i 0).val < (i 0).val / 512 * 512 + 512; omega
  | ⟨1, _⟩ =>
    show win4_3.index _ (1 : Fin 2) * 1024 ≤ (i 1).val ∧ (i 1).val < win4_3.index _ (1 : Fin 2) * 1024 + 1024
    rw [e1]; omega

/-- The output array after the region: the dense layer of the three input arrays as the region finds them. -/
theorem arrAt4 (c : Dev nD) :
    (dat4 (F := Ideal) V c).arrAt 3 cfg4.N
      = dense4 (V c main_v23) (V c main_v24) (V c main_arg10) :=
  (dat4 (F := Ideal) V c).arrAt_eq_of_cover 3 (dense4 (V c main_v23) (V c main_v24) (V c main_arg10)) (fun t _ => flushed4_eq V c t) cover4

end

end Cert.KernelIdeal.Hand

end
-- ==== Proof.Compose.lean ====
/-
  The kernel's five stages composed. The kernel computes the queries, keys and values by three dense layers over all
  1024 features at once (weight row j = 64·h + k is head h's row k), regroups them by head, applies the tiled attention
  per head, lays the heads' results side by side again (feature x is head x / 64's coordinate x % 64) and applies the
  dense output layer. Head by head a dense layer's columns 64·h … 64·h + 63 are the head's projection `proj`, because
  (64·h + k) / 64 = h and (64·h + k) % 64 = k; the output layer then matches `kernelOut` term by term.
-/
import proofs.«137196_j32049045963121_2_alg».proof.Proof.Spec

noncomputable section

open scoped BigOperators

namespace Cert.Spec

open Idealize.ShloMosaic Idealize.ShloMosaic.ValueIdx

/-- Feature `j`'s head, and its coordinate inside the head. -/
abbrev hd (j : Fin 1024) : Fin 16 := ⟨j.val / 64, by have := j.isLt; omega⟩
abbrev lo (j : Fin 1024) : Fin 64 := ⟨j.val % 64, Nat.mod_lt _ (by decide)⟩

/-- A dense layer over the 1024 features: `dense X W b (s, j) = Σ_d X[s,d]·W[j,d] + b[j]`. -/
abbrev dense (X : (⟨2, ![2048, 1024]⟩ : Shape).Idx → EReal) (W : (⟨2, ![1024, 1024]⟩ : Shape).Idx → EReal) (b : (⟨1, ![1024]⟩ : Shape).Idx → EReal) : (⟨2, ![2048, 1024]⟩ : Shape).Idx → EReal :=
  fun i => (∑ d : Fin 1024, X (ix2 (i 0) d) * W (ix2 (i 1) d)) + b (ix1 (i 1))

/-- The kernel's attention of every head, over arrays indexed (head, token, coordinate). -/
abbrev attn3 (Qh Kh Vh : (⟨3, ![16, 2048, 64]⟩ : Shape).Idx → EReal) : (⟨3, ![16, 2048, 64]⟩ : Shape).Idx → EReal :=
  fun i => kAttn (fun s j => Qh (ix3 (i 0) s j)) (fun t j => Kh (ix3 (i 0) t j)) (fun t e => Vh (ix3 (i 0) t e)) (i 1) (i 2)

/-- Columns 64·h … 64·h + 63 of a dense layer whose weight row j is the head-wise weights' row (j / 64, j % 64), and
    whose bias likewise, are head `h`'s projection. -/
theorem dense_head (x : (⟨2, ![2048, 1024]⟩ : Shape).Idx → EReal) (w : (⟨3, ![16, 64, 1024]⟩ : Shape).Idx → EReal) (b : (⟨2, ![16, 64]⟩ : Shape).Idx → EReal) (W : (⟨2, ![1024, 1024]⟩ : Shape).Idx → EReal) (B : (⟨1, ![1024]⟩ : Shape).Idx → EReal)
    (hW : ∀ (j d : Fin 1024), W (ix2 j d) = w (ix3 (hd j) (lo j) d)) (hB : ∀ j : Fin 1024, B (ix1 j) = b (ix2 (hd j) (lo j)))
    (Y : (⟨3, ![16, 2048, 64]⟩ : Shape).Idx → EReal)
    (hY : ∀ (h : Fin 16) (s : Fin 2048) (k : Fin 64), Y (ix3 h s k) = dense x W B (ix2 s ⟨64 * h.val + k.val, by have := h.isLt; have := k.isLt; omega⟩))
    (h : Fin 16) :
    (fun s k => Y (ix3 h s k)) = proj (fun s d => x (ix2 s d)) (fun k d => w (ix3 h k d)) (fun k => b (ix2 h k)) := by
  funext s k
  have hk := k.isLt
  have hh := h.isLt
  obtain ⟨j, hj⟩ : ∃ j : Fin 1024, j = ⟨64 * h.val + k.val, by omega⟩ := ⟨_, rfl⟩
  have e1 : hd j = h := by subst hj; exact Fin.ext (by show (64 * h.val + k.val) / 64 = h.val; omega)
  have e2 : lo j = k := by subst hj; exact Fin.ext (by show (64 * h.val + k.val) % 64 = k.val; omega)
  show Y (ix3 h s k) = (∑ d : Fin 1024, x (ix2 s d) * w (ix3 h k d)) + b (ix2 h k)
  rw [hY h s k, ← hj]
  show (∑ d : Fin 1024, x (ix2 s d) * W (ix2 j d)) + B (ix1 j) = (∑ d : Fin 1024, x (ix2 s d) * w (ix3 h k d)) + b (ix2 h k)
  rw [hB j, e1, e2]
  refine congrArg (· + b (ix2 h k)) (Finset.sum_congr rfl fun d _ => ?_)
  rw [hW j d, e1, e2]

/-- The tiled attention of equal queries, keys and values is equal. -/
theorem kAttn_congr {q q' k k' v v' : Fin 2048 → Fin 64 → EReal} (hq : q = q') (hk : k = k') (hv : v = v')
    (s : Fin 2048) (e : Fin 64) : kAttn q k v s e = kAttn q' k' v' s e := by
  subst hq hk hv; rfl

/-- The five stages composed are the specification's `kernelOut`. -/
theorem compose (x0 x1 x2 : (⟨2, ![2048, 1024]⟩ : Shape).Idx → EReal) (w3 w5 w7 : (⟨3, ![16, 64, 1024]⟩ : Shape).Idx → EReal) (b4 b6 b8 : (⟨2, ![16, 64]⟩ : Shape).Idx → EReal)
    (w9 : (⟨2, ![1024, 1024]⟩ : Shape).Idx → EReal) (b10 : (⟨1, ![1024]⟩ : Shape).Idx → EReal)
    (W1 W3 W5 : (⟨2, ![1024, 1024]⟩ : Shape).Idx → EReal) (B6 B7 B8 : (⟨1, ![1024]⟩ : Shape).Idx → EReal)
    (hW1 : ∀ (j d : Fin 1024), W1 (ix2 j d) = w3 (ix3 (hd j) (lo j) d)) (hB6 : ∀ j : Fin 1024, B6 (ix1 j) = b4 (ix2 (hd j) (lo j)))
    (hW3 : ∀ (j d : Fin 1024), W3 (ix2 j d) = w5 (ix3 (hd j) (lo j) d)) (hB7 : ∀ j : Fin 1024, B7 (ix1 j) = b6 (ix2 (hd j) (lo j)))
    (hW5 : ∀ (j d : Fin 1024), W5 (ix2 j d) = w7 (ix3 (hd j) (lo j) d)) (hB8 : ∀ j : Fin 1024, B8 (ix1 j) = b8 (ix2 (hd j) (lo j)))
    (Q16 K18 V20 : (⟨3, ![16, 2048, 64]⟩ : Shape).Idx → EReal)
    (hQ : ∀ (h : Fin 16) (s : Fin 2048) (k : Fin 64), Q16 (ix3 h s k) = dense x0 W1 B6 (ix2 s ⟨64 * h.val + k.val, by have := h.isLt; have := k.isLt; omega⟩))
    (hK : ∀ (h : Fin 16) (s : Fin 2048) (k : Fin 64), K18 (ix3 h s k) = dense x1 W3 B7 (ix2 s ⟨64 * h.val + k.val, by have := h.isLt; have := k.isLt; omega⟩))
    (hV : ∀ (h : Fin 16) (s : Fin 2048) (k : Fin 64), V20 (ix3 h s k) = dense x2 W5 B8 (ix2 s ⟨64 * h.val + k.val, by have := h.isLt; have := k.isLt; omega⟩))
    (Z23 : (⟨2, ![2048, 1024]⟩ : Shape).Idx → EReal)
    (hZ : ∀ (s : Fin 2048) (x : Fin 1024), Z23 (ix2 s x) = attn3 Q16 K18 V20 (ix3 (hd x) s (lo x))) :
    dense Z23 w9 b10 = fun i => kernelOut (mkArgs x0 x1 x2 w3 b4 w5 b6 w7 b8 w9 b10) (i 0) (i 1) := by
  have hq : ∀ h : Fin 16, (fun s k => Q16 (ix3 h s k)) = (mkArgs x0 x1 x2 w3 b4 w5 b6 w7 b8 w9 b10).qh h :=
    fun h => dense_head x0 w3 b4 W1 B6 hW1 hB6 Q16 hQ h
  have hk : ∀ h : Fin 16, (fun s k => K18 (ix3 h s k)) = (mkArgs x0 x1 x2 w3 b4 w5 b6 w7 b8 w9 b10).kh h :=
    fun h => dense_head x1 w5 b6 W3 B7 hW3 hB7 K18 hK h
  have hv : ∀ h : Fin 16, (fun s k => V20 (ix3 h s k)) = (mkArgs x0 x1 x2 w3 b4 w5 b6 w7 b8 w9 b10).vh h :=
    fun h => dense_head x2 w7 b8 W5 B8 hW5 hB8 V20 hV h
  funext i
  obtain ⟨s, j, rfl⟩ : ∃ (s : Fin 2048) (j : Fin 1024), i = ix2 s j := ⟨i 0, i 1, eq_ix2 i⟩
  show (∑ x : Fin 1024, Z23 (ix2 s x) * w9 (ix2 j x)) + b10 (ix1 j)
    = (∑ x : Fin 1024, kAttn ((mkArgs x0 x1 x2 w3 b4 w5 b6 w7 b8 w9 b10).qh (hd x)) ((mkArgs x0 x1 x2 w3 b4 w5 b6 w7 b8 w9 b10).kh (hd x)) ((mkArgs x0 x1 x2 w3 b4 w5 b6 w7 b8 w9 b10).vh (hd x)) s (lo x) * w9 (ix2 j x)) + b10 (ix1 j)
  refine congrArg (· + b10 (ix1 j)) (Finset.sum_congr rfl fun x _ => ?_)
  exact congrArg (· * w9 (ix2 j x)) ((hZ s x).trans (kAttn_congr (hq (hd x)) (hk (hd x)) (hv (hd x)) s (lo x)))

end Cert.Spec

end
-- ==== Proof.KI.Value.lean ====
/-
  The kernel's result as a value at the extended reals: the five regions' results and the host operations between them,
  composed, are the specification's `kernelOut` of the eleven argument arrays.
-/
import proofs.«137196_j32049045963121_2_alg».proof.Proof.KI.Host
import proofs.«137196_j32049045963121_2_alg».proof.Proof.KI.V0
import proofs.«137196_j32049045963121_2_alg».proof.Proof.KI.V1
import proofs.«137196_j32049045963121_2_alg».proof.Proof.KI.V2
import proofs.«137196_j32049045963121_2_alg».proof.Proof.KI.V3c
import proofs.«137196_j32049045963121_2_alg».proof.Proof.KI.V4
import proofs.«137196_j32049045963121_2_alg».proof.Proof.Compose

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)
open scoped BigOperators

variable {F : FTy → Type} [FloatOps F]

variable (m : (ℓ : Loc nD τ sig) → Buf (Elt Ideal) ℓ) (ρ : Dev nD → PrngReg)

/-- Head `h`'s queries as region 3 finds them are region 0's dense layer of the tokens. -/
theorem q_heads (c : Dev nD) (h : Fin 16) (s : Fin 2048) (k : Fin 64) :
    T7 m ρ c main_v16 (ix3 h s k)
      = Spec.dense (m ((c.tc : Thread nD τ).loc main_arg0)) (T1 m ρ c main_v1) (T1 m ρ c main_v6) (ix2 s ⟨64 * h.val + k.val, by have := h.isLt; have := k.isLt; omega⟩) := by
  rw [T7_main_v16 m ρ c h s k, arrAt0 (T1 m ρ) c, T1_main_v9 m ρ c]
theorem k_heads (c : Dev nD) (h : Fin 16) (s : Fin 2048) (k : Fin 64) :
    T7 m ρ c main_v18 (ix3 h s k)
      = Spec.dense (m ((c.tc : Thread nD τ).loc main_arg1)) (T3 m ρ c main_v3) (T3 m ρ c main_v7) (ix2 s ⟨64 * h.val + k.val, by have := h.isLt; have := k.isLt; omega⟩) := by
  rw [T7_main_v18 m ρ c h s k, arrAt1 (T3 m ρ) c, T3_main_v11 m ρ c]
theorem v_heads (c : Dev nD) (h : Fin 16) (s : Fin 2048) (k : Fin 64) :
    T7 m ρ c main_v20 (ix3 h s k)
      = Spec.dense (m ((c.tc : Thread nD τ).loc main_arg2)) (T5 m ρ c main_v5) (T5 m ρ c main_v8) (ix2 s ⟨64 * h.val + k.val, by have := h.isLt; have := k.isLt; omega⟩) := by
  rw [T7_main_v20 m ρ c h s k, arrAt2 (T5 m ρ) c, T5_main_v13 m ρ c]

/-- The output layer's activations are the heads' results laid side by side. -/
theorem z_concat (c : Dev nD) (s : Fin 2048) (x : Fin 1024) :
    T9 m ρ c main_v23 (ix2 s x)
      = Spec.attn3 (T7 m ρ c main_v16) (T7 m ρ c main_v18) (T7 m ρ c main_v20) (ix3 (Spec.hd x) s (Spec.lo x)) := by
  rw [T9_main_v23 m ρ c s x, arrAt3 (T7 m ρ) c]

/-- The result array after the last region. -/
theorem kernel_value (c : Dev nD) :
    (dat4 (F := Ideal) (T9 m ρ) c).arrAt 3 cfg4.N
      = fun i => Spec.kernelOut (Spec.mkArgs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (i 0) (i 1) := by
  rw [arrAt4 (T9 m ρ) c, T9_main_v24 m ρ c, T9_main_arg10 m ρ c]
  exact Spec.compose (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg7)) (m ((c.tc : Thread nD τ).loc main_arg4)) (m ((c.tc : Thread nD τ).loc main_arg6)) (m ((c.tc : Thread nD τ).loc main_arg8)) (m ((c.tc : Thread nD τ).loc main_arg9)) (m ((c.tc : Thread nD τ).loc main_arg10))
    (T1 m ρ c main_v1) (T3 m ρ c main_v3) (T5 m ρ c main_v5) (T1 m ρ c main_v6) (T3 m ρ c main_v7) (T5 m ρ c main_v8)
    (T1_main_v1 m ρ c) (T1_main_v6 m ρ c) (T3_main_v3 m ρ c) (T3_main_v7 m ρ c) (T5_main_v5 m ρ c) (T5_main_v8 m ρ c)
    (T7 m ρ c main_v16) (T7 m ρ c main_v18) (T7 m ρ c main_v20) (q_heads m ρ c) (k_heads m ρ c) (v_heads m ρ c)
    (T9 m ρ c main_v23) (z_concat m ρ c)

end Cert.KernelIdeal.Hand

end
-- ==== Proof.RefValueMask.lean ====
/-
  The causal mask's condition, and the two special words of the log-softmax.

  The reference compares two index tables as signed 32-bit words: at (s, t) the word of s + 0 against the word of t,
  both naturals below 2048. The signed reading of so small a word is the natural itself, so "greater or equal" holds
  exactly when t ≤ s. The word 0xFF800000 is −∞, the neutral element of the maximum.
-/
import Idealize.ShloMosaic.PureOps.Ideal
import Idealize.ShloMosaic.PureOps.Ideal.Laws
import Idealize.ShloMosaic.Lib.ValueIdx

namespace Cert.ReferenceIdeal.RefValue

open Idealize.ShloMosaic

/-- The signed reading of the 32-bit word of a natural below 2048 is that natural. -/
theorem toInt_small (n : Nat) (hn : n < 2048) : (BitVec.ofNat 32 n).toInt = (n : Int) := by
  rw [BitVec.toInt_eq_toNat_cond, BitVec.toNat_ofNat]
  have : n % 2 ^ 32 = n := Nat.mod_eq_of_lt (by omega)
  rw [this]
  split
  · rfl
  · omega

/-- The signed comparison "s + 0 ≥ t" of the words of two naturals below 2048 is the bit of "t ≤ s". -/
theorem sge_iota (s t : Nat) (hs : s < 2048) (ht : t < 2048) :
    IntOp.cmpi .sge (IntOp.addi (BitVec.ofNat 32 s) 0#32) (BitVec.ofNat 32 t) = if t ≤ s then 1#1 else 0#1 := by
  unfold IntOp.cmpi IntOp.addi
  simp only [BitVec.add_zero]
  unfold BitVec.sle
  rw [toInt_small s hs, toInt_small t ht]
  by_cases h : t ≤ s
  · rw [if_pos h]; simp [h]
  · rw [if_neg h]; simp [h]

/-- The word 0xFF800000 is −∞. -/
theorem ofBits_ninf : Ideal.ofBits .f32 0xFF800000#32 = ⊥ := by simp [Ideal.ofBits, Ideal.ieee]

end Cert.ReferenceIdeal.RefValue
-- ==== Proof.RefValueHeads.lean ====
/-
  The reference's queries, keys and values. Each is a contraction of a weight array [16, 64, 1024] with the token
  array [2048, 1024] over the 1024 features, transposed to [16, 2048, 64], plus the bias [16, 64] broadcast over
  the 2048 tokens: head `h`'s projection `Cert.Spec.proj` of the tokens.
-/
import proofs.«137196_j32049045963121_2_alg».proof.Proof.ReadP
import proofs.«137196_j32049045963121_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx Cert.Spec

/-- Head `h`'s projection of the token array `x` by the weight array `w` and the bias array `b`, by coordinates. -/
def headOf (x : (⟨2, ![2048, 1024]⟩ : Shape).Idx → EReal) (w : (⟨3, ![16, 64, 1024]⟩ : Shape).Idx → EReal)
    (b : (⟨2, ![16, 64]⟩ : Shape).Idx → EReal) (h : Fin 16) : Fin 2048 → Fin 64 → EReal :=
  proj (fun s d => x (ix2 s d)) (fun k d => w (ix3 h k d)) (fun k => b (ix2 h k))

/-- The reference's queries, read at head `h`, token `s`, coordinate `e`: the contraction of the weights' row (h, e) with
    the token's features (the reference has the weights on the left, the specification on the right: the product
    commutes), plus the bias's entry (h, e) broadcast over the tokens. -/
theorem q_read (x0 : (⟨S2048x1024, .f32⟩ : BufTy).Contents (Elt Ideal)) (x3 : (⟨S16x64x1024, .f32⟩ : BufTy).Contents (Elt Ideal)) (x4 : (⟨S16x64, .f32⟩ : BufTy).Contents (Elt Ideal))
    (h : Fin 16) (s : Fin 2048) (e : Fin 64) :
    val_main_v4 (F := Ideal) x0 x3 x4 (ix3 h s e) = headOf x0 x3 x4 h s e := by
  have el : ∀ d : Fin 1024, lidx_main_v0 (idx_main_v1 (ix3 h s e)) d = ix3 h e d := fun d => funext fun a => by
    match a with | ⟨0, _⟩ => rfl | ⟨1, _⟩ => rfl | ⟨2, _⟩ => rfl
  have er : ∀ d : Fin 1024, ridx_main_v0 (idx_main_v1 (ix3 h s e)) d = ix2 s d := fun d => funext fun a => by
    match a with | ⟨0, _⟩ => rfl | ⟨1, _⟩ => rfl
  have eb : idx_main_v2 (idx_main_v3 (ix3 h s e)) = ix2 h e := funext fun a => by
    match a with | ⟨0, _⟩ => rfl | ⟨1, _⟩ => rfl
  rw [val_main_v4_apply, val_main_v1_apply, val_main_v0_apply, val_main_v3_apply, val_main_v2_apply, eb, Ideal.addf_def]
  show _ = (∑ d : Fin 1024, x0 (ix2 s d) * x3 (ix3 h e d)) + x4 (ix2 h e)
  refine congrArg (· + x4 (ix2 h e)) (Finset.sum_congr rfl fun d _ => ?_)
  rw [el d, er d]
  exact mul_comm _ _

/-- The reference's keys, read at head `h`, token `s`, coordinate `e`: the contraction of the weights' row (h, e) with
    the token's features (the reference has the weights on the left, the specification on the right: the product
    commutes), plus the bias's entry (h, e) broadcast over the tokens. -/
theorem k_read (x1 : (⟨S2048x1024, .f32⟩ : BufTy).Contents (Elt Ideal)) (x5 : (⟨S16x64x1024, .f32⟩ : BufTy).Contents (Elt Ideal)) (x6 : (⟨S16x64, .f32⟩ : BufTy).Contents (Elt Ideal))
    (h : Fin 16) (s : Fin 2048) (e : Fin 64) :
    val_main_v9 (F := Ideal) x1 x5 x6 (ix3 h s e) = headOf x1 x5 x6 h s e := by
  have el : ∀ d : Fin 1024, lidx_main_v5 (idx_main_v6 (ix3 h s e)) d = ix3 h e d := fun d => funext fun a => by
    match a with | ⟨0, _⟩ => rfl | ⟨1, _⟩ => rfl | ⟨2, _⟩ => rfl
  have er : ∀ d : Fin 1024, ridx_main_v5 (idx_main_v6 (ix3 h s e)) d = ix2 s d := fun d => funext fun a => by
    match a with | ⟨0, _⟩ => rfl | ⟨1, _⟩ => rfl
  have eb : idx_main_v7 (idx_main_v8 (ix3 h s e)) = ix2 h e := funext fun a => by
    match a with | ⟨0, _⟩ => rfl | ⟨1, _⟩ => rfl
  rw [val_main_v9_apply, val_main_v6_apply, val_main_v5_apply, val_main_v8_apply, val_main_v7_apply, eb, Ideal.addf_def]
  show _ = (∑ d : Fin 1024, x1 (ix2 s d) * x5 (ix3 h e d)) + x6 (ix2 h e)
  refine congrArg (· + x6 (ix2 h e)) (Finset.sum_congr rfl fun d _ => ?_)
  rw [el d, er d]
  exact mul_comm _ _

/-- The reference's values, read at head `h`, token `s`, coordinate `e`: the contraction of the weights' row (h, e) with
    the token's features (the reference has the weights on the left, the specification on the right: the product
    commutes), plus the bias's entry (h, e) broadcast over the tokens. -/
theorem v_read (x2 : (⟨S2048x1024, .f32⟩ : BufTy).Contents (Elt Ideal)) (x7 : (⟨S16x64x1024, .f32⟩ : BufTy).Contents (Elt Ideal)) (x8 : (⟨S16x64, .f32⟩ : BufTy).Contents (Elt Ideal))
    (h : Fin 16) (s : Fin 2048) (e : Fin 64) :
    val_main_v14 (F := Ideal) x2 x7 x8 (ix3 h s e) = headOf x2 x7 x8 h s e := by
  have el : ∀ d : Fin 1024, lidx_main_v10 (idx_main_v11 (ix3 h s e)) d = ix3 h e d := fun d => funext fun a => by
    match a with | ⟨0, _⟩ => rfl | ⟨1, _⟩ => rfl | ⟨2, _⟩ => rfl
  have er : ∀ d : Fin 1024, ridx_main_v10 (idx_main_v11 (ix3 h s e)) d = ix2 s d := fun d => funext fun a => by
    match a with | ⟨0, _⟩ => rfl | ⟨1, _⟩ => rfl
  have eb : idx_main_v12 (idx_main_v13 (ix3 h s e)) = ix2 h e := funext fun a => by
    match a with | ⟨0, _⟩ => rfl | ⟨1, _⟩ => rfl
  rw [val_main_v14_apply, val_main_v11_apply, val_main_v10_apply, val_main_v13_apply, val_main_v12_apply, eb, Ideal.addf_def]
  show _ = (∑ d : Fin 1024, x2 (ix2 s d) * x7 (ix3 h e d)) + x8 (ix2 h e)
  refine congrArg (· + x8 (ix2 h e)) (Finset.sum_congr rfl fun d _ => ?_)
  rw [el d, er d]
  exact mul_comm _ _

end Cert.ReferenceIdeal.RefValue

end
-- ==== Proof.RefValueScores.lean ====
/-
  The reference's masked and scaled scores. Per head the raw scores are the contraction of a query with a key over
  the 64 coordinates; the lower-triangle selection keeps the score of (query s, key t) when t ≤ s and puts the word 0
  elsewhere; every entry is then divided by the word 8.
-/
import proofs.«137196_j32049045963121_2_alg».proof.Proof.RefValueMask
import proofs.«137196_j32049045963121_2_alg».proof.Proof.RefValueHeads

noncomputable section

open scoped BigOperators

namespace Cert.ReferenceIdeal.RefValue

open Cert.ReferenceIdeal Cert.ReferenceIdeal.Gen Cert.ReferenceIdeal.Read Idealize.ShloMosaic Idealize.ShloMosaic.ValueIdx Cert.Spec

/-- The selected scores at head `h`, query `s`, key `t` are the specification's `masked` of the head's queries and keys. -/
theorem masked_read (x0 x1 : (⟨S2048x1024, .f32⟩ : BufTy).Contents (Elt Ideal)) (x3 : (⟨S16x64x1024, .f32⟩ : BufTy).Contents (Elt Ideal)) (x4 : (⟨S16x64, .f32⟩ : BufTy).Contents (Elt Ideal))
    (x5 : (⟨S16x64x1024, .f32⟩ : BufTy).Contents (Elt Ideal)) (x6 : (⟨S16x64, .f32⟩ : BufTy).Contents (Elt Ideal))
    (h : Fin 16) (s t : Fin 2048) :
    val_main_v16 (F := Ideal) x0 x1 x3 x4 x5 x6 (ix3 h s t) = masked (headOf x0 x3 x4 h) (headOf x1 x5 x6 h) s t := by
  rw [val_main_v16_apply, val_main_call0_v5_apply, val_main_call0_v4_apply, val_main_call0_v2_apply, val_main_call0_v0_apply,
    val_main_call0_v1_apply, val_main_call0_c_apply, val_main_call0_v3_apply, val_main_call0_v6_apply, val_main_call0_cst_apply,
    val_main_v15_apply]
  show Scalar.select (IntOp.cmpi .sge (IntOp.addi (BitVec.ofNat 32 s.val) 0#32) (BitVec.ofNat 32 t.val)) _ _ = _
  rw [sge_iota s.val t.val s.isLt t.isLt]
  unfold masked
  by_cases hts : t.val ≤ s.val
  · rw [if_pos hts, if_pos hts, select_one]
    refine Finset.sum_congr rfl fun j _ => ?_
    have e1 : lidx_main_v15 (ix3 h s t) j = ix3 h s j := funext fun a => by
      match a with | ⟨0, _⟩ => rfl | ⟨1, _⟩ => rfl | ⟨2, _⟩ => rfl
    have e2 : ridx_main_v15 (ix3 h s t) j = ix3 h t j := funext fun a => by
      match a with | ⟨0, _⟩ => rfl | ⟨1, _⟩ => rfl | ⟨2, _⟩ => rfl
    rw [e1, e2, q_read, k_read]
  · rw [if_neg hts, if_neg hts, select_zero, Ideal.ofBits_def, Ideal.ofBits_zero_f32]

/-- Divided by the word 8: the specification's `rScaled`. -/
theorem scaled_read (x0 x1 : (⟨S2048x1024, .f32⟩ : BufTy).Contents (Elt Ideal)) (x3 : (⟨S16x64x1024, .f32⟩ : BufTy).Contents (Elt Ideal)) (x4 : (⟨S16x64, .f32⟩ : BufTy).Contents (Elt Ideal))
    (x5 : (⟨S16x64x1024, .f32⟩ : BufTy).Contents (Elt Ideal)) (x6 : (⟨S16x64, .f32⟩ : BufTy).Contents (Elt Ideal))
    (h : Fin 16) (s t : Fin 2048) :
    val_main_v18 (F := Ideal) x0 x1 x3 x4 x5 x6 (ix3 h s t) = rScaled (headOf x0 x3 x4 h) (headOf x1 x5 x6 h) s t := by
  rw [val_main_v18_apply, val_main_v17_apply, val_main_cst_apply, masked_read, Ideal.hostDivf_def, Ideal.ofBits_def]
  rfl

end Cert.ReferenceIdeal.RefValue

end
-- ==== Proof.RefValueSoftmax.lean ====
/-
  The reference's log-softmax over the QUERY axis. For head `h` and key column `t`: the maximum over the 2048 queries
  (a fold of the maximum from −∞, then once more against −∞), the shifted scores, the sum of their exponentials from
  the word 0, its logarithm, and the shifted scores less that logarithm.
-/
import proofs.«137196_j32049045963121_2_alg».proof.Proof.RefValueScores

noncomputable section

open scoped BigOperators

namespace Cert.ReferenceIdeal.RefValue

open Cert.ReferenceIdeal Cert.ReferenceIdeal.Gen Cert.ReferenceIdeal.Read Idealize.ShloMosaic Idealize.ShloMosaic.ValueIdx Cert.Spec

/-- The reduction with the maximum over the query axis, read at (h, t): the fold of `max` from −∞ over the column's
    2048 scaled scores. -/
theorem colmax_read (x0 x1 : (⟨S2048x1024, .f32⟩ : BufTy).Contents (Elt Ideal)) (x3 : (⟨S16x64x1024, .f32⟩ : BufTy).Contents (Elt Ideal)) (x4 : (⟨S16x64, .f32⟩ : BufTy).Contents (Elt Ideal))
    (x5 : (⟨S16x64x1024, .f32⟩ : BufTy).Contents (Elt Ideal)) (x6 : (⟨S16x64, .f32⟩ : BufTy).Contents (Elt Ideal))
    (h : Fin 16) (t : Fin 2048) :
    val_main_call1_v0 (F := Ideal) x0 x1 x3 x4 x5 x6 (ix2 h t)
      = (Finset.univ : Finset (Fin 2048)).fold max ⊥ (fun s => val_main_v18 (F := Ideal) x0 x1 x3 x4 x5 x6 (ix3 h s t)) := by
  unfold val_main_call1_v0
  generalize val_main_v18 (F := Ideal) x0 x1 x3 x4 x5 x6 = y
  have h0 : S16x2048x2048.Reduces [1] S16x2048 := by decide
  refine (Host.reduce_eq_fold_single (α := Ideal .f32) (FloatOps.maximumf (F := Ideal) (φ := .f32)) y (val_main_call1_cst (F := Ideal))
    reducesTo_S16x2048x2048_S16x2048_d1 h0 h_S_ (ix2 h t)).trans ?_
  have hinit : (val_main_call1_cst (F := Ideal)) (Shape.Idx.first h_S_) = ⊥ := by
    rw [val_main_call1_cst_apply, Ideal.ofBits_def, ofBits_ninf]
  have hfun : (y ∘ h0.lift (ix2 h t)) = fun s : Fin 2048 => y (ix3 h s t) := funext fun k =>
    congrArg y (funext fun a => Fin.ext (by match a with | ⟨0, _⟩ => rfl | ⟨1, _⟩ => rfl | ⟨2, _⟩ => rfl))
  rw [hinit, hfun]
  rfl

/-- The column maximum is the specification's `rMax`. -/
theorem max_read (x0 x1 : (⟨S2048x1024, .f32⟩ : BufTy).Contents (Elt Ideal)) (x3 : (⟨S16x64x1024, .f32⟩ : BufTy).Contents (Elt Ideal)) (x4 : (⟨S16x64, .f32⟩ : BufTy).Contents (Elt Ideal))
    (x5 : (⟨S16x64x1024, .f32⟩ : BufTy).Contents (Elt Ideal)) (x6 : (⟨S16x64, .f32⟩ : BufTy).Contents (Elt Ideal))
    (h : Fin 16) (t : Fin 2048) :
    val_main_call1_v2 (F := Ideal) x0 x1 x3 x4 x5 x6 (ix2 h t) = rMax (headOf x0 x3 x4 h) (headOf x1 x5 x6 h) t := by
  rw [val_main_call1_v2_apply, val_main_call1_v1_apply, val_main_call1_cst_0_apply, Ideal.ofBits_def, ofBits_ninf,
    Ideal.maximumf_def, colmax_read, max_eq_right bot_le]
  unfold rMax
  exact Finset.fold_congr fun s _ => scaled_read x0 x1 x3 x4 x5 x6 h s t

/-- The scores less their column's maximum: the specification's `rShift`. -/
theorem shift_read (x0 x1 : (⟨S2048x1024, .f32⟩ : BufTy).Contents (Elt Ideal)) (x3 : (⟨S16x64x1024, .f32⟩ : BufTy).Contents (Elt Ideal)) (x4 : (⟨S16x64, .f32⟩ : BufTy).Contents (Elt Ideal))
    (x5 : (⟨S16x64x1024, .f32⟩ : BufTy).Contents (Elt Ideal)) (x6 : (⟨S16x64, .f32⟩ : BufTy).Contents (Elt Ideal))
    (h : Fin 16) (s t : Fin 2048) :
    val_main_call1_v5 (F := Ideal) x0 x1 x3 x4 x5 x6 (ix3 h s t) = rShift (headOf x0 x3 x4 h) (headOf x1 x5 x6 h) s t := by
  have e : idx_main_call1_v3 (idx_main_call1_v4 (ix3 h s t)) = ix2 h t := funext fun a => by
    match a with | ⟨0, _⟩ => rfl | ⟨1, _⟩ => rfl
  rw [val_main_call1_v5_apply, val_main_call1_v4_apply, val_main_call1_v3_apply, e, scaled_read, max_read, Ideal.subf_def]
  rfl

/-- The sum over the queries of the exponentials of the shifted scores, from the word 0. -/
theorem expsum_read (x0 x1 : (⟨S2048x1024, .f32⟩ : BufTy).Contents (Elt Ideal)) (x3 : (⟨S16x64x1024, .f32⟩ : BufTy).Contents (Elt Ideal)) (x4 : (⟨S16x64, .f32⟩ : BufTy).Contents (Elt Ideal))
    (x5 : (⟨S16x64x1024, .f32⟩ : BufTy).Contents (Elt Ideal)) (x6 : (⟨S16x64, .f32⟩ : BufTy).Contents (Elt Ideal))
    (h : Fin 16) (t : Fin 2048) :
    val_main_call1_v7 (F := Ideal) x0 x1 x3 x4 x5 x6 (ix2 h t) = ∑ s : Fin 2048, Ideal.exp (rShift (headOf x0 x3 x4 h) (headOf x1 x5 x6 h) s t) := by
  rw [val_main_call1_v7_apply, val_main_call1_cst_1_apply, Ideal.ofBits_def, Ideal.ofBits_zero_f32, zero_add]
  refine Finset.sum_congr rfl fun s _ => ?_
  have e : idx_main_call1_v7 (ix2 h t) s = ix3 h s t := funext fun a => by
    match a with | ⟨0, _⟩ => rfl | ⟨1, _⟩ => rfl | ⟨2, _⟩ => rfl
  rw [e, val_main_call1_v6_apply, shift_read, Ideal.hostUnary_exp_def]

/-- The log-softmax's result: the shifted score less the logarithm of its column's sum, `rShift − rLse`. -/
theorem logsoftmax_read (x0 x1 : (⟨S2048x1024, .f32⟩ : BufTy).Contents (Elt Ideal)) (x3 : (⟨S16x64x1024, .f32⟩ : BufTy).Contents (Elt Ideal)) (x4 : (⟨S16x64, .f32⟩ : BufTy).Contents (Elt Ideal))
    (x5 : (⟨S16x64x1024, .f32⟩ : BufTy).Contents (Elt Ideal)) (x6 : (⟨S16x64, .f32⟩ : BufTy).Contents (Elt Ideal))
    (h : Fin 16) (s t : Fin 2048) :
    val_main_v19 (F := Ideal) x0 x1 x3 x4 x5 x6 (ix3 h s t) = rShift (headOf x0 x3 x4 h) (headOf x1 x5 x6 h) s t - rLse (headOf x0 x3 x4 h) (headOf x1 x5 x6 h) t := by
  have e : idx_main_call1_v8 (idx_main_call1_v10 (ix3 h s t)) = ix2 h t := funext fun a => by
    match a with | ⟨0, _⟩ => rfl | ⟨1, _⟩ => rfl
  rw [val_main_v19_apply, shift_read, val_main_call1_v10_apply, val_main_call1_v9_apply, val_main_call1_v8_apply, e, expsum_read,
    Ideal.hostUnary_log_def, Ideal.subf_def]
  rfl

end Cert.ReferenceIdeal.RefValue

end
-- ==== Proof.RefValue.lean ====
/-
  The reference's attention and output layer, and the reference's result as the specification's `refOut`.

  Per head the log-softmax matrix is contracted with the values over the 2048 keys (`rAttn`); the heads' results
  [16, 2048, 64] are transposed to [2048, 16, 64] and laid side by side as [2048, 1024] (feature x = 64·h + e, read
  back as head x / 64, coordinate x % 64); the output layer contracts the features with the transposed output weights
  and adds the bias broadcast over the tokens.
-/
import proofs.«137196_j32049045963121_2_alg».proof.Proof.RefValueSoftmax

noncomputable section

open scoped BigOperators

namespace Cert.ReferenceIdeal.RefValue

open Cert.ReferenceIdeal Cert.ReferenceIdeal.Gen Cert.ReferenceIdeal.Read Idealize.ShloMosaic Idealize.ShloMosaic.ValueIdx Cert.Spec

/-- The contraction of the log-softmax with the values over the keys: the specification's `rAttn`. -/
theorem attn_read (x0 x1 x2 : (⟨S2048x1024, .f32⟩ : BufTy).Contents (Elt Ideal)) (x3 : (⟨S16x64x1024, .f32⟩ : BufTy).Contents (Elt Ideal)) (x4 : (⟨S16x64, .f32⟩ : BufTy).Contents (Elt Ideal))
    (x5 : (⟨S16x64x1024, .f32⟩ : BufTy).Contents (Elt Ideal)) (x6 : (⟨S16x64, .f32⟩ : BufTy).Contents (Elt Ideal)) (x7 : (⟨S16x64x1024, .f32⟩ : BufTy).Contents (Elt Ideal)) (x8 : (⟨S16x64, .f32⟩ : BufTy).Contents (Elt Ideal))
    (h : Fin 16) (s : Fin 2048) (e : Fin 64) :
    val_main_v20 (F := Ideal) x0 x1 x2 x3 x4 x5 x6 x7 x8 (ix3 h s e) = rAttn (headOf x0 x3 x4 h) (headOf x1 x5 x6 h) (headOf x2 x7 x8 h) s e := by
  rw [val_main_v20_apply]
  unfold rAttn
  refine Finset.sum_congr rfl fun t _ => ?_
  have e1 : lidx_main_v20 (ix3 h s e) t = ix3 h s t := funext fun a => by
    match a with | ⟨0, _⟩ => rfl | ⟨1, _⟩ => rfl | ⟨2, _⟩ => rfl
  have e2 : ridx_main_v20 (ix3 h s e) t = ix3 h t e := funext fun a => by
    match a with | ⟨0, _⟩ => rfl | ⟨1, _⟩ => rfl | ⟨2, _⟩ => rfl
  rw [e1, e2, logsoftmax_read, v_read]

/-- The heads laid side by side: feature `x` of token `s` is head `x / 64`'s coordinate `x % 64`. -/
theorem concat_read (x0 x1 x2 : (⟨S2048x1024, .f32⟩ : BufTy).Contents (Elt Ideal)) (x3 : (⟨S16x64x1024, .f32⟩ : BufTy).Contents (Elt Ideal)) (x4 : (⟨S16x64, .f32⟩ : BufTy).Contents (Elt Ideal))
    (x5 : (⟨S16x64x1024, .f32⟩ : BufTy).Contents (Elt Ideal)) (x6 : (⟨S16x64, .f32⟩ : BufTy).Contents (Elt Ideal)) (x7 : (⟨S16x64x1024, .f32⟩ : BufTy).Contents (Elt Ideal)) (x8 : (⟨S16x64, .f32⟩ : BufTy).Contents (Elt Ideal))
    (s : Fin 2048) (x : Fin 1024) :
    val_main_v22 (F := Ideal) x0 x1 x2 x3 x4 x5 x6 x7 x8 (ix2 s x)
      = rAttn (headOf x0 x3 x4 ⟨x.val / 64, by have := x.isLt; omega⟩) (headOf x1 x5 x6 ⟨x.val / 64, by have := x.isLt; omega⟩)
          (headOf x2 x7 x8 ⟨x.val / 64, by have := x.isLt; omega⟩) s ⟨x.val % 64, Nat.mod_lt _ (by decide)⟩ := by
  have hs := s.isLt
  have hx := x.isLt
  have e : idx_main_v21 (idx_main_v22 (ix2 s x))
      = ix3 (⟨x.val / 64, by omega⟩ : Fin 16) s (⟨x.val % 64, Nat.mod_lt _ (by decide)⟩ : Fin 64) := funext fun a => Fin.ext (by
    match a with
    | ⟨0, _⟩ => show (s.val * 1024 + x.val) / 64 % 16 = x.val / 64; omega
    | ⟨1, _⟩ => show (s.val * 1024 + x.val) / 1024 = s.val; omega
    | ⟨2, _⟩ => show (s.val * 1024 + x.val) % 64 = x.val % 64; omega)
  rw [val_main_v22_apply, val_main_v21_apply, e, attn_read]

/-- The reference's result at token `s`, output feature `j`. -/
theorem out_read (x0 x1 x2 : (⟨S2048x1024, .f32⟩ : BufTy).Contents (Elt Ideal)) (x3 : (⟨S16x64x1024, .f32⟩ : BufTy).Contents (Elt Ideal)) (x4 : (⟨S16x64, .f32⟩ : BufTy).Contents (Elt Ideal))
    (x5 : (⟨S16x64x1024, .f32⟩ : BufTy).Contents (Elt Ideal)) (x6 : (⟨S16x64, .f32⟩ : BufTy).Contents (Elt Ideal)) (x7 : (⟨S16x64x1024, .f32⟩ : BufTy).Contents (Elt Ideal)) (x8 : (⟨S16x64, .f32⟩ : BufTy).Contents (Elt Ideal)) (x9 : (⟨S1024x1024, .f32⟩ : BufTy).Contents (Elt Ideal)) (x10 : (⟨S1024, .f32⟩ : BufTy).Contents (Elt Ideal))
    (s : Fin 2048) (j : Fin 1024) :
    val_main_v27 (F := Ideal) x0 x1 x2 x3 x4 x5 x6 x7 x8 x9 x10 (ix2 s j)
      = refOut (mkArgs x0 x1 x2 x3 x4 x5 x6 x7 x8 x9 x10) s j := by
  have eb : idx_main_v25 (idx_main_v26 (ix2 s j)) = ix1 j := funext fun a => by
    match a with | ⟨0, _⟩ => rfl
  rw [val_main_v27_apply, val_main_v24_apply, val_main_v26_apply, val_main_v25_apply, eb, Ideal.addf_def]
  show _ = (∑ x : Fin 1024, rAttn (headOf x0 x3 x4 ⟨x.val / 64, _⟩) (headOf x1 x5 x6 ⟨x.val / 64, _⟩)
      (headOf x2 x7 x8 ⟨x.val / 64, _⟩) s ⟨x.val % 64, _⟩ * x9 (ix2 j x)) + x10 (ix1 j)
  refine congrArg (· + x10 (ix1 j)) (Finset.sum_congr rfl fun x _ => ?_)
  have e1 : lidx_main_v24 (ix2 s j) x = ix2 s x := funext fun a => by
    match a with | ⟨0, _⟩ => rfl | ⟨1, _⟩ => rfl
  have e2 : idx_main_v23 (ridx_main_v24 (ix2 s j) x) = ix2 j x := funext fun a => by
    match a with | ⟨0, _⟩ => rfl | ⟨1, _⟩ => rfl
  rw [e1, concat_read, val_main_v23_apply, e2]

/-- The reference's last stage, as a function of the eleven argument arrays, is the specification's `refOut`. -/
theorem ref_value_of (x0 x1 x2 : (⟨S2048x1024, .f32⟩ : BufTy).Contents (Elt Ideal)) (x3 : (⟨S16x64x1024, .f32⟩ : BufTy).Contents (Elt Ideal)) (x4 : (⟨S16x64, .f32⟩ : BufTy).Contents (Elt Ideal))
    (x5 : (⟨S16x64x1024, .f32⟩ : BufTy).Contents (Elt Ideal)) (x6 : (⟨S16x64, .f32⟩ : BufTy).Contents (Elt Ideal)) (x7 : (⟨S16x64x1024, .f32⟩ : BufTy).Contents (Elt Ideal)) (x8 : (⟨S16x64, .f32⟩ : BufTy).Contents (Elt Ideal)) (x9 : (⟨S1024x1024, .f32⟩ : BufTy).Contents (Elt Ideal)) (x10 : (⟨S1024, .f32⟩ : BufTy).Contents (Elt Ideal)) :
    val_main_v27 (F := Ideal) x0 x1 x2 x3 x4 x5 x6 x7 x8 x9 x10
      = fun i => refOut (mkArgs x0 x1 x2 x3 x4 x5 x6 x7 x8 x9 x10) (i 0) (i 1) := by
  funext i
  obtain ⟨s, j, rfl⟩ : ∃ (s : Fin 2048) (j : Fin 1024), i = ix2 s j := ⟨i 0, i 1, eq_ix2 i⟩
  exact out_read x0 x1 x2 x3 x4 x5 x6 x7 x8 x9 x10 s j

section Run

open Idealize.ShloMosaic.TcCoe Idealize.SL.Sem Idealize.ShloMosaic.StableHlo

/-- The reference's result is the specification's `refOut` of its argument arrays. -/
theorem ref_value (m : (ℓ : Loc nD τ sig) → Buf (Elt Ideal) ℓ) (c : Dev nD) :
    Cert.ReferenceIdeal.Value.res_main_v27 (F := Ideal) m c
      = fun i => Cert.Spec.refOut (Cert.Spec.mkArgs (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)))
        (i 0) (i 1) := by
  rw [val_main_v27_eq]
  exact ref_value_of _ _ _ _ _ _ _ _ _ _ _

/-- Every weakly fair execution of the reference terminates with its result holding the specification's `refOut` of the
    argument arrays as they were at the start, the argument arrays unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v27)
        = (fun i => Cert.Spec.refOut (Cert.Spec.mkArgs (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)))
          (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c).1.trans (ref_value m c), (h c).2⟩)
    (Cert.ReferenceIdeal.Value.run (F := Ideal) m ρ)

end Run

end Cert.ReferenceIdeal.RefValue

end
-- ==== Proof.MathConsts.lean ====
/-
  The two scaling constants: the binary32 words of one eighth and of eight, as the real numbers they denote.
-/
import proofs.«137196_j32049045963121_2_alg».proof.Proof.Spec

noncomputable section

open scoped BigOperators

namespace Cert.Spec

open Idealize.ShloMosaic

/-- The word with sign 0, exponent field 124 and zero fraction denotes 2^(124-127) = 1/8. -/
theorem eighthW_eq : eighthW = ((1 / 8 : ℝ) : EReal) := by
  simp [eighthW, Ideal.ofBits, Ideal.ieee, -EReal.coe_mul]; norm_num

/-- The word with sign 0, exponent field 130 and zero fraction denotes 2^(130-127) = 8. -/
theorem eightW_eq : eightW = ((8 : ℝ) : EReal) := by
  simp [eightW, Ideal.ofBits, Ideal.ieee, -EReal.coe_mul]; norm_num

end Cert.Spec

end
-- ==== Proof.MathBasic.lean ====
/-
  General facts about extended reals that happen to be real numbers: sums, products and differences of real
  entries are real; a finite sum of real entries is the sum taken in the reals; the running maximum, started
  from the bottom element, of a non-empty finite family of reals is a real; and the logarithm of a sum of
  exponentials of reals is a real (the sum is positive).
-/
import proofs.«137196_j32049045963121_2_alg».proof.Proof.Spec

noncomputable section

open scoped BigOperators

namespace Cert.Spec

open Idealize.ShloMosaic

/-- The inclusion of the reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem real_zero : ∃ r : ℝ, (0 : EReal) = r := ⟨0, by simp⟩

theorem real_add {x y : EReal} (hx : ∃ r : ℝ, x = r) (hy : ∃ r : ℝ, y = r) : ∃ r : ℝ, x + y = r := by
  obtain ⟨a, rfl⟩ := hx
  obtain ⟨b, rfl⟩ := hy
  exact ⟨a + b, (EReal.coe_add a b).symm⟩

theorem real_sub {x y : EReal} (hx : ∃ r : ℝ, x = r) (hy : ∃ r : ℝ, y = r) : ∃ r : ℝ, x - y = r := by
  obtain ⟨a, rfl⟩ := hx
  obtain ⟨b, rfl⟩ := hy
  exact ⟨a - b, (EReal.coe_sub a b).symm⟩

theorem real_mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

/-- A finite sum of real entries is real. -/
theorem real_sum {ι : Type*} (s : Finset ι) (f : ι → EReal) (hf : ∀ i, ∃ r : ℝ, f i = r) :
    ∃ r : ℝ, ∑ i ∈ s, f i = r := by
  choose g hg using hf
  refine ⟨∑ i ∈ s, g i, ?_⟩
  rw [coe_finset_sum]
  exact Finset.sum_congr rfl (fun i _ => hg i)

/-- The running maximum from the bottom element over a non-empty finite family of reals is a real. -/
theorem fold_max_real {ι : Type*} (s : Finset ι) (f : ι → EReal) (hf : ∀ i, ∃ r : ℝ, f i = r)
    (hs : s.Nonempty) : ∃ r : ℝ, s.fold max ⊥ f = r := by
  induction hs using Finset.Nonempty.cons_induction with
  | singleton a =>
    obtain ⟨r, hr⟩ := hf a
    exact ⟨r, by rw [Finset.fold_singleton, hr, max_bot_right]⟩
  | cons a s ha hs ih =>
    obtain ⟨r, hr⟩ := hf a
    obtain ⟨r', hr'⟩ := ih
    exact ⟨max r r', by rw [Finset.fold_cons, hr, hr']; exact (EReal.coe_strictMono.monotone.map_max).symm⟩

/-- The logarithm of a non-empty finite sum of exponentials of reals is a real: the sum is a positive real. -/
theorem log_sum_exp_real {ι : Type*} [Fintype ι] [Nonempty ι] (x : ι → ℝ) :
    ∃ r : ℝ, Ideal.log (∑ i, Ideal.exp ((x i : ℝ) : EReal)) = r := by
  have hpos : 0 < ∑ i, Real.exp (x i) :=
    Finset.sum_pos (fun i _ => Real.exp_pos _) Finset.univ_nonempty
  refine ⟨Real.log (∑ i, Real.exp (x i)), ?_⟩
  simp only [Ideal.exp_coe]
  rw [← coe_finset_sum, Ideal.log_coe, if_neg (not_le.mpr hpos)]

/-- The same with a common real shift subtracted from real entries. -/
theorem log_sum_exp_sub_real {ι : Type*} [Fintype ι] [Nonempty ι] (f : ι → EReal) (M : EReal)
    (hf : ∀ i, ∃ r : ℝ, f i = r) (hM : ∃ r : ℝ, M = r) :
    ∃ r : ℝ, Ideal.log (∑ i, Ideal.exp (f i - M)) = r := by
  choose x hx using hf
  obtain ⟨m, rfl⟩ := hM
  simp only [hx, ← EReal.coe_sub]
  exact log_sum_exp_real (fun i => x i - m)

end Cert.Spec

end
-- ==== Proof.MathTiles.lean ====
/-
  The tiled accumulation against the single sum. Summing over the 2048 key columns is summing over the two
  tiles of 1024 columns in turn; and for real entries the kernel's per-tile form
      Σ a·v − Σ (m + l)·v        (added tile after tile onto zero)
  is the reference's  Σ ((a − m) − l)·v  over all columns.
-/
import proofs.«137196_j32049045963121_2_alg».proof.Proof.MathBasic

noncomputable section

open scoped BigOperators

namespace Cert.Spec

open Idealize.ShloMosaic

/-- Summing over the 2048 key columns is summing over the two tiles of 1024 in turn. -/
theorem sum_col {M : Type*} [AddCommMonoid M] (f : Fin 2048 → M) :
    ∑ t : Fin 2048, f t = (∑ u : Fin 1024, f (col 0 u)) + ∑ u : Fin 1024, f (col 1 u) := by
  have h0 : ∀ u : Fin 1024, (Fin.castAdd 1024 u : Fin (1024 + 1024)) = col 0 u :=
    fun u => Fin.ext (by simp [col])
  have h1 : ∀ u : Fin 1024, (Fin.natAdd 1024 u : Fin (1024 + 1024)) = col 1 u :=
    fun u => Fin.ext (by simp [col, Nat.add_comm])
  have h := Fin.sum_univ_add (a := 1024) (b := 1024) f
  simp only [h0, h1] at h
  exact h

/-- The identity over the reals: the two tiles' contributions, each a sum of products minus the rank-one
    correction, added in turn onto zero, make the single sum of the shifted products. -/
theorem tiles_real (a m l w : Fin 2048 → ℝ) :
    (0 + ((∑ u : Fin 1024, a (col 0 u) * w (col 0 u))
            - ∑ u : Fin 1024, (m (col 0 u) + l (col 0 u)) * w (col 0 u)))
      + ((∑ u : Fin 1024, a (col 1 u) * w (col 1 u))
            - ∑ u : Fin 1024, (m (col 1 u) + l (col 1 u)) * w (col 1 u))
      = ∑ t : Fin 2048, ((a t - m t) - l t) * w t := by
  rw [sum_col (fun t => ((a t - m t) - l t) * w t), zero_add,
    ← Finset.sum_sub_distrib, ← Finset.sum_sub_distrib]
  congr 1 <;> exact Finset.sum_congr rfl (fun u _ => by ring)

/-- The same identity over the extended reals when every entry is real. -/
theorem tiles_eq (A M L V : Fin 2048 → EReal) (hA : ∀ t, ∃ r : ℝ, A t = r) (hM : ∀ t, ∃ r : ℝ, M t = r)
    (hL : ∀ t, ∃ r : ℝ, L t = r) (hV : ∀ t, ∃ r : ℝ, V t = r) :
    (0 + ((∑ u : Fin 1024, A (col 0 u) * V (col 0 u))
            - ∑ u : Fin 1024, (M (col 0 u) + L (col 0 u)) * V (col 0 u)))
      + ((∑ u : Fin 1024, A (col 1 u) * V (col 1 u))
            - ∑ u : Fin 1024, (M (col 1 u) + L (col 1 u)) * V (col 1 u))
      = ∑ t : Fin 2048, ((A t - M t) - L t) * V t := by
  choose a ha using hA
  choose m hm using hM
  choose l hl using hL
  choose w hw using hV
  simp only [ha, hm, hl, hw, ← EReal.coe_mul, ← EReal.coe_add, ← EReal.coe_sub, ← coe_finset_sum,
    ← EReal.coe_zero]
  exact congrArg _ (tiles_real a m l w)

end Cert.Spec

end
-- ==== Proof.MathAttn.lean ====
/-
  One head: the kernel's formula and the reference's formula agree when every entry of q, k and v is real.

  The scores scaled by the word 1/8 and the scores divided by the word 8 are the same extended real whatever
  the score is, so the two column maxima and the two log-sum-exps are the same too; with real entries each of
  them is a real, and the tiled accumulation is then the single sum by the identity over the reals.
-/
import proofs.«137196_j32049045963121_2_alg».proof.Proof.MathConsts
import proofs.«137196_j32049045963121_2_alg».proof.Proof.MathTiles

noncomputable section

open scoped BigOperators

namespace Cert.Spec

open Idealize.ShloMosaic

/-- One head's projection of real tokens by real weights and a real bias is real. -/
theorem proj_real (X : Fin 2048 → Fin 1024 → EReal) (W : Fin 64 → Fin 1024 → EReal) (b : Fin 64 → EReal)
    (hX : ∀ s d, ∃ r : ℝ, X s d = r) (hW : ∀ k d, ∃ r : ℝ, W k d = r) (hb : ∀ k, ∃ r : ℝ, b k = r) :
    ∀ s k, ∃ r : ℝ, proj X W b s k = r := fun s k =>
  real_add (real_sum _ _ (fun d => real_mul (hX s d) (hW k d))) (hb k)

section OneHead

variable (q k v : Fin 2048 → Fin 64 → EReal)

/-- Multiplying by the word 1/8 and dividing by the word 8 are the same operation on every extended real. -/
theorem kScaled_eq_rScaled (s t : Fin 2048) : kScaled q k s t = rScaled q k s t := by
  rw [kScaled, rScaled, eighthW_eq, eightW_eq, Ideal.div_coe (by norm_num)]

theorem kMax_eq_rMax (t : Fin 2048) : kMax q k t = rMax q k t := by
  simp only [kMax, rMax, kScaled_eq_rScaled]

theorem kLse_eq_rLse (t : Fin 2048) : kLse q k t = rLse q k t := by
  simp only [kLse, rLse, rShift, kScaled_eq_rScaled, kMax_eq_rMax]

variable (hq : ∀ s j, ∃ r : ℝ, q s j = r) (hk : ∀ s j, ∃ r : ℝ, k s j = r)
include hq hk

theorem masked_real (s t : Fin 2048) : ∃ r : ℝ, masked q k s t = r := by
  unfold masked
  split_ifs
  · exact real_sum _ _ (fun j => real_mul (hq s j) (hk t j))
  · exact real_zero

theorem kScaled_real (s t : Fin 2048) : ∃ r : ℝ, kScaled q k s t = r := by
  rw [kScaled, eighthW_eq]
  exact real_mul (masked_real q k hq hk s t) ⟨_, rfl⟩

/-- A column's maximum over the 2048 queries of real scores is real. -/
theorem kMax_real (t : Fin 2048) : ∃ r : ℝ, kMax q k t = r :=
  fold_max_real _ _ (fun s => kScaled_real q k hq hk s t) Finset.univ_nonempty

/-- A column's log-sum-exp of real scores shifted by their real maximum is real. -/
theorem kLse_real (t : Fin 2048) : ∃ r : ℝ, kLse q k t = r :=
  log_sum_exp_sub_real _ _ (fun s => kScaled_real q k hq hk s t) (kMax_real q k hq hk t)

end OneHead

theorem attn_eq (q k v : Fin 2048 → Fin 64 → EReal) (hq : ∀ s j, ∃ r : ℝ, q s j = r)
    (hk : ∀ s j, ∃ r : ℝ, k s j = r) (hv : ∀ s j, ∃ r : ℝ, v s j = r) : kAttn q k v = rAttn q k v := by
  funext s e
  simp only [kAttn, rAttn, kTile, rShift, ← kScaled_eq_rScaled, ← kMax_eq_rMax, ← kLse_eq_rLse]
  exact tiles_eq (fun t => kScaled q k s t) (kMax q k) (kLse q k) (fun t => v t e)
    (fun t => kScaled_real q k hq hk s t) (kMax_real q k hq hk) (kLse_real q k hq hk) (fun t => hv t e)

end Cert.Spec

end
-- ==== Proof.MathOut.lean ====
/-
  The whole layer: with every argument entry real, each head's q, k and v are real, so each head's two
  formulas agree, and the output layer is the same function of the heads' results on both sides.
-/
import proofs.«137196_j32049045963121_2_alg».proof.Proof.MathAttn

noncomputable section

open scoped BigOperators

namespace Cert.Spec

open Idealize.ShloMosaic

theorem kernelOut_eq_refOut (a : Args) (h : a.Finite) : kernelOut a = refOut a := by
  obtain ⟨hQ, hK, hV, hWQ, hbQ, hWK, hbK, hWV, hbV, _, _⟩ := h
  have hattn : (fun h => kAttn (a.qh h) (a.kh h) (a.vh h)) = fun h => rAttn (a.qh h) (a.kh h) (a.vh h) :=
    funext fun h => attn_eq _ _ _ (proj_real _ _ _ hQ (hWQ h) (hbQ h)) (proj_real _ _ _ hK (hWK h) (hbK h))
      (proj_real _ _ _ hV (hWV h) (hbV h))
  funext s j
  rw [kernelOut, refOut, hattn]

end Cert.Spec

end
-- ==== Proof.Finite.lean ====
/-
  From the precondition to real entries. The precondition is the conjunction, over the eleven argument arrays,
  of "every entry x has |x| < +∞" (an all-reduction by `and` of the entrywise comparison). An extended real
  whose absolute value max x (−x) lies strictly below +∞ is neither −∞ nor +∞, hence a real number. So under the
  precondition every entry of every argument array is a real number.
-/
import proofs.«137196_j32049045963121_2_alg».proof.Proof.Spec
import proofs.«137196_j32049045963121_2_alg».proof.Defs
import proofs.«137196_j32049045963121_2_alg».proof.Proof.Gen.Pre_finite_inputs
import Idealize.ShloMosaic.Lib.ReduceAll
import Idealize.ShloMosaic.Lib.ValueIdx

noncomputable section

namespace Cert.Proof.Finiteness

open Idealize.ShloMosaic Idealize.SL.Sem Idealize.ShloMosaic.ValueIdx Cert.Pre_finite_inputs

/-- The scalar shape has one index. -/
instance subsingleton_scalar_idx : Subsingleton S_.Idx := ⟨fun _ _ => funext fun d => d.elim0⟩

/-- An extended real whose absolute value is strictly below +∞ (the word 0x7F800000) is a real number. -/
theorem real_of_abs_lt_inf (x : EReal)
    (h : Ideal.cmp .olt (max x (-x)) (Ideal.ofBits .f32 0x7F800000#32) = 1#1) : ∃ r : ℝ, x = r := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- An array all of whose entries have absolute value strictly below +∞ has real entries. -/
theorem real_of_all {s : Shape} {axes : List (Fin s.rank)} {dims : Fin S_.rank → Fin s.rank}
    (x : FVec Ideal s .f32) (hb : S_.BroadcastsInDim s dims) (hr : s.ReducesTo axes S_) (hu : 0 < S_.numel)
    (init : IVec S_ 1)
    (e : Host.reduce IntOp.andi
          (cmpf .olt (Host.absf x) (broadcastInDim s dims hb (constant (F := Ideal) S_ .f32 0x7F800000#32)))
          init hr hu ix0 = 1#1)
    (i : s.Idx) : ∃ r : ℝ, x i = r :=
  real_of_abs_lt_inf (x i) (Host.reduce_andi_all _ init hr hu ix0 e i)

/-- The precondition's predicate, all ones, makes every entry of the eleven argument arrays real. -/
theorem finite_of_fn [Facts] (x0 x1 x2 : FVec Ideal S2048x1024 .f32) (w3 : FVec Ideal S16x64x1024 .f32)
    (b4 : FVec Ideal S16x64 .f32) (w5 : FVec Ideal S16x64x1024 .f32) (b6 : FVec Ideal S16x64 .f32)
    (w7 : FVec Ideal S16x64x1024 .f32) (b8 : FVec Ideal S16x64 .f32) (w9 : FVec Ideal S1024x1024 .f32)
    (b10 : FVec Ideal S1024 .f32)
    (h : fn (F := Ideal) x0 x1 x2 w3 b4 w5 b6 w7 b8 w9 b10 = fun _ => 1#1) :
    (Cert.Spec.mkArgs x0 x1 x2 w3 b4 w5 b6 w7 b8 w9 b10).Finite := by
  have h0 := congrFun h ix0
  dsimp only [fn, fn_part1, fn_part2, fn_part3, andi] at h0
  simp only [IntOp.andi_eq_one] at h0
  obtain ⟨⟨⟨⟨⟨⟨⟨⟨⟨⟨e0, e1⟩, e2⟩, e3⟩, e4⟩, e5⟩, e6⟩, e7⟩, e8⟩, e9⟩, e10⟩ := h0
  exact ⟨fun s d => real_of_all x0 _ _ _ _ e0 (ix2 s d), fun s d => real_of_all x1 _ _ _ _ e1 (ix2 s d),
    fun s d => real_of_all x2 _ _ _ _ e2 (ix2 s d), fun a b d => real_of_all w3 _ _ _ _ e3 (ix3 a b d),
    fun a b => real_of_all b4 _ _ _ _ e4 (ix2 a b), fun a b d => real_of_all w5 _ _ _ _ e5 (ix3 a b d),
    fun a b => real_of_all b6 _ _ _ _ e6 (ix2 a b), fun a b d => real_of_all w7 _ _ _ _ e7 (ix3 a b d),
    fun a b => real_of_all b8 _ _ _ _ e8 (ix2 a b), fun j x => real_of_all w9 _ _ _ _ e9 (ix2 j x),
    fun j => real_of_all b10 _ _ _ _ e10 (ix1 j)⟩

/-- Under the kernel program's precondition the argument arrays it holds, read by coordinates, are all real. -/
theorem finite_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (Cert.Spec.mkArgs
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))).Finite :=
  finite_of_fn _ _ _ _ _ _ _ _ _ _ _ (h c)

end Cert.Proof.Finiteness

end
-- ==== Proof.lean ====
/-
  The certificate. The kernel computes multi-head causal attention whose softmax is a log-softmax over the query axis,
  in five kernel regions (three input projections, the attention, the output projection) among host reshapes and
  transposes; the reference computes the same with whole-array operations.

  * The two kernels' frames: each region's body runs on the blocks the pipeline hands it, the regions chain through the
    host operations, and no argument array is ever written.
  * The reference's frame: its run is a straight line of host operations.
  * Nothing was rewritten between the kernel and its idealization, so that conjunct is trivial.
  * The value claim: over the extended reals the kernel's result is the specification's `kernelOut` of the arguments,
    the reference's is `refOut`; the two differ in where the log-softmax's shift is applied — the kernel multiplies the
    scaled scores by the values and subtracts a rank-one correction (max + log-sum-exp) · values per key tile, the reference
    subtracts the shift first — and agree by distributivity once every entry is a real number, which the precondition
    (finite inputs) gives: projections of reals are real, a maximum over finitely many reals is real, a sum of
    exponentials is a positive real, its logarithm real. The scale 1/8 is the same real whether multiplied by or divided by 8.
-/
import proofs.«137196_j32049045963121_2_alg».proof.Defs
import proofs.«137196_j32049045963121_2_alg».proof.Proof.Gen.Kernel
import proofs.«137196_j32049045963121_2_alg».proof.Proof.Gen.KernelIdeal
import proofs.«137196_j32049045963121_2_alg».proof.Proof.Gen.ReferenceIdeal
import proofs.«137196_j32049045963121_2_alg».proof.Proof.Gen.Pre_finite_inputs
import proofs.«137196_j32049045963121_2_alg».proof.Proof.KB.Run
import proofs.«137196_j32049045963121_2_alg».proof.Proof.KI.Value
import proofs.«137196_j32049045963121_2_alg».proof.Proof.RefValue
import proofs.«137196_j32049045963121_2_alg».proof.Proof.MathOut
import proofs.«137196_j32049045963121_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frameH (F := Bits) m ρ
theorem frame_ki : Cert.frame_KernelIdeal := fun m ρ _ => Cert.KernelIdeal.Hand.frameH (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the specification's `refOut` of the arguments. -/
theorem algebraic : Cert.algebraic_KernelIdeal_ReferenceIdeal := by
  intro m ρ m' ρ' hpre hagree
  refine ⟨fun c i => Cert.Spec.refOut (Cert.Spec.mkArgs (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) (i 0) (i 1), ?_, ?_⟩
  · refine (θ_run Cert.KernelIdeal.defs _ _).mono (fun _ h c => ⟨(h c).1.trans ?_, (h c).2⟩)
      (Cert.KernelIdeal.Hand.run_main (F := Ideal) m ρ)
    rw [Cert.KernelIdeal.Hand.kernel_value m ρ c, Cert.Spec.kernelOut_eq_refOut _ (Cert.Proof.Finiteness.finite_of_pre m hpre c)]
  · refine (θ_run Cert.ReferenceIdeal.defs _ _).mono (fun _ h c => ⟨(h c).1.trans ?_, (h c).2⟩)
      (Cert.ReferenceIdeal.RefValue.ref_run m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
